-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128 : Shape := ⟨1, ![128]⟩
abbrev S128x40 : Shape := ⟨2, ![128, 40]⟩
abbrev S40 : Shape := ⟨1, ![40]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v32 : IVec S_ 1) (main_v33 : FVec F S128x40 .f32) : IVec S_ 1 :=
  let main_cst_12 : FVec F S_ .f32 := constant S_ .f32 0x7F800000#32
  let main_v34 : FVec F S128x40 .f32 := broadcastInDim S128x40 ![] bcast_S_S128x40 main_cst_12
  let main_v35 : IVec S128x40 1 := cmpf .olt main_v33 main_v34
  let main_c_13 : IVec S_ 1 := constantI S_ 1 1#1
  let main_v36 : IVec S_ 1 := (fun x v => Host.reduce IntOp.andi x v reducesTo_S128x40_S_d0_1 h_S_) main_v35 main_c_13
  let main_v37 : IVec S_ 1 := andi main_v32 main_v36
  let main_v38 : FVec F S40 .f32 := Host.absf main_arg8
  let main_cst_14 : FVec F S_ .f32 := constant S_ .f32 0x7F800000#32
  let main_v39 : FVec F S40 .f32 := broadcastInDim S40 ![] bcast_S_S40 main_cst_14
  let main_v40 : IVec S40 1 := cmpf .olt main_v38 main_v39
  let main_c_15 : IVec S_ 1 := constantI S_ 1 1#1
  let main_v41 : IVec S_ 1 := (fun x v => Host.reduce IntOp.andi x v reducesTo_S40_S_d0 h_S_) main_v40 main_c_15
  let main_v42 : IVec S_ 1 := andi main_v37 main_v41
  main_v42

def fn_part1 {F : FTy → Type} [FloatOps F] (main_arg4 : FVec F S128 .f32) (main_arg5 : FVec F S128x40 .f32) (main_arg6 : FVec F S40 .f32) (main_arg7 : FVec F S128x40 .f32) (main_arg8 : FVec F S40 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128x40 .f32 := Host.absf main_arg5
  let main_cst_8 : FVec F S_ .f32 := constant S_ .f32 0x7F800000#32
  let main_v24 : FVec F S128x40 .f32 := broadcastInDim S128x40 ![] bcast_S_S128x40 main_cst_8
  let main_v25 : IVec S128x40 1 := cmpf .olt main_v23 main_v24
  let main_c_9 : IVec S_ 1 := constantI S_ 1 1#1
  let main_v26 : IVec S_ 1 := (fun x v => Host.reduce IntOp.andi x v reducesTo_S128x40_S_d0_1 h_S_) main_v25 main_c_9
  let main_v27 : IVec S_ 1 := andi main_v22 main_v26
  let main_v28 : FVec F S40 .f32 := Host.absf main_arg6
  let main_cst_10 : FVec F S_ .f32 := constant S_ .f32 0x7F800000#32
  let main_v29 : FVec F S40 .f32 := broadcastInDim S40 ![] bcast_S_S40 main_cst_10
  let main_v30 : IVec S40 1 := cmpf .olt main_v28 main_v29
  let main_c_11 : IVec S_ 1 := constantI S_ 1 1#1
  let main_v31 : IVec S_ 1 := (fun x v => Host.reduce IntOp.andi x v reducesTo_S40_S_d0 h_S_) main_v30 main_c_11
  let main_v32 : IVec S_ 1 := andi main_v27 main_v31
  let main_v33 : FVec F S128x40 .f32 := Host.absf main_arg7
  fn_part2 (F := F) main_arg8 main_v32 main_v33

def fn {F : FTy → Type} [FloatOps F] (main_arg0 : FVec F S1x4096x128 .f32) (main_arg1 : FVec F S1x4096x4096 .f32) (main_arg2 : FVec F S_ .f32) (main_arg3 : FVec F S128x128 .f32) (main_arg4 : FVec F S128 .f32) (main_arg5 : FVec F S128x40 .f32) (main_arg6 : FVec F S40 .f32) (main_arg7 : FVec F S128x40 .f32) (main_arg8 : FVec F S40 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x128 .f32 := Host.absf main_arg3
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg4 main_arg5 main_arg6 main_arg7 main_arg8 main_v12 main_v15 main_c_5
-- ==== Kernel.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128 : Shape := ⟨1, ![128]⟩
abbrev S128x40 : Shape := ⟨2, ![128, 40]⟩
abbrev S40 : Shape := ⟨1, ![40]⟩
abbrev S4096x4096 : Shape := ⟨2, ![4096, 4096]⟩
abbrev S4096x128 : Shape := ⟨2, ![4096, 128]⟩
abbrev S1x1 : Shape := ⟨2, ![1, 1]⟩
abbrev S1x128 : Shape := ⟨2, ![1, 128]⟩
abbrev S1x40 : Shape := ⟨2, ![1, 40]⟩
abbrev S4096x40 : Shape := ⟨2, ![4096, 40]⟩
abbrev S256x4096 : Shape := ⟨2, ![256, 4096]⟩
abbrev S256x128 : Shape := ⟨2, ![256, 128]⟩
abbrev S256x40 : Shape := ⟨2, ![256, 40]⟩
abbrev S256 : Shape := ⟨1, ![256]⟩
abbrev S256x1 : Shape := ⟨2, ![256, 1]⟩
abbrev S1x4096x40 : Shape := ⟨3, ![1, 4096, 40]⟩

abbrev nBuf : Space → Nat
  | .hbm => 19
  | .vmem => 22
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S40, .f32⟩
  | .hbm, ⟨9, _⟩ => ⟨S4096x4096, .f32⟩
  | .hbm, ⟨10, _⟩ => ⟨S4096x128, .f32⟩
  | .hbm, ⟨11, _⟩ => ⟨S1x1, .f32⟩
  | .hbm, ⟨12, _⟩ => ⟨S1x128, .f32⟩
  | .hbm, ⟨13, _⟩ => ⟨S1x40, .f32⟩
  | .hbm, ⟨14, _⟩ => ⟨S1x40, .f32⟩
  | .hbm, ⟨15, _⟩ => ⟨S4096x128, .f32⟩
  | .hbm, ⟨16, _⟩ => ⟨S4096x40, .f32⟩
  | .hbm, ⟨17, _⟩ => ⟨S4096x40, .f32⟩
  | .hbm, ⟨18, _⟩ => ⟨S1x4096x40, .f32⟩
  | .local _ .vmem, ⟨0, _⟩ => ⟨S1x1, .f32⟩
  | .local _ .vmem, ⟨1, _⟩ => ⟨S256x4096, .f32⟩
  | .local _ .vmem, ⟨2, _⟩ => ⟨S256x4096, .f32⟩
  | .local _ .vmem, ⟨3, _⟩ => ⟨S256x128, .f32⟩
  | .local _ .vmem, ⟨4, _⟩ => ⟨S256x128, .f32⟩
  | .local _ .vmem, ⟨5, _⟩ => ⟨S128x128, .f32⟩
  | .local _ .vmem, ⟨6, _⟩ => ⟨S128x40, .f32⟩
  | .local _ .vmem, ⟨7, _⟩ => ⟨S128x40, .f32⟩
  | .local _ .vmem, ⟨8, _⟩ => ⟨S1x128, .f32⟩
  | .local _ .vmem, ⟨9, _⟩ => ⟨S1x40, .f32⟩
  | .local _ .vmem, ⟨10, _⟩ => ⟨S1x40, .f32⟩
  | .local _ .vmem, ⟨11, _⟩ => ⟨S256x128, .f32⟩
  | .local _ .vmem, ⟨12, _⟩ => ⟨S256x128, .f32⟩
  | .local _ .vmem, ⟨13, _⟩ => ⟨S256x40, .f32⟩
  | .local _ .vmem, ⟨14, _⟩ => ⟨S256x40, .f32⟩
  | .local _ .vmem, ⟨15, _⟩ => ⟨S256x40, .f32⟩
  | .local _ .vmem, ⟨16, _⟩ => ⟨S256x40, .f32⟩
  | .local _ .vmem, ⟨17, _⟩ => ⟨S4096x4096, .bf16⟩
  | .local _ .vmem, ⟨18, _⟩ => ⟨S4096x128, .bf16⟩
  | .local _ .vmem, ⟨19, _⟩ => ⟨S4096x128, .f32⟩
  | .local _ .vmem, ⟨20, _⟩ => ⟨S4096x40, .bf16⟩
  | .local _ .vmem, ⟨21, _⟩ => ⟨S4096x40, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v27 : Index := Scalar.indexCast v1
  let c0_8 : Index := 0#32
  ![v27.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v38 : Index := Scalar.indexCast v1
  let c0_14 : Index := 0#32
  ![v38.toNat, 0]
def k0_cond2 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  let c0_4 : Index := 0#32
  ![v13.toNat, 0]
def k0_off4 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v17 : Index := Scalar.indexCast v1
  let c0_7 : Index := 0#32
  ![v17.toNat, 0]
def k0_off5 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v45 : Index := Scalar.indexCast v1
  let c0_24 : Index := 0#32
  ![v45.toNat, 0]
def k0_cond3 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_3 : BitVec 32 := 0#32
  let v12 : BitVec 1 := Scalar.cmpi .ne v11 c0_i32_3
  v12

def k0_off6 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  let c0_4 : Index := 0#32
  ![v13.toNat, 0]
def k0_off7 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v17 : Index := Scalar.indexCast v1
  let c0_7 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 1 := Scalar.cmpi .eq arg0 c0_i32
  let c0_i32_0 : BitVec 32 := 0#32
  let c15_i32 : BitVec 32 := 15#32
  let v2 : BitVec 32 := Scalar.select v1 c0_i32_0 c15_i32
  let v3 : BitVec 32 := Scalar.select v0 arg1 v2
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 1 := Scalar.cmpi .eq arg0 c0_i32
  let c0_i32_0 : BitVec 32 := 0#32
  let c15_i32 : BitVec 32 := 15#32
  let v2 : BitVec 32 := Scalar.select v1 c0_i32_0 c15_i32
  let v3 : BitVec 32 := Scalar.select v0 arg1 v2
  let c0_i32_1 : BitVec 32 := 0#32
  let c0_i32_2 : BitVec 32 := 0#32
  ![v3.toNat, c0_i32_1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x40 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S1x4096x4096_S4096x4096 : S1x4096x4096.ShapeCasts S4096x4096
  shapeCasts_S1x4096x128_S4096x128 : S1x4096x128.ShapeCasts S4096x128
  shapeCasts_S_S1x1 : S_.ShapeCasts S1x1
  shapeCasts_S128_S1x128 : S128.ShapeCasts S1x128
  shapeCasts_S40_S1x40 : S40.ShapeCasts S1x40
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S1x1_S256x1 : S1x1.Broadcasts S256x1
  broadcasts_S256x1_S256x4096 : S256x1.Broadcasts S256x4096
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  broadcasts_S256x1_S256x128 : S256x1.Broadcasts S256x128
  shapeCasts_S256x1_S256x1 : S256x1.ShapeCasts S256x1
  inb_S4096x128_S4096x128_0_0 : ∀ a, (![0, 0] : Fin 2 → Nat) a + S4096x128.size a ≤ S4096x128.size a
  h_S4096x128 : 0 < S4096x128.numel
  broadcasts_S1x1_S256x128 : S1x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S256x40 : S1x40.Broadcasts S256x40
  inb_S256x40_S256x40_0_0 : ∀ a, (![0, 0] : Fin 2 → Nat) a + S256x40.size a ≤ S256x40.size a
  h_S256x40 : 0 < S256x40.numel
  slices_S256x128_o0_0_S256x40 : S256x128.Slices ![0, 0] S256x40
  shapeCasts_S256x40_S256x40 : S256x40.ShapeCasts S256x40
  broadcasts_S1x1_S256x40 : S1x1.Broadcasts S256x40
  inb_S4096x40_S4096x40_0_0 : ∀ a, (![0, 0] : Fin 2 → Nat) a + S4096x40.size a ≤ S4096x40.size a
  h_S4096x40 : 0 < S4096x40.numel
  bcast_S4096x40_S1x4096x40_1_2 : S4096x40.BroadcastsInDim S1x4096x40 (![1, 2] : Fin 2 → Fin S1x4096x40.rank)
  dot_S256x128_S128x128_S256x128_1_0_0_1_n_n_wf : DotDims.WF S256x128 S128x128 S256x128 [1] [0] [0] [1] [] []
  dot_S256x4096_S4096x128_S256x128_1_0_0_1_n_n_wf : DotDims.WF S256x4096 S4096x128 S256x128 [1] [0] [0] [1] [] []
  dot_S256x128_S128x40_S256x40_1_0_0_1_n_n_wf : DotDims.WF S256x128 S128x40 S256x40 [1] [0] [0] [1] [] []
  dot_S256x4096_S4096x40_S256x40_1_0_0_1_n_n_wf : DotDims.WF S256x4096 S4096x40 S256x40 [1] [0] [0] [1] [] []
  hrank0 : 0 < grid0.rank
  k0_mult1_dvd : ∀ i : grid0.Coords, 256 ∣ (k0_mult1 i).toNat
  k0_off1_inb : ∀ i : grid0.Coords, ∀ (k0_h1 : k0_cond1 i = 1#1), ∀ a, (k0_off1 i) a + S256x4096.size a ≤ S4096x4096.size a
  k0_off1_packedbf16 : ∀ i : grid0.Coords, ∀ (k0_h1 : k0_cond1 i = 1#1), (Rect.unit (s := S4096x4096) (k0_off1 i) S256x4096.size (k0_off1_inb i k0_h1)).PackedRows (EltTy.packing .bf16)
  k0_off2_inb : ∀ i : grid0.Coords, ∀ (k0_h1 : k0_cond1 i = 1#1), ∀ a, (k0_off2 i) a + S256x128.size a ≤ S4096x128.size a
  k0_off2_packedbf16 : ∀ i : grid0.Coords, ∀ (k0_h1 : k0_cond1 i = 1#1), (Rect.unit (s := S4096x128) (k0_off2 i) S256x128.size (k0_off2_inb i k0_h1)).PackedRows (EltTy.packing .bf16)
  k0_off3_inb : ∀ i : grid0.Coords, ∀ (k0_h2 : k0_cond2 i = 1#1), ∀ a, (k0_off3 i) a + S256x4096.size a ≤ S4096x4096.size a
  k0_off4_inb : ∀ i : grid0.Coords, ∀ (k0_h2 : k0_cond2 i = 1#1), ∀ a, (k0_off4 i) a + S256x128.size a ≤ S4096x128.size a
  k0_off5_inb : ∀ i : grid0.Coords, ∀ (k0_h2 : k0_cond2 i = 1#1), ∀ a, (k0_off5 i) a + S256x40.size a ≤ S4096x40.size a
  k0_off5_packedbf16 : ∀ i : grid0.Coords, ∀ (k0_h2 : k0_cond2 i = 1#1), (Rect.unit (s := S4096x40) (k0_off5 i) S256x40.size (k0_off5_inb i k0_h2)).PackedRows (EltTy.packing .bf16)
  k0_off6_inb : ∀ i : grid0.Coords, ∀ (k0_h3 : k0_cond3 i = 1#1), ∀ a, (k0_off6 i) a + S256x4096.size a ≤ S4096x4096.size a
  k0_off7_inb : ∀ i : grid0.Coords, ∀ (k0_h3 : k0_cond3 i = 1#1), ∀ a, (k0_off7 i) a + S256x40.size a ≤ S4096x40.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x40.size a ≤ S128x40.size a
  hwx0_4 : ∀ i : grid0.Coords, EltTy.bits .f32 = 32 ∨ (Rect.block (s := S128x40) S128x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x40.size a ≤ S1x40.size a
  hwx0_7 : ∀ i : grid0.Coords, EltTy.bits .f32 = 32 ∨ (Rect.block (s := S1x40) S1x40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S4096x128.size a
  hwx0_9 : ∀ i : grid0.Coords, EltTy.bits .f32 = 32 ∨ (Rect.block (s := S4096x128) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x40.size a ≤ S4096x40.size a
  hwx0_10 : ∀ i : grid0.Coords, EltTy.bits .f32 = 32 ∨ (Rect.block (s := S4096x40) S256x40.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x40.size a ≤ S4096x40.size a
  hwx0_11 : ∀ i : grid0.Coords, EltTy.bits .f32 = 32 ∨ (Rect.block (s := S4096x40) S256x40.size (cc0_transform_11 i) (hinb0_11 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x40_S256x40_1_0_0_1_n_n : DotDims S256x128 S128x40 S256x40 where
  lhsContracting := [1]
  rhsContracting := [0]
  lhsNonContracting := [0]
  rhsNonContracting := [1]
  lhsBatch := []
  rhsBatch := []
  wf := dot_S256x128_S128x40_S256x40_1_0_0_1_n_n_wf
def dot_S256x4096_S4096x40_S256x40_1_0_0_1_n_n : DotDims S256x4096 S4096x40 S256x40 where
  lhsContracting := [1]
  rhsContracting := [0]
  lhsNonContracting := [0]
  rhsNonContracting := [1]
  lhsBatch := []
  rhsBatch := []
  wf := dot_S256x4096_S4096x40_S256x40_1_0_0_1_n_n_wf

abbrev win0_0 : Pipeline.Window sig grid0 :=
  Pipeline.Window.ofSpec (Memref.whole main_v2) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S256x40.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_2) S256x40.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | 11 => fun i => !(k0_cond3 i == 1#1) | ⟨_ + 12, h⟩ => absurd h (Nat.not_lt.2 (Nat.le_add_left _ _))

class Facts : Prop extends Facts₀ where

variable [Facts]
-- ==== ReferenceIdeal.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128 : Shape := ⟨1, ![128]⟩
abbrev S128x40 : Shape := ⟨2, ![128, 40]⟩
abbrev S40 : Shape := ⟨1, ![40]⟩
abbrev S4096x4096 : Shape := ⟨2, ![4096, 4096]⟩
abbrev S1x4096 : Shape := ⟨2, ![1, 4096]⟩
abbrev S1x4096x1 : Shape := ⟨3, ![1, 4096, 1]⟩
abbrev S1x1x4096 : Shape := ⟨3, ![1, 1, 4096]⟩
abbrev S4096x128 : Shape := ⟨2, ![4096, 128]⟩
abbrev S1x128 : Shape := ⟨2, ![1, 128]⟩
abbrev S4096x40 : Shape := ⟨2, ![4096, 40]⟩
abbrev S1x40 : Shape := ⟨2, ![1, 40]⟩
abbrev S1x4096x40 : Shape := ⟨3, ![1, 4096, 40]⟩

abbrev nBuf : Space → Nat
  | .hbm => 59
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S40, .f32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .f32⟩
  | .hbm, ⟨16, _⟩ => ⟨S1x4096x4096, .f32⟩
  | .hbm, ⟨17, _⟩ => ⟨S1x4096x4096, .f32⟩
  | .hbm, ⟨18, _⟩ => ⟨S1x4096x4096, .f32⟩
  | .hbm, ⟨19, _⟩ => ⟨S1x4096x4096, .f32⟩
  | .hbm, ⟨20, _⟩ => ⟨S_, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .i1⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S_, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096x1, .f32⟩
  | .hbm, ⟨34, _⟩ => ⟨S1x4096x4096, .f32⟩
  | .hbm, ⟨35, _⟩ => ⟨S1x4096x4096, .f32⟩
  | .hbm, ⟨36, _⟩ => ⟨S1x1x4096, .f32⟩
  | .hbm, ⟨37, _⟩ => ⟨S1x4096x4096, .f32⟩
  | .hbm, ⟨38, _⟩ => ⟨S1x4096x4096, .f32⟩
  | .hbm, ⟨39, _⟩ => ⟨S4096x128, .f32⟩
  | .hbm, ⟨40, _⟩ => ⟨S4096x4096, .f32⟩
  | .hbm, ⟨41, _⟩ => ⟨S4096x128, .f32⟩
  | .hbm, ⟨42, _⟩ => ⟨S4096x128, .f32⟩
  | .hbm, ⟨43, _⟩ => ⟨S1x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x40, .f32⟩
  | .hbm, ⟨50, _⟩ => ⟨S4096x40, .f32⟩
  | .hbm, ⟨51, _⟩ => ⟨S1x40, .f32⟩
  | .hbm, ⟨52, _⟩ => ⟨S4096x40, .f32⟩
  | .hbm, ⟨53, _⟩ => ⟨S4096x40, .f32⟩
  | .hbm, ⟨54, _⟩ => ⟨S4096x40, .f32⟩
  | .hbm, ⟨55, _⟩ => ⟨S1x40, .f32⟩
  | .hbm, ⟨56, _⟩ => ⟨S4096x40, .f32⟩
  | .hbm, ⟨57, _⟩ => ⟨S4096x40, .f32⟩
  | .hbm, ⟨58, _⟩ => ⟨S1x4096x40, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S_S1x4096x4096 : S_.BroadcastsInDim S1x4096x4096 (![] : Fin 0 → Fin S1x4096x4096.rank)
  reducesTo_S1x4096x4096_S1x4096_d2 : S1x4096x4096.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S1x4096x1_S1x4096x4096_0_1_2 : S1x4096x1.BroadcastsInDim S1x4096x4096 (![0, 1, 2] : Fin 3 → Fin S1x4096x4096.rank)
  bcast_S1x4096_S1x1x4096_0_2 : S1x4096.BroadcastsInDim S1x1x4096 (![0, 2] : Fin 2 → Fin S1x1x4096.rank)
  bcast_S1x1x4096_S1x4096x4096_0_1_2 : S1x1x4096.BroadcastsInDim S1x4096x4096 (![0, 1, 2] : Fin 3 → Fin S1x4096x4096.rank)
  shapeCasts_S1x4096x128_S4096x128 : S1x4096x128.ShapeCasts S4096x128
  shapeCasts_S1x4096x4096_S4096x4096 : S1x4096x4096.ShapeCasts S4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  bcast_S4096x40_S1x4096x40_1_2 : S4096x40.BroadcastsInDim S1x4096x40 (![1, 2] : Fin 2 → Fin S1x4096x40.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S4096x128_S128x40_S4096x40_1_0_0_1_n_n_wf : DotDims.WF S4096x128 S128x40 S4096x40 [1] [0] [0] [1] [] []
  dot_S4096x4096_S4096x40_S4096x40_1_0_0_1_n_n_wf : DotDims.WF S4096x4096 S4096x40 S4096x40 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf
def dot_S4096x4096_S4096x40_S4096x40_1_0_0_1_n_n : DotDims S4096x4096 S4096x40 S4096x40 where
  lhsContracting := [1]
  rhsContracting := [0]
  lhsNonContracting := [0]
  rhsNonContracting := [1]
  lhsBatch := []
  rhsBatch := []
  wf := dot_S4096x4096_S4096x40_S4096x40_1_0_0_1_n_n_wf

class Facts : Prop extends Facts₀ where

variable [Facts]
-- ==== Proof.K.Shared.lean ====
import proofs.«138326_g49246095016332_cont_8to1_c_632_4_alg».proof.Proof.Gen.Kernel.Frame
import proofs.«138326_g49246095016332_cont_8to1_c_632_4_alg».proof.Proof.Gen.Kernel.Skeleton

set_option maxRecDepth 16384

/-!
What the per-phase runs and the frame assembly share: the three branch conditions decided over the 48 grid points
(point `t` is in phase `t / 16`, at row block `t % 16`), where each output window is idle, fetched and written back, the
row offset of every scratch rectangle, the staging and scratch memrefs by name, and the region's class invariant opened
into its five scratch buffers and the generator register.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The branch conditions over the grid: phase 0 is points 0–15, phase 1 points 16–31, phase 2 points 32–47 -/

theorem hcond1 : ∀ t : Fin cfg0.N, k0_cond1 (grid0.coords t) = 1#1 ↔ t.val < 16 :=
  (by decide +kernel : ∀ t : Fin grid0.N, k0_cond1 (grid0.coords t) = 1#1 ↔ t.val < 16)
theorem hcond2 : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem hcond3 : ∀ t : Fin cfg0.N, k0_cond3 (grid0.coords t) = 1#1 ↔ 32 ≤ t.val :=
  (by decide +kernel : ∀ t : Fin grid0.N, k0_cond3 (grid0.coords t) = 1#1 ↔ 32 ≤ t.val)

/-! ## The schedule of the three output windows -/

/-- The encoder's block is written back after each point of phase 1 but the last, and once more at the very end. -/
theorem flush9 : ∀ t : Fin cfg0.N, (cfg0.win 9).flush t = true ↔ ((16 ≤ t.val ∧ t.val < 31) ∨ t.val = 47) :=
  (by decide +kernel : ∀ t : Fin grid0.N, win0_9.flush t = true ↔ ((16 ≤ t.val ∧ t.val < 31) ∨ t.val = 47))
theorem flush10 : ∀ t : Fin cfg0.N, (cfg0.win 10).flush t = true ↔ ((16 ≤ t.val ∧ t.val < 31) ∨ t.val = 47) :=
  (by decide +kernel : ∀ t : Fin grid0.N, win0_10.flush t = true ↔ ((16 ≤ t.val ∧ t.val < 31) ∨ t.val = 47))
/-- The decoder's block is written back after every point of phase 2. -/
theorem flush11 : ∀ t : Fin cfg0.N, (cfg0.win 11).flush t = true ↔ 32 ≤ t.val :=
  (by decide +kernel : ∀ t : Fin grid0.N, win0_11.flush t = true ↔ 32 ≤ t.val)
theorem fetch9 : ∀ t : Fin cfg0.N, (cfg0.win 9).fetch t = false :=
  (by decide +kernel : ∀ t : Fin grid0.N, win0_9.fetch t = false)
theorem fetch10 : ∀ t : Fin cfg0.N, (cfg0.win 10).fetch t = false :=
  (by decide +kernel : ∀ t : Fin grid0.N, win0_10.fetch t = false)
theorem fetch11 : ∀ t : Fin cfg0.N, (cfg0.win 11).fetch t = false :=
  (by decide +kernel : ∀ t : Fin grid0.N, win0_11.fetch t = false)
/-- The encoder's and the node head's windows are stored in phase 1 only, the decoder's in phase 2 only. -/
theorem idle9 : ∀ t : Fin cfg0.N, cfg0.idle 9 (grid0.coords t) = true ↔ ¬ (16 ≤ t.val ∧ t.val < 32) :=
  (by decide +kernel : ∀ t : Fin grid0.N, cfg0.idle 9 (grid0.coords t) = true ↔ ¬ (16 ≤ t.val ∧ t.val < 32))
theorem idle10 : ∀ t : Fin cfg0.N, cfg0.idle 10 (grid0.coords t) = true ↔ ¬ (16 ≤ t.val ∧ t.val < 32) :=
  (by decide +kernel : ∀ t : Fin grid0.N, cfg0.idle 10 (grid0.coords t) = true ↔ ¬ (16 ≤ t.val ∧ t.val < 32))
theorem idle11 : ∀ t : Fin cfg0.N, cfg0.idle 11 (grid0.coords t) = true ↔ ¬ (32 ≤ t.val) :=
  (by decide +kernel : ∀ t : Fin grid0.N, cfg0.idle 11 (grid0.coords t) = true ↔ ¬ (32 ≤ t.val))
/-- The nine input windows are never idle. -/
theorem live_in : ∀ (w : Fin 12), w.val < 9 → ∀ t : Fin cfg0.N, cfg0.idle w (grid0.coords t) = false := by decide +kernel

/-! ## The row offset of every scratch rectangle at point `t`: 256 times the row block `t % 16` -/

theorem off1_eq : ∀ t : Fin cfg0.N, k0_off1 (grid0.coords t) = ![256 * (t.val % 16), 0] :=
  (by decide +kernel : ∀ t : Fin grid0.N, k0_off1 (grid0.coords t) = ![256 * (t.val % 16), 0])
theorem off2_eq : ∀ t : Fin cfg0.N, k0_off2 (grid0.coords t) = ![256 * (t.val % 16), 0] :=
  (by decide +kernel : ∀ t : Fin grid0.N, k0_off2 (grid0.coords t) = ![256 * (t.val % 16), 0])
theorem off3_eq : ∀ t : Fin cfg0.N, k0_off3 (grid0.coords t) = ![256 * (t.val % 16), 0] :=
  (by decide +kernel : ∀ t : Fin grid0.N, k0_off3 (grid0.coords t) = ![256 * (t.val % 16), 0])
theorem off4_eq : ∀ t : Fin cfg0.N, k0_off4 (grid0.coords t) = ![256 * (t.val % 16), 0] :=
  (by decide +kernel : ∀ t : Fin grid0.N, k0_off4 (grid0.coords t) = ![256 * (t.val % 16), 0])
theorem off5_eq : ∀ t : Fin cfg0.N, k0_off5 (grid0.coords t) = ![256 * (t.val % 16), 0] :=
  (by decide +kernel : ∀ t : Fin grid0.N, k0_off5 (grid0.coords t) = ![256 * (t.val % 16), 0])
theorem off6_eq : ∀ t : Fin cfg0.N, k0_off6 (grid0.coords t) = ![256 * (t.val % 16), 0] :=
  (by decide +kernel : ∀ t : Fin grid0.N, k0_off6 (grid0.coords t) = ![256 * (t.val % 16), 0])
theorem off7_eq : ∀ t : Fin cfg0.N, k0_off7 (grid0.coords t) = ![256 * (t.val % 16), 0] :=
  (by decide +kernel : ∀ t : Fin grid0.N, k0_off7 (grid0.coords t) = ![256 * (t.val % 16), 0])

/-! ## The memrefs the body is called with -/

/-- Each window's current staging memref at point `t`, spelt as the pipeline passes it, and its wholeness. -/
abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x40 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x40 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x40 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x40 .f32 := win0_11.stage (cfg0.slots t 11)
abbrev hs11 (t : Fin cfg0.N) : (ms11 t).IsWhole := hstage0_11 ((cfg0.slots t 11).cast nbuf0_11)

/-- The five scratch operands: whole scoped buffers of the kernel's own. -/
abbrev sc0 : Memref sig .tc .vmem S4096x4096 .bf16 := Memref.whole cc0_scratch0
abbrev sc1 : Memref sig .tc .vmem S4096x128 .bf16 := Memref.whole cc0_scratch1
abbrev sc2 : Memref sig .tc .vmem S4096x128 .f32 := Memref.whole cc0_scratch2
abbrev sc3 : Memref sig .tc .vmem S4096x40 .bf16 := Memref.whole cc0_scratch3
abbrev sc4 : Memref sig .tc .vmem S4096x40 .f32 := Memref.whole cc0_scratch4

/-- The class invariant opened: each scratch buffer owned at some contents, and the generator register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.Kernel.Body

end
-- ==== Proof.K.RunP0.lean ====
import proofs.«138326_g49246095016332_cont_8to1_c_632_4_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body at a point of phase 0, on whole memrefs: the self-loop weight, the adjacency row block, the feature row block and the first weight matrix at given contents, the three scratch buffers it stores into at given contents; it runs to the continuation with the inputs as they were and each of those scratch buffers with one piece written over what it held (the piece lists are the witnesses the run finds). -/
noncomputable def runP0 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : k0_cond1 i = 1#1) (hc2 : ¬ k0_cond2 i = 1#1) (hc3 : ¬ k0_cond3 i = 1#1)
    (xla : Vec F S1x1 .f32) (xadj : Vec F S256x4096 .f32) (xx : Vec F S256x128 .f32) (xw0 : Vec F S128x128 .f32) (s0 : Vec F S4096x4096 .bf16) (s1 : Vec F S4096x128 .bf16) (s2 : Vec F S4096x128 .f32) :
    Σ' (LS0 : List (View.Piece (Elt F) S4096x4096 .bf16)) (LS1 : List (View.Piece (Elt F) S4096x128 .bf16)), { LS2 : List (View.Piece (Elt F) S4096x128 .f32) //
      ∀ (E : Set ℕ) (K : PUnit → sProp 𝕄),
        iprop(owns (c : Thread nD τ) arg2 fullShare xla ∗ owns (c : Thread nD τ) arg3 fullShare xadj ∗ owns (c : Thread nD τ) arg4 fullShare xx ∗ owns (c : Thread nD τ) arg5 fullShare xw0 ∗ owns (c : Thread nD τ) arg14 fullShare s0 ∗ owns (c : Thread nD τ) arg15 fullShare s1 ∗ owns (c : Thread nD τ) arg16 fullShare s2
            ∗ (iprop(owns (c : Thread nD τ) arg2 fullShare xla ∗ owns (c : Thread nD τ) arg3 fullShare xadj ∗ owns (c : Thread nD τ) arg4 fullShare xx ∗ owns (c : Thread nD τ) arg5 fullShare xw0 ∗ (arg14.view.loc (c : Thread nD τ) ↦[arg14.view.set]{fullShare} arg14.view.writes (Elt F) (harg14.unread s0) LS0) ∗ (arg15.view.loc (c : Thread nD τ) ↦[arg15.view.set]{fullShare} arg15.view.writes (Elt F) (harg15.unread s1) LS1) ∗ (arg16.view.loc (c : Thread nD τ) ↦[arg16.view.set]{fullShare} arg16.view.writes (Elt F) (harg16.unread s2) LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%farg2, %hfarg2, Harg2⟩, ⟨%farg3, %hfarg3, Harg3⟩, ⟨%farg4, %hfarg4, Harg4⟩, ⟨%farg5, %hfarg5, Harg5⟩, ⟨%farg14, %hfarg14, Harg14⟩, ⟨%farg15, %hfarg15, Harg15⟩, ⟨%farg16, %hfarg16, Harg16⟩, Hk⟩
    obtain rfl := harg2.eq_unread hfarg2
    obtain rfl := harg3.eq_unread hfarg3
    obtain rfl := harg4.eq_unread hfarg4
    obtain rfl := harg5.eq_unread hfarg5
    obtain rfl := harg14.eq_unread hfarg14
    obtain rfl := harg15.eq_unread hfarg15
    obtain rfl := harg16.eq_unread hfarg16
    sl_exec (disch := first | exact hc1 | exact hc2 | exact hc3)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg14]
    · iexact Harg14
    isplitl [Harg15]
    · iexact Harg15
    iexact Harg16

end Cert.Kernel.Body

end
-- ==== Proof.K.RunP1.lean ====
import proofs.«138326_g49246095016332_cont_8to1_c_632_4_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body at a point of phase 1, on whole memrefs: the self-loop weight, the two head matrices, the three bias rows and the three scratch buffers phase 0 filled at given contents (read only), the two scratch buffers it stores into at given contents, the encoder's and the node head's staging buffers at anything; it runs to the continuation with what it only read as it was, each of the two scratch buffers with one piece written over what it held, and each output buffer with its pieces written. -/
noncomputable def runP1 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : ¬ k0_cond1 i = 1#1) (hc2 : k0_cond2 i = 1#1) (hc3 : ¬ k0_cond3 i = 1#1)
    (xla : Vec F S1x1 .f32) (x6 : Vec F S128x40 .f32) (x7 : Vec F S128x40 .f32) (x8 : Vec F S1x128 .f32) (x9 : Vec F S1x40 .f32) (s0 : Vec F S4096x4096 .bf16) (s1 : Vec F S4096x128 .bf16) (s2 : Vec F S4096x128 .f32) (s3 : Vec F S4096x40 .bf16) (s4 : Vec F S4096x40 .f32) :
    Σ' (LS3 : List (View.Piece (Elt F) S4096x40 .bf16)) (LS4 : List (View.Piece (Elt F) S4096x40 .f32)) (L9 : List (View.Piece (Elt F) S256x128 .f32)), { L10 : List (View.Piece (Elt F) S256x40 .f32) //
      ∀ (E : Set ℕ) (K : PUnit → sProp 𝕄),
        iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4 ∗ (∃ d, owns (c : Thread nD τ) arg11 fullShare d) ∗ (∃ d, owns (c : Thread nD τ) arg12 fullShare d)
            ∗ (iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ (arg17.view.loc (c : Thread nD τ) ↦[arg17.view.set]{fullShare} arg17.view.writes (Elt F) (harg17.unread s3) LS3) ∗ (arg18.view.loc (c : Thread nD τ) ↦[arg18.view.set]{fullShare} arg18.view.writes (Elt F) (harg18.unread s4) LS4) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    simp only [k0_part1_eq_skeleton]; unfold k0_part1_skel
    unfold owns
    iintro ⟨⟨%farg2, %hfarg2, Harg2⟩, ⟨%farg6, %hfarg6, Harg6⟩, ⟨%farg7, %hfarg7, Harg7⟩, ⟨%farg8, %hfarg8, Harg8⟩, ⟨%farg9, %hfarg9, Harg9⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%darg11, %farg11, -, Harg11⟩, ⟨%darg12, %farg12, -, Harg12⟩, Hk⟩
    obtain rfl := harg2.eq_unread hfarg2
    obtain rfl := harg6.eq_unread hfarg6
    obtain rfl := harg7.eq_unread hfarg7
    obtain rfl := harg8.eq_unread hfarg8
    obtain rfl := harg9.eq_unread hfarg9
    obtain rfl := harg14.eq_unread hfarg14
    obtain rfl := harg15.eq_unread hfarg15
    obtain rfl := harg16.eq_unread hfarg16
    obtain rfl := harg17.eq_unread hfarg17
    obtain rfl := harg18.eq_unread hfarg18
    sl_exec (disch := first | exact hc1 | exact hc2 | exact hc3)
    sl_step
    iapply Hk
    isplitl [Harg2]
    · iexists _; isplitr; · ipureintro; exact harg2.read_unread _
      iexact Harg2
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexact Harg17
    isplitl [Harg18]
    · iexact Harg18
    isplitl [Harg11]
    · iexists _; iexact Harg11
    iexists _; iexact Harg12

end Cert.Kernel.Body

end
-- ==== Proof.K.RunP2.lean ====
import proofs.«138326_g49246095016332_cont_8to1_c_632_4_alg».proof.Proof.K.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body at a point of phase 2, on whole memrefs: the self-loop weight, the decoder's bias row and the three scratch buffers it reads at given contents, the decoder's staging buffer at anything; it runs to the continuation with what it read as it was and the output buffer with its pieces written. -/
noncomputable def runP2 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : ¬ k0_cond1 i = 1#1) (hc2 : ¬ k0_cond2 i = 1#1) (hc3 : k0_cond3 i = 1#1)
    (xla : Vec F S1x1 .f32) (x10 : Vec F S1x40 .f32) (s0 : Vec F S4096x4096 .bf16) (s3 : Vec F S4096x40 .bf16) (s4 : Vec F S4096x40 .f32) :
    { L11 : List (View.Piece (Elt F) S256x40 .f32) //
      ∀ (E : Set ℕ) (K : PUnit → sProp 𝕄),
        iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ d, owns (c : Thread nD τ) arg13 fullShare d)
            ∗ (iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ f, arg13.view.loc (c : Thread nD τ) ↦[arg13.view.set]{fullShare} arg13.view.writes (Elt F) f L11)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%farg2, %hfarg2, Harg2⟩, ⟨%farg10, %hfarg10, Harg10⟩, ⟨%farg14, %hfarg14, Harg14⟩, ⟨%farg17, %hfarg17, Harg17⟩, ⟨%farg18, %hfarg18, Harg18⟩, ⟨%darg13, %farg13, -, Harg13⟩, Hk⟩
    obtain rfl := harg2.eq_unread hfarg2
    obtain rfl := harg10.eq_unread hfarg10
    obtain rfl := harg14.eq_unread hfarg14
    obtain rfl := harg17.eq_unread hfarg17
    obtain rfl := harg18.eq_unread hfarg18
    sl_exec (disch := first | exact hc1 | exact hc2 | exact hc3)
    sl_step
    iapply Hk
    isplitl [Harg2]
    · iexists _; isplitr; · ipureintro; exact harg2.read_unread _
      iexact Harg2
    isplitl [Harg10]
    · iexists _; isplitr; · ipureintro; exact harg10.read_unread _
      iexact Harg10
    isplitl [Harg14]
    · iexists _; isplitr; · ipureintro; exact harg14.read_unread _
      iexact Harg14
    isplitl [Harg17]
    · iexists _; isplitr; · ipureintro; exact harg17.read_unread _
      iexact Harg17
    isplitl [Harg18]
    · iexists _; isplitr; · ipureintro; exact harg18.read_unread _
      iexact Harg18
    iexists _; iexact Harg13

end Cert.Kernel.Body

end
-- ==== Proof.K.Pieces.lean ====
import proofs.«138326_g49246095016332_cont_8to1_c_632_4_alg».proof.Proof.K.RunP0
import proofs.«138326_g49246095016332_cont_8to1_c_632_4_alg».proof.Proof.K.RunP1
import proofs.«138326_g49246095016332_cont_8to1_c_632_4_alg».proof.Proof.K.RunP2
import Idealize.ShloMosaic.Lib.Pipeline.Value

set_option maxRecDepth 16384

/-!
The piece lists the three runs found, each as ONE plain piece: the rectangle of the point's row block (or the whole
staging block) and the body's payload of the contents the run was given — a load through a rectangle of a whole memref
at contents `X` reads `X` at the rectangle's indices, and through the whole-shape rectangle reads `X`.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

section P0
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : k0_cond1 i = 1#1) (hc2 : ¬ k0_cond2 i = 1#1) (hc3 : ¬ k0_cond3 i = 1#1)
  (xla : Vec F S1x1 .f32) (xadj : Vec F S256x4096 .f32) (xx : Vec F S256x128 .f32) (xw0 : Vec F S128x128 .f32) (s0 : Vec F S4096x4096 .bf16) (s1 : Vec F S4096x128 .bf16) (s2 : Vec F S4096x128 .f32)

theorem runP0_LS0 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).1
    = [⟨Rect.unit (k0_off1 i) S256x4096.size (k0_off1_inb i hc1), k0_pay4 xla xadj⟩] := by
  unfold runP0; dsimp only
  simp only [View.readAt_eq_ld, harg2.read_unread, harg3.read_unread, View.ld_unit_zero (S := S1x1) hz2, View.ld_unit_zero (S := S256x4096) hz2]
theorem runP0_LS1 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.1
    = [⟨Rect.unit (k0_off2 i) S256x128.size (k0_off2_inb i hc1), k0_pay5 xla xadj xx xw0⟩] := by
  unfold runP0; dsimp only
  simp only [View.readAt_eq_ld, harg2.read_unread, harg3.read_unread, harg4.read_unread, harg5.read_unread, View.ld_unit_zero (S := S1x1) hz2, View.ld_unit_zero (S := S256x4096) hz2, View.ld_unit_zero (S := S256x128) hz2, View.ld_unit_zero (S := S128x128) hz2]
theorem runP0_LS2 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.2.1
    = [⟨Rect.unit (k0_off2 i) S256x128.size (k0_off2_inb i hc1), k0_pay6 xla xadj⟩] := by
  unfold runP0; dsimp only
  simp only [View.readAt_eq_ld, harg2.read_unread, harg3.read_unread, View.ld_unit_zero (S := S1x1) hz2, View.ld_unit_zero (S := S256x4096) hz2]
include hc1 hc2 hc3 in
/-- The run with its pieces plain. -/
theorem runP0_spec (E : Set ℕ) (K : PUnit → sProp 𝕄) :
    iprop(owns (c : Thread nD τ) arg2 fullShare xla ∗ owns (c : Thread nD τ) arg3 fullShare xadj ∗ owns (c : Thread nD τ) arg4 fullShare xx ∗ owns (c : Thread nD τ) arg5 fullShare xw0 ∗ owns (c : Thread nD τ) arg14 fullShare s0 ∗ owns (c : Thread nD τ) arg15 fullShare s1 ∗ owns (c : Thread nD τ) arg16 fullShare s2
        ∗ (iprop(owns (c : Thread nD τ) arg2 fullShare xla ∗ owns (c : Thread nD τ) arg3 fullShare xadj ∗ owns (c : Thread nD τ) arg4 fullShare xx ∗ owns (c : Thread nD τ) arg5 fullShare xw0 ∗ (arg14.view.loc (c : Thread nD τ) ↦[arg14.view.set]{fullShare} arg14.view.writes (Elt F) (harg14.unread s0) [⟨Rect.unit (k0_off1 i) S256x4096.size (k0_off1_inb i hc1), k0_pay4 xla xadj⟩]) ∗ (arg15.view.loc (c : Thread nD τ) ↦[arg15.view.set]{fullShare} arg15.view.writes (Elt F) (harg15.unread s1) [⟨Rect.unit (k0_off2 i) S256x128.size (k0_off2_inb i hc1), k0_pay5 xla xadj xx xw0⟩]) ∗ (arg16.view.loc (c : Thread nD τ) ↦[arg16.view.set]{fullShare} arg16.view.writes (Elt F) (harg16.unread s2) [⟨Rect.unit (k0_off2 i) S256x128.size (k0_off2_inb i hc1), k0_pay6 xla xadj⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.2.2 E K
  simp only [runP0_LS0, runP0_LS1, runP0_LS2] at h
  exact h
end P0

section P1
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : ¬ k0_cond1 i = 1#1) (hc2 : k0_cond2 i = 1#1) (hc3 : ¬ k0_cond3 i = 1#1)
  (xla : Vec F S1x1 .f32) (x6 : Vec F S128x40 .f32) (x7 : Vec F S128x40 .f32) (x8 : Vec F S1x128 .f32) (x9 : Vec F S1x40 .f32) (s0 : Vec F S4096x4096 .bf16) (s1 : Vec F S4096x128 .bf16) (s2 : Vec F S4096x128 .f32) (s3 : Vec F S4096x40 .bf16) (s4 : Vec F S4096x40 .f32)

/-- The rows of the three phase-0 scratch buffers the point reads. -/
abbrev rd0 : Vec F S256x4096 .bf16 := View.ld s0 (Rect.unit (k0_off3 i) S256x4096.size (k0_off3_inb i hc2))
abbrev rd2 : Vec F S256x128 .f32 := View.ld s2 (Rect.unit (k0_off4 i) S256x128.size (k0_off4_inb i hc2))
abbrev rd1 : Vec F S256x128 .bf16 := View.ld s1 (Rect.unit (k0_off4 i) S256x128.size (k0_off4_inb i hc2))

theorem runP1_LS3 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).1
    = [⟨Rect.unit (k0_off5 i) S256x40.size (k0_off5_inb i hc2), k0_pay13 (k0_pay1 xla) (rd0 i hc2 s0) s1 (rd2 i hc2 s2) (rd1 i hc2 s1) x8 x6⟩] := by
  unfold runP1; dsimp only
  simp only [View.readAt_eq_ld, harg2.read_unread, harg6.read_unread, harg8.read_unread, harg14.read_unread, harg15.read_unread, harg16.read_unread, View.ld_unit_zero (S := S1x1) hz2, View.ld_unit_zero (S := S4096x128) hz2, View.ld_unit_zero (S := S1x128) hz2, View.ld_unit_zero (S := S128x40) hz2]
theorem runP1_LS4 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.1
    = [⟨Rect.unit (k0_off5 i) S256x40.size (k0_off5_inb i hc2), k0_pay7 xla (k0_pay11 (rd2 i hc2 s2)) (k0_pay12 (k0_pay1 xla) (rd0 i hc2 s0) s1 (rd2 i hc2 s2) (rd1 i hc2 s1) x8 x6)⟩] := by
  unfold runP1; dsimp only
  simp only [View.readAt_eq_ld, harg2.read_unread, harg6.read_unread, harg8.read_unread, harg14.read_unread, harg15.read_unread, harg16.read_unread, View.ld_unit_zero (S := S1x1) hz2, View.ld_unit_zero (S := S4096x128) hz2, View.ld_unit_zero (S := S1x128) hz2, View.ld_unit_zero (S := S128x40) hz2]
theorem runP1_L9 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.1
    = [⟨Rect.unit ![0, 0] S256x128.size inb_S256x128_S256x128_0_0, k0_pay9 (k0_pay1 xla) (rd0 i hc2 s0) s1 (rd2 i hc2 s2) (rd1 i hc2 s1) x8⟩] := by
  unfold runP1; dsimp only
  simp only [View.readAt_eq_ld, harg2.read_unread, harg8.read_unread, harg14.read_unread, harg15.read_unread, harg16.read_unread, View.ld_unit_zero (S := S1x1) hz2, View.ld_unit_zero (S := S4096x128) hz2, View.ld_unit_zero (S := S1x128) hz2]
theorem runP1_L10 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.2.1
    = [⟨Rect.unit ![0, 0] S256x40.size inb_S256x40_S256x40_0_0, k0_pay10 (k0_pay1 xla) (rd0 i hc2 s0) s1 (rd2 i hc2 s2) (rd1 i hc2 s1) x8 x7 x9⟩] := by
  unfold runP1; dsimp only
  simp only [View.readAt_eq_ld, harg2.read_unread, harg7.read_unread, harg8.read_unread, harg9.read_unread, harg14.read_unread, harg15.read_unread, harg16.read_unread, View.ld_unit_zero (S := S1x1) hz2, View.ld_unit_zero (S := S4096x128) hz2, View.ld_unit_zero (S := S1x128) hz2, View.ld_unit_zero (S := S128x40) hz2, View.ld_unit_zero (S := S1x40) hz2]
include hc1 hc2 hc3 in
/-- The run with its pieces plain. -/
theorem runP1_spec (E : Set ℕ) (K : PUnit → sProp 𝕄) :
    iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4 ∗ (∃ d, owns (c : Thread nD τ) arg11 fullShare d) ∗ (∃ d, owns (c : Thread nD τ) arg12 fullShare d)
        ∗ (iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ (arg17.view.loc (c : Thread nD τ) ↦[arg17.view.set]{fullShare} arg17.view.writes (Elt F) (harg17.unread s3) [⟨Rect.unit (k0_off5 i) S256x40.size (k0_off5_inb i hc2), k0_pay13 (k0_pay1 xla) (rd0 i hc2 s0) s1 (rd2 i hc2 s2) (rd1 i hc2 s1) x8 x6⟩]) ∗ (arg18.view.loc (c : Thread nD τ) ↦[arg18.view.set]{fullShare} arg18.view.writes (Elt F) (harg18.unread s4) [⟨Rect.unit (k0_off5 i) S256x40.size (k0_off5_inb i hc2), k0_pay7 xla (k0_pay11 (rd2 i hc2 s2)) (k0_pay12 (k0_pay1 xla) (rd0 i hc2 s0) s1 (rd2 i hc2 s2) (rd1 i hc2 s1) x8 x6)⟩]) ∗ (∃ f, arg11.view.loc (c : Thread nD τ) ↦[arg11.view.set]{fullShare} arg11.view.writes (Elt F) f [⟨Rect.unit ![0, 0] S256x128.size inb_S256x128_S256x128_0_0, k0_pay9 (k0_pay1 xla) (rd0 i hc2 s0) s1 (rd2 i hc2 s2) (rd1 i hc2 s1) x8⟩]) ∗ (∃ f, arg12.view.loc (c : Thread nD τ) ↦[arg12.view.set]{fullShare} arg12.view.writes (Elt F) f [⟨Rect.unit ![0, 0] S256x40.size inb_S256x40_S256x40_0_0, k0_pay10 (k0_pay1 xla) (rd0 i hc2 s0) s1 (rd2 i hc2 s2) (rd1 i hc2 s1) x8 x7 x9⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.2.2 E K
  simp only [runP1_LS3, runP1_LS4, runP1_L9, runP1_L10] at h
  exact h
end P1

section P2
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : ¬ k0_cond1 i = 1#1) (hc2 : ¬ k0_cond2 i = 1#1) (hc3 : k0_cond3 i = 1#1)
  (xla : Vec F S1x1 .f32) (x10 : Vec F S1x40 .f32) (s0 : Vec F S4096x4096 .bf16) (s3 : Vec F S4096x40 .bf16) (s4 : Vec F S4096x40 .f32)

theorem runP2_L11 : (runP2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x10 s0 s3 s4).1
    = [⟨Rect.unit ![0, 0] S256x40.size inb_S256x40_S256x40_0_0, k0_pay8 (View.ld s0 (Rect.unit (k0_off6 i) S256x4096.size (k0_off6_inb i hc3))) s3 (View.ld s4 (Rect.unit (k0_off7 i) S256x40.size (k0_off7_inb i hc3))) x10⟩] := by
  unfold runP2; dsimp only
  simp only [View.readAt_eq_ld, harg10.read_unread, harg14.read_unread, harg17.read_unread, harg18.read_unread, View.ld_unit_zero (S := S4096x40) hz2, View.ld_unit_zero (S := S1x40) hz2]
include hc1 hc2 hc3 in
/-- The run with its pieces plain. -/
theorem runP2_spec (E : Set ℕ) (K : PUnit → sProp 𝕄) :
    iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ d, owns (c : Thread nD τ) arg13 fullShare d)
        ∗ (iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ f, arg13.view.loc (c : Thread nD τ) ↦[arg13.view.set]{fullShare} arg13.view.writes (Elt F) f [⟨Rect.unit ![0, 0] S256x40.size inb_S256x40_S256x40_0_0, k0_pay8 (View.ld s0 (Rect.unit (k0_off6 i) S256x4096.size (k0_off6_inb i hc3))) s3 (View.ld s4 (Rect.unit (k0_off7 i) S256x40.size (k0_off7_inb i hc3))) x10⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x10 s0 s3 s4).2 E K
  simp only [runP2_L11] at h
  exact h
end P2

end Cert.Kernel.Body

end
-- ==== Proof.K.Tracked.lean ====
import proofs.«138326_g49246095016332_cont_8to1_c_632_4_alg».proof.Proof.K.Shared
import Idealize.ShloMosaic.Lib.Pipeline.Value
import Idealize.ShloMosaic.Lib.ValueIdx

set_option maxRecDepth 16384

/-!
What the five scratch buffers and the three output blocks hold, as functions of the arrays the region finds.

Phase 0 at point `t < 16` stores, into rows `256·t … 256·t + 255` of three scratch buffers, the row-scaled adjacency
block, the row-scaled feature block and the inverse square-root degrees of that row block: the whole buffers after phase 0
are the functions `AB`, `ZB`, `DS` (row `r` is row `r % 256` of the block stored at point `r / 256`). Phase 1 at point
`16 + b` reads rows `256·b …` of them (and all of `ZB`), leaves the encoder's and the node head's blocks in their staging
buffers, and stores the row-scaled decoder input and the decoder's diagonal term into rows `256·b …` of two more scratch
buffers (`ZWB`, `DG`). Phase 2 at point `32 + b` reads those and leaves the decoder's block.
`Known n` says contents of the five buffers agree with these functions on the rows the first `n` points have stored; one
store of a row block extends the agreement by that block (`agree_step`).
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

/-- One store through rectangle `r`, over contents that agree with `G` wherever `P` holds, leaves contents that agree with
    `G` wherever `P` holds or the rectangle covers — given that the payload is `G` on the rectangle. -/
theorem agree_step {sig' : RefSig} {κ : Kind} {sp : Space} {S : Shape} {e : EltTy} {Val : EltTy → Type}
    (v : View sig' κ sp S e) (f : v.ty.Contents Val) (r : Rect S) (w : r.shape.Idx → Val e)
    (G : S.Idx → Val e) (P : S.Idx → Prop) (hold : ∀ y, P y → v.read Val f y = G y) (hnew : ∀ x, w x = G (r.emb x))
    (y : S.Idx) (hy : P y ∨ y ∈ r.set) : v.read Val (v.writes Val f [⟨r, w⟩]) y = G y := by
  by_cases hm : y ∈ r.set
  · obtain ⟨x, rfl⟩ : ∃ x, r.emb x = y := r.exists_idx_of_mem hm
    rw [View.read_writes_cons_emb]; exact hnew x
  · rw [View.read_writes_apply_of_forall_not_mem v f y _ (fun p hp => by rw [List.mem_singleton] at hp; subst hp; exact hm)]
    exact hold y (hy.resolve_right hm)

/-- A rectangle of 256 rows from row `256·(t % 16)` and all `w` columns lies inside 4096 rows. -/
theorem inb_rows (off : Fin 2 → ℕ) (t w : ℕ) (hoff : off = ![256 * (t % 16), 0]) :
    ∀ a, off a + (![256, w] : Fin 2 → ℕ) a ≤ (![4096, w] : Fin 2 → ℕ) a := by
  subst hoff; intro a
  have := Nat.mod_lt t (show 16 > 0 by decide)
  fin_cases a
  · show 256 * (t % 16) + 256 ≤ 4096; omega
  · show 0 + w ≤ w; omega

/-- Point number `n` of the 48. -/
def pt (n : ℕ) (h : n < 48) : Fin cfg0.N := ⟨n, lt_of_lt_of_eq h N_0.symm⟩
@[simp] theorem pt_val (n : ℕ) (h : n < 48) : (pt n h).val = n := rfl
theorem pt_eq (t : Fin cfg0.N) (n : ℕ) (h : n < 48) (e : n = t.val) : pt n h = t := Fin.ext e

variable (m : (ℓ : Loc nD τ sig) → Buf (Elt F) ℓ) (c : Dev nD)

/-! ## The nine input blocks at a point, by name -/

def xLa (t : Fin cfg0.N) : Vec F S1x1 .f32 := iblk m c 0 t
def xAdj (t : Fin cfg0.N) : Vec F S256x4096 .f32 := iblk m c 1 t
def xX (t : Fin cfg0.N) : Vec F S256x128 .f32 := iblk m c 2 t
def xW0 (t : Fin cfg0.N) : Vec F S128x128 .f32 := iblk m c 3 t
def xWd (t : Fin cfg0.N) : Vec F S128x40 .f32 := iblk m c 4 t
def xMw (t : Fin cfg0.N) : Vec F S128x40 .f32 := iblk m c 5 t
def xB0 (t : Fin cfg0.N) : Vec F S1x128 .f32 := iblk m c 6 t
def xMb (t : Fin cfg0.N) : Vec F S1x40 .f32 := iblk m c 7 t
def xBd (t : Fin cfg0.N) : Vec F S1x40 .f32 := iblk m c 8 t

/-! ## Phase 0: the three scratch buffers as whole functions -/

/-- The row-scaled adjacency: row `r` is row `r % 256` of the block point `r / 256` stores. -/
def AB : Vec F S4096x4096 .bf16 := fun y =>
  k0_pay4 (xLa m c (pt ((y 0).val / 256) (by have h : (y 0).val < 4096 := (y 0).isLt; omega)))
    (xAdj m c (pt ((y 0).val / 256) (by have h : (y 0).val < 4096 := (y 0).isLt; omega)))
    (ix2 (⟨(y 0).val % 256, Nat.mod_lt _ (by decide)⟩ : Fin 256) (⟨(y 1).val, (y 1).isLt⟩ : Fin 4096))
/-- The row-scaled features. -/
def ZB : Vec F S4096x128 .bf16 := fun y =>
  k0_pay5 (xLa m c (pt ((y 0).val / 256) (by have h : (y 0).val < 4096 := (y 0).isLt; omega)))
    (xAdj m c (pt ((y 0).val / 256) (by have h : (y 0).val < 4096 := (y 0).isLt; omega)))
    (xX m c (pt ((y 0).val / 256) (by have h : (y 0).val < 4096 := (y 0).isLt; omega)))
    (xW0 m c (pt ((y 0).val / 256) (by have h : (y 0).val < 4096 := (y 0).isLt; omega)))
    (ix2 (⟨(y 0).val % 256, Nat.mod_lt _ (by decide)⟩ : Fin 256) (⟨(y 1).val, (y 1).isLt⟩ : Fin 128))
/-- The inverse square-root degrees, one row of 128 equal entries per node. -/
def DS : Vec F S4096x128 .f32 := fun y =>
  k0_pay6 (xLa m c (pt ((y 0).val / 256) (by have h : (y 0).val < 4096 := (y 0).isLt; omega)))
    (xAdj m c (pt ((y 0).val / 256) (by have h : (y 0).val < 4096 := (y 0).isLt; omega)))
    (ix2 (⟨(y 0).val % 256, Nat.mod_lt _ (by decide)⟩ : Fin 256) (⟨(y 1).val, (y 1).isLt⟩ : Fin 128))

/-! ## Phase 1: what a point reads of them, and what it leaves -/

def rd0At (t : Fin cfg0.N) : Vec F S256x4096 .bf16 :=
  View.ld (AB m c) (Rect.unit (k0_off3 (grid0.coords t)) S256x4096.size (inb_rows _ t.val 4096 (off3_eq t)))
def rd2At (t : Fin cfg0.N) : Vec F S256x128 .f32 :=
  View.ld (DS m c) (Rect.unit (k0_off4 (grid0.coords t)) S256x128.size (inb_rows _ t.val 128 (off4_eq t)))
def rd1At (t : Fin cfg0.N) : Vec F S256x128 .bf16 :=
  View.ld (ZB m c) (Rect.unit (k0_off4 (grid0.coords t)) S256x128.size (inb_rows _ t.val 128 (off4_eq t)))
/-- The encoder's block. -/
def embAt (t : Fin cfg0.N) : Vec F S256x128 .f32 :=
  k0_pay9 (k0_pay1 (xLa m c t)) (rd0At m c t) (ZB m c) (rd2At m c t) (rd1At m c t) (xB0 m c t)
/-- The node head's block. -/
def lnAt (t : Fin cfg0.N) : Vec F S256x40 .f32 :=
  k0_pay10 (k0_pay1 (xLa m c t)) (rd0At m c t) (ZB m c) (rd2At m c t) (rd1At m c t) (xB0 m c t) (xMw m c t) (xMb m c t)
/-- The row-scaled decoder input of the point's rows. -/
def zwbAt (t : Fin cfg0.N) : Vec F S256x40 .bf16 :=
  k0_pay13 (k0_pay1 (xLa m c t)) (rd0At m c t) (ZB m c) (rd2At m c t) (rd1At m c t) (xB0 m c t) (xWd m c t)
/-- The decoder's diagonal term of the point's rows. -/
def dgAt (t : Fin cfg0.N) : Vec F S256x40 .f32 :=
  k0_pay7 (xLa m c t) (k0_pay11 (rd2At m c t)) (k0_pay12 (k0_pay1 (xLa m c t)) (rd0At m c t) (ZB m c) (rd2At m c t) (rd1At m c t) (xB0 m c t) (xWd m c t))
/-- The two scratch buffers phase 1 fills, whole: row `r` is row `r % 256` of what point `16 + r / 256` stores. -/
def ZWB : Vec F S4096x40 .bf16 := fun y =>
  zwbAt m c (pt (16 + (y 0).val / 256) (by have h : (y 0).val < 4096 := (y 0).isLt; omega))
    (ix2 (⟨(y 0).val % 256, Nat.mod_lt _ (by decide)⟩ : Fin 256) (⟨(y 1).val, (y 1).isLt⟩ : Fin 40))
def DG : Vec F S4096x40 .f32 := fun y =>
  dgAt m c (pt (16 + (y 0).val / 256) (by have h : (y 0).val < 4096 := (y 0).isLt; omega))
    (ix2 (⟨(y 0).val % 256, Nat.mod_lt _ (by decide)⟩ : Fin 256) (⟨(y 1).val, (y 1).isLt⟩ : Fin 40))

/-! ## Phase 2: the decoder's block -/

def lgAt (t : Fin cfg0.N) : Vec F S256x40 .f32 :=
  k0_pay8 (View.ld (AB m c) (Rect.unit (k0_off6 (grid0.coords t)) S256x4096.size (inb_rows _ t.val 4096 (off6_eq t)))) (ZWB m c)
    (View.ld (DG m c) (Rect.unit (k0_off7 (grid0.coords t)) S256x40.size (inb_rows _ t.val 40 (off7_eq t)))) (xBd m c t)

/-! ## What the staging buffers of the three outputs hold after each point -/

/-- A point of phase 1 itself, a later point as the last point of phase 1 (the block stays in its buffer to the end). -/
def clamp31 (t : Fin cfg0.N) : Fin cfg0.N := if t.val ≤ 31 then t else pt 31 (by decide)
def outH (t : Fin cfg0.N) : Vec F S256x128 .f32 := embAt m c (clamp31 t)
def outLn (t : Fin cfg0.N) : Vec F S256x40 .f32 := lnAt m c (clamp31 t)
def outLg (t : Fin cfg0.N) : Vec F S256x40 .f32 := lgAt m c t

/-! ## Agreement on the rows stored so far -/

/-- After `n` points: the three phase-0 buffers agree with `AB`, `ZB`, `DS` on rows below `256·n`, the two phase-1 buffers
    with `ZWB`, `DG` on rows below `256·(n - 16)`. -/
def Known (n : ℕ) (d0 : Vec F S4096x4096 .bf16) (d1 : Vec F S4096x128 .bf16) (d2 : Vec F S4096x128 .f32)
    (d3 : Vec F S4096x40 .bf16) (d4 : Vec F S4096x40 .f32) : Prop :=
  (∀ y : S4096x4096.Idx, (y 0).val < 256 * n → d0 y = AB m c y) ∧ (∀ y : S4096x128.Idx, (y 0).val < 256 * n → d1 y = ZB m c y)
  ∧ (∀ y : S4096x128.Idx, (y 0).val < 256 * n → d2 y = DS m c y)
  ∧ (∀ y : S4096x40.Idx, (y 0).val + 4096 < 256 * n → d3 y = ZWB m c y) ∧ (∀ y : S4096x40.Idx, (y 0).val + 4096 < 256 * n → d4 y = DG m c y)

theorem known_zero (d0 d1 d2 d3 d4) : Known m c 0 d0 d1 d2 d3 d4 :=
  ⟨fun _ h => absurd h (by omega), fun _ h => absurd h (by omega), fun _ h => absurd h (by omega), fun _ h => absurd h (by omega), fun _ h => absurd h (by omega)⟩

end Cert.Kernel.Body

end
-- ==== Proof.K.Agree.lean ====
import proofs.«138326_g49246095016332_cont_8to1_c_632_4_alg».proof.Proof.K.Tracked

set_option maxRecDepth 16384

/-!
The agreement steps: how the rows on which the five scratch buffers are known grow from one grid point to the next, and
what a point reads of them.

Point `t` touches the 256 rows from row `256·(t % 16)` of each buffer. A row `ρ` of that block is row `ρ % 256` of the
block stored at point `ρ / 256` (phase 0), or at point `16 + ρ / 256` (phase 1): with `ρ = 256·(t % 16) + x` and
`x < 256` the quotient is `t % 16` and the remainder is `x`, so a stored block is the whole function on its rows. The
rows known after `n` points are those below `256·n` (phase 0's three buffers) and below `256·(n − 16)` (phase 1's
two): a store extends them by one block, a point of a later phase finds all 4096 rows of an earlier phase known.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

/-! ## A block of 256 rows, all columns, of an array of 4096 rows -/

section Rows
variable {w : ℕ} (off : Fin 2 → ℕ)
  (inb : ∀ a, off a + (![256, w] : Fin 2 → ℕ) a ≤ (⟨2, ![4096, w]⟩ : Shape).size a)

/-- The row of the block's index `x` in the array. -/
theorem unit_idx0 (x : (Rect.unit (s := ⟨2, ![4096, w]⟩) off ![256, w] inb).shape.Idx) :
    (((Rect.unit (s := ⟨2, ![4096, w]⟩) off ![256, w] inb).idx x) 0).val = off 0 + (x 0).val := by
  show off 0 + 1 * (x 0).val = _
  omega

/-- Its column. -/
theorem unit_idx1 (x : (Rect.unit (s := ⟨2, ![4096, w]⟩) off ![256, w] inb).shape.Idx) :
    (((Rect.unit (s := ⟨2, ![4096, w]⟩) off ![256, w] inb).idx x) 1).val = off 1 + (x 1).val := by
  show off 1 + 1 * (x 1).val = _
  omega

/-- The block from row `256·b` covers the rows `256·b … 256·b + 255`. -/
theorem mem_unit_rows (b : ℕ) (hoff : off = ![256 * b, 0]) (y : (⟨2, ![4096, w]⟩ : Shape).Idx)
    (h : 256 * b ≤ (y 0).val ∧ (y 0).val < 256 * b + 256) :
    y ∈ (Rect.unit (s := ⟨2, ![4096, w]⟩) off ![256, w] inb).set := by
  subst hoff
  rw [Rect.mem_set_unit]
  intro a
  have h1 : (y 1).val < w := (y 1).isLt
  match a with
  | ⟨0, _⟩ => exact ⟨h.1, h.2⟩
  | ⟨1, _⟩ => exact ⟨Nat.zero_le _, by show (y 1).val < 0 + w; omega⟩

end Rows

variable (m : (ℓ : Loc nD τ sig) → Buf (Elt F) ℓ) (c : Dev nD)

/-! ## A stored block is the whole function on its rows -/

/-- An index of the array whose row is `256·t + x₀` and column `x₁` has block `t` and index `x` in it. -/
theorem blk_ix {w : ℕ} (y : (⟨2, ![4096, w]⟩ : Shape).Idx) (x : (⟨2, ![256, w]⟩ : Shape).Idx) (b : ℕ)
    (h0 : (y 0).val = 256 * b + (x 0).val) (h1 : (y 1).val = (x 1).val) (p0 : (y 0).val % 256 < 256) (p1 : (y 1).val < w) :
    ix2 (⟨(y 0).val % 256, p0⟩ : Fin 256) (⟨(y 1).val, p1⟩ : Fin w) = x := by
  have hx : (x 0).val < 256 := (x 0).isLt
  funext a
  match a with
  | ⟨0, _⟩ => exact Fin.ext (by show (y 0).val % 256 = (x 0).val; omega)
  | ⟨1, _⟩ => exact Fin.ext h1

theorem AB_blk (t : Fin cfg0.N) (ht : t.val < 16) (y : S4096x4096.Idx) (x : S256x4096.Idx)
    (h0 : (y 0).val = 256 * t.val + (x 0).val) (h1 : (y 1).val = (x 1).val) :
    AB m c y = k0_pay4 (xLa m c t) (xAdj m c t) x := by
  have hx : (x 0).val < 256 := (x 0).isLt
  have hp : ∀ h, pt ((y 0).val / 256) h = t := fun h => pt_eq t _ h (by omega)
  unfold AB
  simp only [hp]
  exact congrArg (k0_pay4 (xLa m c t) (xAdj m c t)) (blk_ix y x t.val h0 h1 _ _)

theorem ZB_blk (t : Fin cfg0.N) (ht : t.val < 16) (y : S4096x128.Idx) (x : S256x128.Idx)
    (h0 : (y 0).val = 256 * t.val + (x 0).val) (h1 : (y 1).val = (x 1).val) :
    ZB m c y = k0_pay5 (xLa m c t) (xAdj m c t) (xX m c t) (xW0 m c t) x := by
  have hx : (x 0).val < 256 := (x 0).isLt
  have hp : ∀ h, pt ((y 0).val / 256) h = t := fun h => pt_eq t _ h (by omega)
  unfold ZB
  simp only [hp]
  exact congrArg (k0_pay5 (xLa m c t) (xAdj m c t) (xX m c t) (xW0 m c t)) (blk_ix y x t.val h0 h1 _ _)

theorem DS_blk (t : Fin cfg0.N) (ht : t.val < 16) (y : S4096x128.Idx) (x : S256x128.Idx)
    (h0 : (y 0).val = 256 * t.val + (x 0).val) (h1 : (y 1).val = (x 1).val) :
    DS m c y = k0_pay6 (xLa m c t) (xAdj m c t) x := by
  have hx : (x 0).val < 256 := (x 0).isLt
  have hp : ∀ h, pt ((y 0).val / 256) h = t := fun h => pt_eq t _ h (by omega)
  unfold DS
  simp only [hp]
  exact congrArg (k0_pay6 (xLa m c t) (xAdj m c t)) (blk_ix y x t.val h0 h1 _ _)

theorem ZWB_blk (t : Fin cfg0.N) (ht : 16 ≤ t.val ∧ t.val < 32) (y : S4096x40.Idx) (x : S256x40.Idx)
    (h0 : (y 0).val = 256 * (t.val - 16) + (x 0).val) (h1 : (y 1).val = (x 1).val) :
    ZWB m c y = zwbAt m c t x := by
  have hx : (x 0).val < 256 := (x 0).isLt
  have hp : ∀ h, pt (16 + (y 0).val / 256) h = t := fun h => pt_eq t _ h (by omega)
  unfold ZWB
  simp only [hp]
  exact congrArg (zwbAt m c t) (blk_ix y x (t.val - 16) h0 h1 _ _)

theorem DG_blk (t : Fin cfg0.N) (ht : 16 ≤ t.val ∧ t.val < 32) (y : S4096x40.Idx) (x : S256x40.Idx)
    (h0 : (y 0).val = 256 * (t.val - 16) + (x 0).val) (h1 : (y 1).val = (x 1).val) :
    DG m c y = dgAt m c t x := by
  have hx : (x 0).val < 256 := (x 0).isLt
  have hp : ∀ h, pt (16 + (y 0).val / 256) h = t := fun h => pt_eq t _ h (by omega)
  unfold DG
  simp only [hp]
  exact congrArg (dgAt m c t) (blk_ix y x (t.val - 16) h0 h1 _ _)

/-! ## The same block through the embedding a store uses -/

section RowsEmb
variable {w : ℕ} (off : Fin 2 → ℕ)
  (inb : ∀ a, off a + (![256, w] : Fin 2 → ℕ) a ≤ (⟨2, ![4096, w]⟩ : Shape).size a)

theorem unit_emb0 (x : (Rect.unit (s := ⟨2, ![4096, w]⟩) off ![256, w] inb).shape.Idx) :
    (((Rect.unit (s := ⟨2, ![4096, w]⟩) off ![256, w] inb).emb x) 0).val = off 0 + (x 0).val :=
  unit_idx0 off inb x

theorem unit_emb1 (x : (Rect.unit (s := ⟨2, ![4096, w]⟩) off ![256, w] inb).shape.Idx) :
    (((Rect.unit (s := ⟨2, ![4096, w]⟩) off ![256, w] inb).emb x) 1).val = off 1 + (x 1).val :=
  unit_idx1 off inb x

end RowsEmb

/-! ## What a point of phase 1 reads -/

theorem rd0_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d0 (Rect.unit (k0_off3 (grid0.coords t)) S256x4096.size (k0_off3_inb _ hc2)) = rd0At m c t := by
  unfold rd0At
  funext x
  have hx : (x 0).val < 256 := (x 0).isLt
  have hm := Nat.mod_lt t.val (show 16 > 0 by decide)
  have ho : k0_off3 (grid0.coords t) 0 = 256 * (t.val % 16) := by rw [off3_eq t]; rfl
  exact hK.1 _ ((unit_idx0 (w := 4096) (k0_off3 (grid0.coords t)) (k0_off3_inb _ hc2) x).trans_lt (by omega))

theorem rd2_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d2 (Rect.unit (k0_off4 (grid0.coords t)) S256x128.size (k0_off4_inb _ hc2)) = rd2At m c t := by
  unfold rd2At
  funext x
  have hx : (x 0).val < 256 := (x 0).isLt
  have hm := Nat.mod_lt t.val (show 16 > 0 by decide)
  have ho : k0_off4 (grid0.coords t) 0 = 256 * (t.val % 16) := by rw [off4_eq t]; rfl
  exact hK.2.2.1 _ ((unit_idx0 (w := 128) (k0_off4 (grid0.coords t)) (k0_off4_inb _ hc2) x).trans_lt (by omega))

theorem rd1_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d1 (Rect.unit (k0_off4 (grid0.coords t)) S256x128.size (k0_off4_inb _ hc2)) = rd1At m c t := by
  unfold rd1At
  funext x
  have hx : (x 0).val < 256 := (x 0).isLt
  have hm := Nat.mod_lt t.val (show 16 > 0 by decide)
  have ho : k0_off4 (grid0.coords t) 0 = 256 * (t.val % 16) := by rw [off4_eq t]; rfl
  exact hK.2.1 _ ((unit_idx0 (w := 128) (k0_off4 (grid0.coords t)) (k0_off4_inb _ hc2) x).trans_lt (by omega))

theorem zb_of_known (t : Fin cfg0.N) (ht : 16 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) : d1 = ZB m c := by
  funext y
  have hy : (y 0).val < 4096 := (y 0).isLt
  exact hK.2.1 y (by omega)

/-! ## What a point of phase 2 reads -/

theorem rd0_of_known2 (t : Fin cfg0.N) (ht : 32 ≤ t.val) (hc3 : k0_cond3 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d0 (Rect.unit (k0_off6 (grid0.coords t)) S256x4096.size (k0_off6_inb _ hc3))
      = View.ld (AB m c) (Rect.unit (k0_off6 (grid0.coords t)) S256x4096.size (inb_rows _ t.val 4096 (off6_eq t))) := by
  funext x
  have hx : (x 0).val < 256 := (x 0).isLt
  have hm := Nat.mod_lt t.val (show 16 > 0 by decide)
  have ho : k0_off6 (grid0.coords t) 0 = 256 * (t.val % 16) := by rw [off6_eq t]; rfl
  exact hK.1 _ ((unit_idx0 (w := 4096) (k0_off6 (grid0.coords t)) (k0_off6_inb _ hc3) x).trans_lt (by omega))

theorem rd4_of_known2 (t : Fin cfg0.N) (ht : 32 ≤ t.val) (hc3 : k0_cond3 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d4 (Rect.unit (k0_off7 (grid0.coords t)) S256x40.size (k0_off7_inb _ hc3))
      = View.ld (DG m c) (Rect.unit (k0_off7 (grid0.coords t)) S256x40.size (inb_rows _ t.val 40 (off7_eq t))) := by
  funext x
  have hx : (x 0).val < 256 := (x 0).isLt
  have hm := Nat.mod_lt t.val (show 16 > 0 by decide)
  have ho : k0_off7 (grid0.coords t) 0 = 256 * (t.val % 16) := by rw [off7_eq t]; rfl
  refine hK.2.2.2.2 _ ?_
  have hr := unit_idx0 (w := 40) (k0_off7 (grid0.coords t)) (k0_off7_inb _ hc3) x
  exact lt_of_eq_of_lt (congrArg (· + 4096) hr) (by omega)

theorem zwb_of_known2 (t : Fin cfg0.N) (ht : 32 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) : d3 = ZWB m c := by
  funext y
  have hy : (y 0).val < 4096 := (y 0).isLt
  exact hK.2.2.2.1 y (by omega)

/-! ## One point extends the known rows -/

theorem known_step0 {sg : RefSig} {κ : Kind} {sp : Space} (t : Fin cfg0.N) (ht : t.val < 16) (hc1 : k0_cond1 (grid0.coords t) = 1#1)
    (v0 : View sg κ sp S4096x4096 .bf16) (f0 : v0.ty.Contents (Elt F)) (v1 : View sg κ sp S4096x128 .bf16) (f1 : v1.ty.Contents (Elt F)) (v2 : View sg κ sp S4096x128 .f32) (f2 : v2.ty.Contents (Elt F))
    (d3 : Vec F S4096x40 .bf16) (d4 : Vec F S4096x40 .f32)
    (hK : Known m c t.val (v0.read (Elt F) f0) (v1.read (Elt F) f1) (v2.read (Elt F) f2) d3 d4) :
    Known m c (t.val + 1)
      (v0.read (Elt F) (v0.writes (Elt F) f0 [⟨Rect.unit (k0_off1 (grid0.coords t)) S256x4096.size (k0_off1_inb _ hc1), k0_pay4 (xLa m c t) (xAdj m c t)⟩]))
      (v1.read (Elt F) (v1.writes (Elt F) f1 [⟨Rect.unit (k0_off2 (grid0.coords t)) S256x128.size (k0_off2_inb _ hc1), k0_pay5 (xLa m c t) (xAdj m c t) (xX m c t) (xW0 m c t)⟩]))
      (v2.read (Elt F) (v2.writes (Elt F) f2 [⟨Rect.unit (k0_off2 (grid0.coords t)) S256x128.size (k0_off2_inb _ hc1), k0_pay6 (xLa m c t) (xAdj m c t)⟩]))
      d3 d4 := by
  have hm : t.val % 16 = t.val := Nat.mod_eq_of_lt ht
  have ho1 := off1_eq t
  have ho2 := off2_eq t
  have e10 : k0_off1 (grid0.coords t) 0 = 256 * (t.val % 16) := by rw [ho1]; rfl
  have e11 : k0_off1 (grid0.coords t) 1 = 0 := by rw [ho1]; rfl
  have e20 : k0_off2 (grid0.coords t) 0 = 256 * (t.val % 16) := by rw [ho2]; rfl
  have e21 : k0_off2 (grid0.coords t) 1 = 0 := by rw [ho2]; rfl
  obtain ⟨k0, k1, k2, _, _⟩ := hK
  refine ⟨fun y hy => ?_, fun y hy => ?_, fun y hy => ?_, fun y hy => absurd hy (by omega), fun y hy => absurd hy (by omega)⟩
  · refine agree_step v0 f0 _ _ (AB m c) (fun y => (y 0).val < 256 * t.val) k0 (fun x => ?_) y ?_
    · exact (AB_blk m c t ht _ x
        ((unit_emb0 (w := 4096) (k0_off1 (grid0.coords t)) (k0_off1_inb _ hc1) x).trans (by omega))
        ((unit_emb1 (w := 4096) (k0_off1 (grid0.coords t)) (k0_off1_inb _ hc1) x).trans (by omega))).symm
    · by_cases hlt : (y 0).val < 256 * t.val
      · exact Or.inl hlt
      · exact Or.inr (mem_unit_rows (w := 4096) _ _ t.val (by rw [ho1, hm]) y ⟨by omega, by omega⟩)
  · refine agree_step v1 f1 _ _ (ZB m c) (fun y => (y 0).val < 256 * t.val) k1 (fun x => ?_) y ?_
    · exact (ZB_blk m c t ht _ x
        ((unit_emb0 (w := 128) (k0_off2 (grid0.coords t)) (k0_off2_inb _ hc1) x).trans (by omega))
        ((unit_emb1 (w := 128) (k0_off2 (grid0.coords t)) (k0_off2_inb _ hc1) x).trans (by omega))).symm
    · by_cases hlt : (y 0).val < 256 * t.val
      · exact Or.inl hlt
      · exact Or.inr (mem_unit_rows (w := 128) _ _ t.val (by rw [ho2, hm]) y ⟨by omega, by omega⟩)
  · refine agree_step v2 f2 _ _ (DS m c) (fun y => (y 0).val < 256 * t.val) k2 (fun x => ?_) y ?_
    · exact (DS_blk m c t ht _ x
        ((unit_emb0 (w := 128) (k0_off2 (grid0.coords t)) (k0_off2_inb _ hc1) x).trans (by omega))
        ((unit_emb1 (w := 128) (k0_off2 (grid0.coords t)) (k0_off2_inb _ hc1) x).trans (by omega))).symm
    · by_cases hlt : (y 0).val < 256 * t.val
      · exact Or.inl hlt
      · exact Or.inr (mem_unit_rows (w := 128) _ _ t.val (by rw [ho2, hm]) y ⟨by omega, by omega⟩)

theorem known_step1 {sg : RefSig} {κ : Kind} {sp : Space} (t : Fin cfg0.N) (ht : 16 ≤ t.val ∧ t.val < 32) (hc2 : k0_cond2 (grid0.coords t) = 1#1)
    (d0 : Vec F S4096x4096 .bf16) (d1 : Vec F S4096x128 .bf16) (d2 : Vec F S4096x128 .f32)
    (v3 : View sg κ sp S4096x40 .bf16) (f3 : v3.ty.Contents (Elt F)) (v4 : View sg κ sp S4096x40 .f32) (f4 : v4.ty.Contents (Elt F))
    (hK : Known m c t.val d0 d1 d2 (v3.read (Elt F) f3) (v4.read (Elt F) f4)) :
    Known m c (t.val + 1) d0 d1 d2
      (v3.read (Elt F) (v3.writes (Elt F) f3 [⟨Rect.unit (k0_off5 (grid0.coords t)) S256x40.size (k0_off5_inb _ hc2), zwbAt m c t⟩]))
      (v4.read (Elt F) (v4.writes (Elt F) f4 [⟨Rect.unit (k0_off5 (grid0.coords t)) S256x40.size (k0_off5_inb _ hc2), dgAt m c t⟩])) := by
  have hm : t.val % 16 = t.val - 16 := by omega
  have ho5 := off5_eq t
  have e50 : k0_off5 (grid0.coords t) 0 = 256 * (t.val % 16) := by rw [ho5]; rfl
  have e51 : k0_off5 (grid0.coords t) 1 = 0 := by rw [ho5]; rfl
  obtain ⟨k0, k1, k2, k3, k4⟩ := hK
  refine ⟨fun y _ => k0 y ?_, fun y _ => k1 y ?_, fun y _ => k2 y ?_, fun y hy => ?_, fun y hy => ?_⟩
  · have h : (y 0).val < 4096 := (y 0).isLt
    omega
  · have h : (y 0).val < 4096 := (y 0).isLt
    omega
  · have h : (y 0).val < 4096 := (y 0).isLt
    omega
  · refine agree_step v3 f3 _ _ (ZWB m c) (fun y => (y 0).val + 4096 < 256 * t.val) k3 (fun x => ?_) y ?_
    · exact (ZWB_blk m c t ht _ x
        ((unit_emb0 (w := 40) (k0_off5 (grid0.coords t)) (k0_off5_inb _ hc2) x).trans (by omega))
        ((unit_emb1 (w := 40) (k0_off5 (grid0.coords t)) (k0_off5_inb _ hc2) x).trans (by omega))).symm
    · by_cases hlt : (y 0).val + 4096 < 256 * t.val
      · exact Or.inl hlt
      · exact Or.inr (mem_unit_rows (w := 40) _ _ (t.val - 16) (by rw [ho5, hm]) y ⟨by omega, by omega⟩)
  · refine agree_step v4 f4 _ _ (DG m c) (fun y => (y 0).val + 4096 < 256 * t.val) k4 (fun x => ?_) y ?_
    · exact (DG_blk m c t ht _ x
        ((unit_emb0 (w := 40) (k0_off5 (grid0.coords t)) (k0_off5_inb _ hc2) x).trans (by omega))
        ((unit_emb1 (w := 40) (k0_off5 (grid0.coords t)) (k0_off5_inb _ hc2) x).trans (by omega))).symm
    · by_cases hlt : (y 0).val + 4096 < 256 * t.val
      · exact Or.inl hlt
      · exact Or.inr (mem_unit_rows (w := 40) _ _ (t.val - 16) (by rw [ho5, hm]) y ⟨by omega, by omega⟩)

theorem known_step2 (t : Fin cfg0.N) (ht : 32 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    Known m c (t.val + 1) d0 d1 d2 d3 d4 := by
  obtain ⟨k0, k1, k2, k3, k4⟩ := hK
  refine ⟨fun y _ => k0 y ?_, fun y _ => k1 y ?_, fun y _ => k2 y ?_, fun y _ => k3 y ?_, fun y _ => k4 y ?_⟩
  all_goals
    have h : (y 0).val < 4096 := (y 0).isLt
    omega

end Cert.Kernel.Body

end
-- ==== Proof.K.FrameData.lean ====
import proofs.«138326_g49246095016332_cont_8to1_c_632_4_alg».proof.Proof.K.Pieces
import proofs.«138326_g49246095016332_cont_8to1_c_632_4_alg».proof.Proof.K.Tracked
import proofs.«138326_g49246095016332_cont_8to1_c_632_4_alg».proof.Proof.K.Agree

set_option maxRecDepth 16384

/-!
The frame of the program: it runs to the end, faults nowhere, and leaves its argument arrays unchanged.

The proof data names what every window's staging buffer holds after the body at each of the 48 points — an input's its
block, an output's the block the tracked contents say — and the region invariant: the five scratch buffers at contents
that agree, on the rows stored so far, with the functions of the entry arrays the tracked contents name. The body
obligation is by phase: the point's run, then the agreement extended by the stored row block (phase 0 and 1) or kept
(phase 2). An output's buffer is handed back untouched where the body stores nothing into it; the encoder's and the node
head's blocks stay in their buffers from the last point of phase 1 to the write-back at the very last point.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole-shape rectangle leaves its payload, whatever the buffer held. -/
theorem read_writes_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-- The region invariant before point `n`: each scratch buffer at some contents, the five agreeing with the tracked
    functions on the rows the first `n` points stored; the generator register at some state. -/
def PhiS (c : Dev nD) (n : ℕ) : sProp 𝕄 :=
  iprop(∃ d0, ∃ d1, ∃ d2, ∃ d3, ∃ d4, owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4
    ∗ ⌜Known m c n d0 d1 d2 d3 d4⌝ ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH m c t
    | ⟨10, _⟩ => outLn m c t
    | ⟨11, _⟩ => outLg m c t
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outH m c t := by dsimp only [dats]
theorem after_10 (c : Dev nD) (t : Fin cfg0.N) : (dats m 0 c).after 10 t = outLn m c t := by dsimp only [dats]
theorem after_11 (c : Dev nD) (t : Fin cfg0.N) : (dats m 0 c).after 11 t = outLg m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- An input's buffer is handed back at its block. -/
theorem leaves_0 (c : Dev nD) (t : Fin cfg0.N) : (dats m 0 c).leavesExact 0 t = owns (c : Thread nD τ) (ms0 t) fullShare (iblk m c 0 t) := by
  unfold Dat.leavesExact; rw [live_in 0 (by decide) t, after_0]
theorem leaves_1 (c : Dev nD) (t : Fin cfg0.N) : (dats m 0 c).leavesExact 1 t = owns (c : Thread nD τ) (ms1 t) fullShare (iblk m c 1 t) := by
  unfold Dat.leavesExact; rw [live_in 1 (by decide) t, after_1]
theorem leaves_2 (c : Dev nD) (t : Fin cfg0.N) : (dats m 0 c).leavesExact 2 t = owns (c : Thread nD τ) (ms2 t) fullShare (iblk m c 2 t) := by
  unfold Dat.leavesExact; rw [live_in 2 (by decide) t, after_2]
theorem leaves_3 (c : Dev nD) (t : Fin cfg0.N) : (dats m 0 c).leavesExact 3 t = owns (c : Thread nD τ) (ms3 t) fullShare (iblk m c 3 t) := by
  unfold Dat.leavesExact; rw [live_in 3 (by decide) t, after_3]
theorem leaves_4 (c : Dev nD) (t : Fin cfg0.N) : (dats m 0 c).leavesExact 4 t = owns (c : Thread nD τ) (ms4 t) fullShare (iblk m c 4 t) := by
  unfold Dat.leavesExact; rw [live_in 4 (by decide) t, after_4]
theorem leaves_5 (c : Dev nD) (t : Fin cfg0.N) : (dats m 0 c).leavesExact 5 t = owns (c : Thread nD τ) (ms5 t) fullShare (iblk m c 5 t) := by
  unfold Dat.leavesExact; rw [live_in 5 (by decide) t, after_5]
theorem leaves_6 (c : Dev nD) (t : Fin cfg0.N) : (dats m 0 c).leavesExact 6 t = owns (c : Thread nD τ) (ms6 t) fullShare (iblk m c 6 t) := by
  unfold Dat.leavesExact; rw [live_in 6 (by decide) t, after_6]
theorem leaves_7 (c : Dev nD) (t : Fin cfg0.N) : (dats m 0 c).leavesExact 7 t = owns (c : Thread nD τ) (ms7 t) fullShare (iblk m c 7 t) := by
  unfold Dat.leavesExact; rw [live_in 7 (by decide) t, after_7]
theorem leaves_8 (c : Dev nD) (t : Fin cfg0.N) : (dats m 0 c).leavesExact 8 t = owns (c : Thread nD τ) (ms8 t) fullShare (iblk m c 8 t) := by
  unfold Dat.leavesExact; rw [live_in 8 (by decide) t, after_8]

/-! ## The encoder's and the node head's buffers after phase 1 -/

/-- `before` one point later, for a window not fetched there. -/
theorem before_step (c : Dev nD) (w : Fin cfg0.W) (t t' : Fin cfg0.N) (h : t'.val + 1 = t.val) (hf : (cfg0.win w).fetch t = false) (d) :
    (dats m 0 c).before w t d = if (cfg0.win w).flush t' then d else (dats m 0 c).left w t' d := by
  have e : (⟨t.val - 1, Nat.lt_of_le_of_lt (Nat.sub_le _ _) t.isLt⟩ : Fin cfg0.N) = t' := Fin.ext (by simp only []; omega)
  rw [Dat.before_of_pos _ w t (by omega) hf d, e]

theorem outH_late (c : Dev nD) (t : Fin cfg0.N) (h : 31 ≤ t.val) : outH m c t = embAt m c (pt 31 (by decide)) := by
  unfold outH clamp31
  by_cases h31 : t.val ≤ 31
  · rw [if_pos h31]; exact congrArg _ (Fin.ext (by simp only [pt_val]; omega))
  · rw [if_neg h31]
theorem outLn_late (c : Dev nD) (t : Fin cfg0.N) (h : 31 ≤ t.val) : outLn m c t = lnAt m c (pt 31 (by decide)) := by
  unfold outLn clamp31
  by_cases h31 : t.val ≤ 31
  · rw [if_pos h31]; exact congrArg _ (Fin.ext (by simp only [pt_val]; omega))
  · rw [if_neg h31]
theorem outH_mid (c : Dev nD) (t : Fin cfg0.N) (h : t.val ≤ 31) : outH m c t = embAt m c t := by
  unfold outH clamp31; rw [if_pos h]
theorem outLn_mid (c : Dev nD) (t : Fin cfg0.N) (h : t.val ≤ 31) : outLn m c t = lnAt m c t := by
  unfold outLn clamp31; rw [if_pos h]

/-- From point 32 on the encoder's buffer holds the block the last point of phase 1 left: nothing is stored into it and it
    is not written back before the last point. -/
theorem before9_late (c : Dev nD) (d) : ∀ (k : ℕ) (hk : 32 + k < cfg0.N), (dats m 0 c).before 9 ⟨32 + k, hk⟩ d = outH m c ⟨32 + k, hk⟩
  | 0, hk => by
    have hN : (31 : ℕ) < cfg0.N := by omega
    rw [before_step m c 9 ⟨32 + 0, hk⟩ ⟨31, hN⟩ rfl (fetch9 _) d]
    have hfl : (cfg0.win 9).flush ⟨31, hN⟩ = false := Bool.eq_false_iff.mpr fun hf => by
      have := (flush9 ⟨31, hN⟩).mp hf; simp only [] at this; omega
    have hid : cfg0.idle 9 (grid0.coords ⟨31, hN⟩) = false := Bool.eq_false_iff.mpr fun hf => by
      have := (idle9 ⟨31, hN⟩).mp hf; simp only [] at this; omega
    rw [hfl, if_neg Bool.false_ne_true]
    unfold Dat.left; rw [hid]
    show (dats m 0 c).after 9 ⟨31, hN⟩ = _
    rw [after_9, outH_late m c _ (by simp only []; omega), outH_late m c _ (by simp only []; omega)]
  | k + 1, hk => by
    have hN : 32 + k < cfg0.N := by omega
    rw [before_step m c 9 ⟨32 + (k + 1), hk⟩ ⟨32 + k, hN⟩ (by simp only []; omega) (fetch9 _) d]
    have hfl : (cfg0.win 9).flush ⟨32 + k, hN⟩ = false := Bool.eq_false_iff.mpr fun hf => by
      have h48 : 32 + (k + 1) < 48 := lt_of_lt_of_eq hk N_0
      have := (flush9 ⟨32 + k, hN⟩).mp hf; simp only [] at this; omega
    have hid : cfg0.idle 9 (grid0.coords ⟨32 + k, hN⟩) = true := (idle9 ⟨32 + k, hN⟩).mpr (by simp only []; omega)
    rw [hfl, if_neg Bool.false_ne_true]
    unfold Dat.left; rw [hid]
    show (dats m 0 c).before 9 ⟨32 + k, hN⟩ d = _
    rw [before9_late c d k hN, outH_late m c _ (by simp only []; omega), outH_late m c _ (by simp only []; omega)]
theorem before10_late (c : Dev nD) (d) : ∀ (k : ℕ) (hk : 32 + k < cfg0.N), (dats m 0 c).before 10 ⟨32 + k, hk⟩ d = outLn m c ⟨32 + k, hk⟩
  | 0, hk => by
    have hN : (31 : ℕ) < cfg0.N := by omega
    rw [before_step m c 10 ⟨32 + 0, hk⟩ ⟨31, hN⟩ rfl (fetch10 _) d]
    have hfl : (cfg0.win 10).flush ⟨31, hN⟩ = false := Bool.eq_false_iff.mpr fun hf => by
      have := (flush10 ⟨31, hN⟩).mp hf; simp only [] at this; omega
    have hid : cfg0.idle 10 (grid0.coords ⟨31, hN⟩) = false := Bool.eq_false_iff.mpr fun hf => by
      have := (idle10 ⟨31, hN⟩).mp hf; simp only [] at this; omega
    rw [hfl, if_neg Bool.false_ne_true]
    unfold Dat.left; rw [hid]
    show (dats m 0 c).after 10 ⟨31, hN⟩ = _
    rw [after_10, outLn_late m c _ (by simp only []; omega), outLn_late m c _ (by simp only []; omega)]
  | k + 1, hk => by
    have hN : 32 + k < cfg0.N := by omega
    rw [before_step m c 10 ⟨32 + (k + 1), hk⟩ ⟨32 + k, hN⟩ (by simp only []; omega) (fetch10 _) d]
    have hfl : (cfg0.win 10).flush ⟨32 + k, hN⟩ = false := Bool.eq_false_iff.mpr fun hf => by
      have h48 : 32 + (k + 1) < 48 := lt_of_lt_of_eq hk N_0
      have := (flush10 ⟨32 + k, hN⟩).mp hf; simp only [] at this; omega
    have hid : cfg0.idle 10 (grid0.coords ⟨32 + k, hN⟩) = true := (idle10 ⟨32 + k, hN⟩).mpr (by simp only []; omega)
    rw [hfl, if_neg Bool.false_ne_true]
    unfold Dat.left; rw [hid]
    show (dats m 0 c).before 10 ⟨32 + k, hN⟩ d = _
    rw [before10_late c d k hN, outLn_late m c _ (by simp only []; omega), outLn_late m c _ (by simp only []; omega)]

theorem before9_late' (c : Dev nD) (t : Fin cfg0.N) (h : 32 ≤ t.val) (d) : (dats m 0 c).before 9 t d = outH m c t := by
  obtain ⟨n, hn⟩ := t
  obtain ⟨k, rfl⟩ : ∃ k, n = 32 + k := ⟨n - 32, by simp only [] at h; omega⟩
  exact before9_late m c d k hn
theorem before10_late' (c : Dev nD) (t : Fin cfg0.N) (h : 32 ≤ t.val) (d) : (dats m 0 c).before 10 t d = outLn m c t := by
  obtain ⟨n, hn⟩ := t
  obtain ⟨k, rfl⟩ : ∃ k, n = 32 + k := ⟨n - 32, by simp only [] at h; omega⟩
  exact before10_late m c d k hn

/-- In phase 2 the encoder's buffer, holding that block, is what the point hands back — untouched where it is not written
    back, and as the stated contents at the last point, where it is. -/
theorem leaves9_late (c : Dev nD) (t : Fin cfg0.N) (h : 32 ≤ t.val) (d) :
    owns (c : Thread nD τ) (ms9 t) fullShare ((dats m 0 c).before 9 t d) ⊢ ((dats m 0 c).leavesExact 9 t : sProp 𝕄) := by
  have hid : cfg0.idle 9 (grid0.coords t) = true := (idle9 t).mpr (by omega)
  by_cases hfl : (cfg0.win 9).flush t = true
  · unfold Dat.leavesExact; rw [hid, hfl, before9_late' m c t h d, after_9]
  · rw [Dat.leavesExact_idle (dats m 0 c) 9 t hid (Bool.eq_false_iff.mpr hfl)]
    iintro H; iexists d; iexact H
theorem leaves10_late (c : Dev nD) (t : Fin cfg0.N) (h : 32 ≤ t.val) (d) :
    owns (c : Thread nD τ) (ms10 t) fullShare ((dats m 0 c).before 10 t d) ⊢ ((dats m 0 c).leavesExact 10 t : sProp 𝕄) := by
  have hid : cfg0.idle 10 (grid0.coords t) = true := (idle10 t).mpr (by omega)
  by_cases hfl : (cfg0.win 10).flush t = true
  · unfold Dat.leavesExact; rw [hid, hfl, before10_late' m c t h d, after_10]
  · rw [Dat.leavesExact_idle (dats m 0 c) 10 t hid (Bool.eq_false_iff.mpr hfl)]
    iintro H; iexists d; iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.Kernel.Body

end
-- ==== Proof.K.Body0.lean ====
import proofs.«138326_g49246095016332_cont_8to1_c_632_4_alg».proof.Proof.K.FrameData

set_option maxRecDepth 16384

/-!
The body obligation at a point of phase 0.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 0: the run stores one row block into each of the three phase-0 scratch buffers; the agreement grows by
    that block; every output's buffer is handed back untouched. -/
theorem sound_body0 (c : Dev nD) (t : Fin cfg0.N) (h1 : t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : k0_cond1 (grid0.coords t) = 1#1 := (hcond1 t).mpr h1
  have hc2 : ¬ k0_cond2 (grid0.coords t) = 1#1 := fun h => by have := (hcond2 t).mp h; omega
  have hc3 : ¬ k0_cond3 (grid0.coords t) = 1#1 := fun h => by have := (hcond3 t).mp h; omega
  rw [Dat.leavesExact_idle (dats m 0 c) 9 t ((idle9 t).mpr (by omega)) (Bool.eq_false_iff.mpr fun hf => by have := (flush9 t).mp hf; omega)]
  rw [Dat.leavesExact_idle (dats m 0 c) 10 t ((idle10 t).mpr (by omega)) (Bool.eq_false_iff.mpr fun hf => by have := (flush10 t).mp hf; omega)]
  rw [Dat.leavesExact_idle (dats m 0 c) 11 t ((idle11 t).mpr (by omega)) (Bool.eq_false_iff.mpr fun hf => by have := (flush11 t).mp hf; omega)]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply (runP0_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 1 t) (iblk m c 2 t) (iblk m c 3 t) d0 d1 d2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 HS3 HS4 Hg]
  · iexists _; iexists _; iexists _; iexists d3; iexists d4
    isplitl [HS0]
    · unfold owns; iexists _; isplitr; swap; · iexact HS0
      ipureintro; rfl
    isplitl [HS1]
    · unfold owns; iexists _; isplitr; swap; · iexact HS1
      ipureintro; rfl
    isplitl [HS2]
    · unfold owns; iexists _; isplitr; swap; · iexact HS2
      ipureintro; rfl
    isplitl [HS3]; · iexact HS3
    isplitl [HS4]; · iexact HS4
    isplitr [Hg]
    · ipureintro
      exact known_step0 m c t h1 hc1 sc0.view _ sc1.view _ sc2.view _ d3 d4
        (by rw [Memref.IsWhole.read_unread, Memref.IsWhole.read_unread, Memref.IsWhole.read_unread]; exact hK)
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.Kernel.Body

end
-- ==== Proof.K.Body1.lean ====
import proofs.«138326_g49246095016332_cont_8to1_c_632_4_alg».proof.Proof.K.FrameData

set_option maxRecDepth 16384

/-!
The body obligation at a point of phase 1.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 1: with all of phase 0 known, the run leaves the encoder's and the node head's blocks in their buffers
    and stores one row block into each of the two phase-1 scratch buffers; the agreement grows by that block. -/
theorem sound_body1 (c : Dev nD) (t : Fin cfg0.N) (h16 : 16 ≤ t.val) (h32 : t.val < 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : ¬ k0_cond1 (grid0.coords t) = 1#1 := fun h => by have := (hcond1 t).mp h; omega
  have hc2 : k0_cond2 (grid0.coords t) = 1#1 := (hcond2 t).mpr ⟨h16, h32⟩
  have hc3 : ¬ k0_cond3 (grid0.coords t) = 1#1 := fun h => by have := (hcond3 t).mp h; omega
  rw [show (dats m 0 c).leavesExact 9 t = owns (c : Thread nD τ) (ms9 t) fullShare (outH m c t) from by
    unfold Dat.leavesExact; rw [(show cfg0.idle 9 (grid0.coords t) = false from Bool.eq_false_iff.mpr fun hf => by have := (idle9 t).mp hf; omega), after_9]]
  rw [show (dats m 0 c).leavesExact 10 t = owns (c : Thread nD τ) (ms10 t) fullShare (outLn m c t) from by
    unfold Dat.leavesExact; rw [(show cfg0.idle 10 (grid0.coords t) = false from Bool.eq_false_iff.mpr fun hf => by have := (idle10 t).mp hf; omega), after_10]]
  rw [Dat.leavesExact_idle (dats m 0 c) 11 t ((idle11 t).mpr (by omega)) (Bool.eq_false_iff.mpr fun hf => by have := (flush11 t).mp hf; omega)]
  rw [outH_mid m c t (by omega), outLn_mid m c t (by omega)]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  have e1 := zb_of_known m c t h16 d0 d1 d2 d3 d4 hK
  subst e1
  have e13 : k0_pay13 (k0_pay1 (iblk m c 0 t)) (rd0 (grid0.coords t) hc2 d0) (ZB m c) (rd2 (grid0.coords t) hc2 d2) (rd1 (grid0.coords t) hc2 (ZB m c)) (iblk m c 6 t) (iblk m c 4 t) = zwbAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e7 : k0_pay7 (iblk m c 0 t) (k0_pay11 (rd2 (grid0.coords t) hc2 d2)) (k0_pay12 (k0_pay1 (iblk m c 0 t)) (rd0 (grid0.coords t) hc2 d0) (ZB m c) (rd2 (grid0.coords t) hc2 d2) (rd1 (grid0.coords t) hc2 (ZB m c)) (iblk m c 6 t) (iblk m c 4 t)) = dgAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e9 : k0_pay9 (k0_pay1 (iblk m c 0 t)) (rd0 (grid0.coords t) hc2 d0) (ZB m c) (rd2 (grid0.coords t) hc2 d2) (rd1 (grid0.coords t) hc2 (ZB m c)) (iblk m c 6 t) = embAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e10 : k0_pay10 (k0_pay1 (iblk m c 0 t)) (rd0 (grid0.coords t) hc2 d0) (ZB m c) (rd2 (grid0.coords t) hc2 d2) (rd1 (grid0.coords t) hc2 (ZB m c)) (iblk m c 6 t) (iblk m c 5 t) (iblk m c 7 t) = lnAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  iapply (runP1_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 4 t) (iblk m c 5 t) (iblk m c 6 t) (iblk m c 7 t) d0 (ZB m c) d2 d3 d4 Set.univ _)
  isplitl [H0]; · iexact H0
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [H9]; · iexists _; iexact H9
  isplitl [H10]; · iexists _; iexact H10
  iintro ⟨H0, H4, H5, H6, H7, HS0, HS1, HS2, HS3, HS4, ⟨%f9, H9⟩, ⟨%f10, H10⟩⟩
  rw [e13, e7, e9, e10]
  isplitl [HS0 HS1 HS2 HS3 HS4 Hg]
  · iexists d0; iexists (ZB m c); iexists d2; iexists _; iexists _
    isplitl [HS0]; · iexact HS0
    isplitl [HS1]; · iexact HS1
    isplitl [HS2]; · iexact HS2
    isplitl [HS3]
    · unfold owns; iexists _; isplitr; swap; · iexact HS3
      ipureintro; rfl
    isplitl [HS4]
    · unfold owns; iexists _; isplitr; swap; · iexact HS4
      ipureintro; rfl
    isplitr [Hg]
    · ipureintro
      exact known_step1 m c t ⟨h16, h32⟩ hc2 d0 (ZB m c) d2 sc3.view _ sc4.view _
        (by rw [Memref.IsWhole.read_unread, Memref.IsWhole.read_unread]; exact hK)
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_writes_whole _ _ hz2 _ _
  isplitl [H10]
  · unfold owns; iexists _; isplitr; swap; · iexact H10
    ipureintro; exact read_writes_whole _ _ hz2 _ _
  iexists _; iexact H11

end Cert.Kernel.Body

end
-- ==== Proof.K.Body2.lean ====
import proofs.«138326_g49246095016332_cont_8to1_c_632_4_alg».proof.Proof.K.FrameData

set_option maxRecDepth 16384

/-!
The body obligation at a point of phase 2.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 2: with every scratch row known, the run leaves the decoder's block in its buffer; the scratch buffers
    are only read. -/
theorem sound_body2 (c : Dev nD) (t : Fin cfg0.N) (h32 : 32 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : ¬ k0_cond1 (grid0.coords t) = 1#1 := fun h => by have := (hcond1 t).mp h; omega
  have hc2 : ¬ k0_cond2 (grid0.coords t) = 1#1 := fun h => by have := (hcond2 t).mp h; omega
  have hc3 : k0_cond3 (grid0.coords t) = 1#1 := (hcond3 t).mpr h32
  rw [show (dats m 0 c).leavesExact 11 t = owns (c : Thread nD τ) (ms11 t) fullShare (outLg m c t) from by
    unfold Dat.leavesExact; rw [(show cfg0.idle 11 (grid0.coords t) = false from Bool.eq_false_iff.mpr fun hf => by have := (idle11 t).mp hf; omega), after_11]]
  rw [show outLg m c t = lgAt m c t from rfl]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  have e3 := zwb_of_known2 m c t h32 d0 d1 d2 d3 d4 hK
  subst e3
  have e8 : k0_pay8 (View.ld d0 (Rect.unit (k0_off6 (grid0.coords t)) S256x4096.size (k0_off6_inb (grid0.coords t) hc3))) (ZWB m c) (View.ld d4 (Rect.unit (k0_off7 (grid0.coords t)) S256x40.size (k0_off7_inb (grid0.coords t) hc3))) (iblk m c 8 t) = lgAt m c t := by
    rw [rd0_of_known2 m c t h32 hc3 d0 d1 d2 (ZWB m c) d4 hK, rd4_of_known2 m c t h32 hc3 d0 d1 d2 (ZWB m c) d4 hK]
    rfl
  iapply (runP2_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 8 t) d0 (ZWB m c) d4 Set.univ _)
  isplitl [H0]; · iexact H0
  isplitl [H8]; · iexact H8
  isplitl [HS0]; · iexact HS0
  isplitl [HS3]; · iexact HS3
  isplitl [HS4]; · iexact HS4
  isplitl [H11]; · iexists _; iexact H11
  iintro ⟨H0, H8, HS0, HS3, HS4, ⟨%f11, H11⟩⟩
  rw [e8]
  isplitl [HS0 HS1 HS2 HS3 HS4 Hg]
  · iexists d0; iexists d1; iexists d2; iexists (ZWB m c); iexists d4
    isplitl [HS0]; · iexact HS0
    isplitl [HS1]; · iexact HS1
    isplitl [HS2]; · iexact HS2
    isplitl [HS3]; · iexact HS3
    isplitl [HS4]; · iexact HS4
    isplitr [Hg]
    · ipureintro; exact known_step2 m c t h32 d0 d1 d2 (ZWB m c) d4 hK
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves9_late m c t h32 e9); iexact H9
  isplitl [H10]; · iapply (leaves10_late m c t h32 e10); iexact H10
  unfold owns; iexists _; isplitr; swap; · iexact H11
  ipureintro; exact read_writes_whole _ _ hz2 _ _

end Cert.Kernel.Body

end
-- ==== Proof.K.Frame.lean ====
import proofs.«138326_g49246095016332_cont_8to1_c_632_4_alg».proof.Proof.K.Body0
import proofs.«138326_g49246095016332_cont_8to1_c_632_4_alg».proof.Proof.K.Body1
import proofs.«138326_g49246095016332_cont_8to1_c_632_4_alg».proof.Proof.K.Body2

set_option maxRecDepth 16384

/-!
The body obligation at every point, the launch's two entailments, the run and the frame.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 16
  · exact sound_body0 m c t h1
  · by_cases h2 : t.val < 32
    · exact sound_body1 m c t (by omega) h2
    · exact sound_body2 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch yet. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩, ⟨%d2, HS2⟩, ⟨%d3, HS3⟩, ⟨%d4, HS4⟩⟩, Hg⟩
  iexists d0; iexists d1; iexists d2; iexists d3; iexists d4
  isplitl [HS0]; · iexact HS0
  isplitl [HS1]; · iexact HS1
  isplitl [HS2]; · iexact HS2
  isplitl [HS3]; · iexact HS3
  isplitl [HS4]; · iexact HS4
  isplitr [Hg]
  · ipureintro; exact known_zero m c d0 d1 d2 d3 d4
  · iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d0, %d1, %d2, %d3, %d4, HS0, HS1, HS2, HS3, HS4, -, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-! ## The run and the frame -/

set_option backward.isDefEq.respectTransparency.types false in
/-- Every weakly fair execution of @main on the TensorCores terminates, and every final state has every array of the
    pipeline at what the library computes from the proof data and every other unscoped buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.KI.Shared.lean ====
import proofs.«138326_g49246095016332_cont_8to1_c_632_4_alg».proof.Proof.Gen.KernelIdeal.Frame
import proofs.«138326_g49246095016332_cont_8to1_c_632_4_alg».proof.Proof.Gen.KernelIdeal.Skeleton

set_option maxRecDepth 16384

/-!
What the per-phase runs and the frame assembly share: the three branch conditions decided over the 48 grid points
(point `t` is in phase `t / 16`, at row block `t % 16`), where each output window is idle, fetched and written back, the
row offset of every scratch rectangle, the staging and scratch memrefs by name, and the region's class invariant opened
into its five scratch buffers and the generator register.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The branch conditions over the grid: phase 0 is points 0–15, phase 1 points 16–31, phase 2 points 32–47 -/

theorem hcond1 : ∀ t : Fin cfg0.N, k0_cond1 (grid0.coords t) = 1#1 ↔ t.val < 16 :=
  (by decide +kernel : ∀ t : Fin grid0.N, k0_cond1 (grid0.coords t) = 1#1 ↔ t.val < 16)
theorem hcond2 : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem hcond3 : ∀ t : Fin cfg0.N, k0_cond3 (grid0.coords t) = 1#1 ↔ 32 ≤ t.val :=
  (by decide +kernel : ∀ t : Fin grid0.N, k0_cond3 (grid0.coords t) = 1#1 ↔ 32 ≤ t.val)

/-! ## The schedule of the three output windows -/

/-- The encoder's block is written back after each point of phase 1 but the last, and once more at the very end. -/
theorem flush9 : ∀ t : Fin cfg0.N, (cfg0.win 9).flush t = true ↔ ((16 ≤ t.val ∧ t.val < 31) ∨ t.val = 47) :=
  (by decide +kernel : ∀ t : Fin grid0.N, win0_9.flush t = true ↔ ((16 ≤ t.val ∧ t.val < 31) ∨ t.val = 47))
theorem flush10 : ∀ t : Fin cfg0.N, (cfg0.win 10).flush t = true ↔ ((16 ≤ t.val ∧ t.val < 31) ∨ t.val = 47) :=
  (by decide +kernel : ∀ t : Fin grid0.N, win0_10.flush t = true ↔ ((16 ≤ t.val ∧ t.val < 31) ∨ t.val = 47))
/-- The decoder's block is written back after every point of phase 2. -/
theorem flush11 : ∀ t : Fin cfg0.N, (cfg0.win 11).flush t = true ↔ 32 ≤ t.val :=
  (by decide +kernel : ∀ t : Fin grid0.N, win0_11.flush t = true ↔ 32 ≤ t.val)
theorem fetch9 : ∀ t : Fin cfg0.N, (cfg0.win 9).fetch t = false :=
  (by decide +kernel : ∀ t : Fin grid0.N, win0_9.fetch t = false)
theorem fetch10 : ∀ t : Fin cfg0.N, (cfg0.win 10).fetch t = false :=
  (by decide +kernel : ∀ t : Fin grid0.N, win0_10.fetch t = false)
theorem fetch11 : ∀ t : Fin cfg0.N, (cfg0.win 11).fetch t = false :=
  (by decide +kernel : ∀ t : Fin grid0.N, win0_11.fetch t = false)
/-- The encoder's and the node head's windows are stored in phase 1 only, the decoder's in phase 2 only. -/
theorem idle9 : ∀ t : Fin cfg0.N, cfg0.idle 9 (grid0.coords t) = true ↔ ¬ (16 ≤ t.val ∧ t.val < 32) :=
  (by decide +kernel : ∀ t : Fin grid0.N, cfg0.idle 9 (grid0.coords t) = true ↔ ¬ (16 ≤ t.val ∧ t.val < 32))
theorem idle10 : ∀ t : Fin cfg0.N, cfg0.idle 10 (grid0.coords t) = true ↔ ¬ (16 ≤ t.val ∧ t.val < 32) :=
  (by decide +kernel : ∀ t : Fin grid0.N, cfg0.idle 10 (grid0.coords t) = true ↔ ¬ (16 ≤ t.val ∧ t.val < 32))
theorem idle11 : ∀ t : Fin cfg0.N, cfg0.idle 11 (grid0.coords t) = true ↔ ¬ (32 ≤ t.val) :=
  (by decide +kernel : ∀ t : Fin grid0.N, cfg0.idle 11 (grid0.coords t) = true ↔ ¬ (32 ≤ t.val))
/-- The nine input windows are never idle. -/
theorem live_in : ∀ (w : Fin 12), w.val < 9 → ∀ t : Fin cfg0.N, cfg0.idle w (grid0.coords t) = false := by decide +kernel

/-! ## The row offset of every scratch rectangle at point `t`: 256 times the row block `t % 16` -/

theorem off1_eq : ∀ t : Fin cfg0.N, k0_off1 (grid0.coords t) = ![256 * (t.val % 16), 0] :=
  (by decide +kernel : ∀ t : Fin grid0.N, k0_off1 (grid0.coords t) = ![256 * (t.val % 16), 0])
theorem off2_eq : ∀ t : Fin cfg0.N, k0_off2 (grid0.coords t) = ![256 * (t.val % 16), 0] :=
  (by decide +kernel : ∀ t : Fin grid0.N, k0_off2 (grid0.coords t) = ![256 * (t.val % 16), 0])
theorem off3_eq : ∀ t : Fin cfg0.N, k0_off3 (grid0.coords t) = ![256 * (t.val % 16), 0] :=
  (by decide +kernel : ∀ t : Fin grid0.N, k0_off3 (grid0.coords t) = ![256 * (t.val % 16), 0])
theorem off4_eq : ∀ t : Fin cfg0.N, k0_off4 (grid0.coords t) = ![256 * (t.val % 16), 0] :=
  (by decide +kernel : ∀ t : Fin grid0.N, k0_off4 (grid0.coords t) = ![256 * (t.val % 16), 0])
theorem off5_eq : ∀ t : Fin cfg0.N, k0_off5 (grid0.coords t) = ![256 * (t.val % 16), 0] :=
  (by decide +kernel : ∀ t : Fin grid0.N, k0_off5 (grid0.coords t) = ![256 * (t.val % 16), 0])
theorem off6_eq : ∀ t : Fin cfg0.N, k0_off6 (grid0.coords t) = ![256 * (t.val % 16), 0] :=
  (by decide +kernel : ∀ t : Fin grid0.N, k0_off6 (grid0.coords t) = ![256 * (t.val % 16), 0])
theorem off7_eq : ∀ t : Fin cfg0.N, k0_off7 (grid0.coords t) = ![256 * (t.val % 16), 0] :=
  (by decide +kernel : ∀ t : Fin grid0.N, k0_off7 (grid0.coords t) = ![256 * (t.val % 16), 0])

/-! ## The memrefs the body is called with -/

/-- Each window's current staging memref at point `t`, spelt as the pipeline passes it, and its wholeness. -/
abbrev ms0 (t : Fin cfg0.N) : Memref sig .tc .vmem S1x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x40 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x40 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x40 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x40 .f32 := win0_11.stage (cfg0.slots t 11)
abbrev hs11 (t : Fin cfg0.N) : (ms11 t).IsWhole := hstage0_11 ((cfg0.slots t 11).cast nbuf0_11)

/-- The five scratch operands: whole scoped buffers of the kernel's own. -/
abbrev sc0 : Memref sig .tc .vmem S4096x4096 .bf16 := Memref.whole cc0_scratch0
abbrev sc1 : Memref sig .tc .vmem S4096x128 .bf16 := Memref.whole cc0_scratch1
abbrev sc2 : Memref sig .tc .vmem S4096x128 .f32 := Memref.whole cc0_scratch2
abbrev sc3 : Memref sig .tc .vmem S4096x40 .bf16 := Memref.whole cc0_scratch3
abbrev sc4 : Memref sig .tc .vmem S4096x40 .f32 := Memref.whole cc0_scratch4

/-- The class invariant opened: each scratch buffer owned at some contents, and the generator register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Body

end
-- ==== Proof.KI.RunP0.lean ====
import proofs.«138326_g49246095016332_cont_8to1_c_632_4_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body at a point of phase 0, on whole memrefs: the self-loop weight, the adjacency row block, the feature row block and the first weight matrix at given contents, the three scratch buffers it stores into at given contents; it runs to the continuation with the inputs as they were and each of those scratch buffers with one piece written over what it held (the piece lists are the witnesses the run finds). -/
noncomputable def runP0 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : k0_cond1 i = 1#1) (hc2 : ¬ k0_cond2 i = 1#1) (hc3 : ¬ k0_cond3 i = 1#1)
    (xla : Vec F S1x1 .f32) (xadj : Vec F S256x4096 .f32) (xx : Vec F S256x128 .f32) (xw0 : Vec F S128x128 .f32) (s0 : Vec F S4096x4096 .bf16) (s1 : Vec F S4096x128 .bf16) (s2 : Vec F S4096x128 .f32) :
    Σ' (LS0 : List (View.Piece (Elt F) S4096x4096 .bf16)) (LS1 : List (View.Piece (Elt F) S4096x128 .bf16)), { LS2 : List (View.Piece (Elt F) S4096x128 .f32) //
      ∀ (E : Set ℕ) (K : PUnit → sProp 𝕄),
        iprop(owns (c : Thread nD τ) arg2 fullShare xla ∗ owns (c : Thread nD τ) arg3 fullShare xadj ∗ owns (c : Thread nD τ) arg4 fullShare xx ∗ owns (c : Thread nD τ) arg5 fullShare xw0 ∗ owns (c : Thread nD τ) arg14 fullShare s0 ∗ owns (c : Thread nD τ) arg15 fullShare s1 ∗ owns (c : Thread nD τ) arg16 fullShare s2
            ∗ (iprop(owns (c : Thread nD τ) arg2 fullShare xla ∗ owns (c : Thread nD τ) arg3 fullShare xadj ∗ owns (c : Thread nD τ) arg4 fullShare xx ∗ owns (c : Thread nD τ) arg5 fullShare xw0 ∗ (arg14.view.loc (c : Thread nD τ) ↦[arg14.view.set]{fullShare} arg14.view.writes (Elt F) (harg14.unread s0) LS0) ∗ (arg15.view.loc (c : Thread nD τ) ↦[arg15.view.set]{fullShare} arg15.view.writes (Elt F) (harg15.unread s1) LS1) ∗ (arg16.view.loc (c : Thread nD τ) ↦[arg16.view.set]{fullShare} arg16.view.writes (Elt F) (harg16.unread s2) LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%farg2, %hfarg2, Harg2⟩, ⟨%farg3, %hfarg3, Harg3⟩, ⟨%farg4, %hfarg4, Harg4⟩, ⟨%farg5, %hfarg5, Harg5⟩, ⟨%farg14, %hfarg14, Harg14⟩, ⟨%farg15, %hfarg15, Harg15⟩, ⟨%farg16, %hfarg16, Harg16⟩, Hk⟩
    obtain rfl := harg2.eq_unread hfarg2
    obtain rfl := harg3.eq_unread hfarg3
    obtain rfl := harg4.eq_unread hfarg4
    obtain rfl := harg5.eq_unread hfarg5
    obtain rfl := harg14.eq_unread hfarg14
    obtain rfl := harg15.eq_unread hfarg15
    obtain rfl := harg16.eq_unread hfarg16
    sl_exec (disch := first | exact hc1 | exact hc2 | exact hc3)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg14]
    · iexact Harg14
    isplitl [Harg15]
    · iexact Harg15
    iexact Harg16

end Cert.KernelIdeal.Body

end
-- ==== Proof.KI.RunP1.lean ====
import proofs.«138326_g49246095016332_cont_8to1_c_632_4_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body at a point of phase 1, on whole memrefs: the self-loop weight, the two head matrices, the three bias rows and the three scratch buffers phase 0 filled at given contents (read only), the two scratch buffers it stores into at given contents, the encoder's and the node head's staging buffers at anything; it runs to the continuation with what it only read as it was, each of the two scratch buffers with one piece written over what it held, and each output buffer with its pieces written. -/
noncomputable def runP1 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : ¬ k0_cond1 i = 1#1) (hc2 : k0_cond2 i = 1#1) (hc3 : ¬ k0_cond3 i = 1#1)
    (xla : Vec F S1x1 .f32) (x6 : Vec F S128x40 .f32) (x7 : Vec F S128x40 .f32) (x8 : Vec F S1x128 .f32) (x9 : Vec F S1x40 .f32) (s0 : Vec F S4096x4096 .bf16) (s1 : Vec F S4096x128 .bf16) (s2 : Vec F S4096x128 .f32) (s3 : Vec F S4096x40 .bf16) (s4 : Vec F S4096x40 .f32) :
    Σ' (LS3 : List (View.Piece (Elt F) S4096x40 .bf16)) (LS4 : List (View.Piece (Elt F) S4096x40 .f32)) (L9 : List (View.Piece (Elt F) S256x128 .f32)), { L10 : List (View.Piece (Elt F) S256x40 .f32) //
      ∀ (E : Set ℕ) (K : PUnit → sProp 𝕄),
        iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4 ∗ (∃ d, owns (c : Thread nD τ) arg11 fullShare d) ∗ (∃ d, owns (c : Thread nD τ) arg12 fullShare d)
            ∗ (iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ (arg17.view.loc (c : Thread nD τ) ↦[arg17.view.set]{fullShare} arg17.view.writes (Elt F) (harg17.unread s3) LS3) ∗ (arg18.view.loc (c : Thread nD τ) ↦[arg18.view.set]{fullShare} arg18.view.writes (Elt F) (harg18.unread s4) LS4) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    simp only [k0_part1_eq_skeleton]; unfold k0_part1_skel
    unfold owns
    iintro ⟨⟨%farg2, %hfarg2, Harg2⟩, ⟨%farg6, %hfarg6, Harg6⟩, ⟨%farg7, %hfarg7, Harg7⟩, ⟨%farg8, %hfarg8, Harg8⟩, ⟨%farg9, %hfarg9, Harg9⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%darg11, %farg11, -, Harg11⟩, ⟨%darg12, %farg12, -, Harg12⟩, Hk⟩
    obtain rfl := harg2.eq_unread hfarg2
    obtain rfl := harg6.eq_unread hfarg6
    obtain rfl := harg7.eq_unread hfarg7
    obtain rfl := harg8.eq_unread hfarg8
    obtain rfl := harg9.eq_unread hfarg9
    obtain rfl := harg14.eq_unread hfarg14
    obtain rfl := harg15.eq_unread hfarg15
    obtain rfl := harg16.eq_unread hfarg16
    obtain rfl := harg17.eq_unread hfarg17
    obtain rfl := harg18.eq_unread hfarg18
    sl_exec (disch := first | exact hc1 | exact hc2 | exact hc3)
    sl_step
    iapply Hk
    isplitl [Harg2]
    · iexists _; isplitr; · ipureintro; exact harg2.read_unread _
      iexact Harg2
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexact Harg17
    isplitl [Harg18]
    · iexact Harg18
    isplitl [Harg11]
    · iexists _; iexact Harg11
    iexists _; iexact Harg12

end Cert.KernelIdeal.Body

end
-- ==== Proof.KI.RunP2.lean ====
import proofs.«138326_g49246095016332_cont_8to1_c_632_4_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body at a point of phase 2, on whole memrefs: the self-loop weight, the decoder's bias row and the three scratch buffers it reads at given contents, the decoder's staging buffer at anything; it runs to the continuation with what it read as it was and the output buffer with its pieces written. -/
noncomputable def runP2 (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
    (hc1 : ¬ k0_cond1 i = 1#1) (hc2 : ¬ k0_cond2 i = 1#1) (hc3 : k0_cond3 i = 1#1)
    (xla : Vec F S1x1 .f32) (x10 : Vec F S1x40 .f32) (s0 : Vec F S4096x4096 .bf16) (s3 : Vec F S4096x40 .bf16) (s4 : Vec F S4096x40 .f32) :
    { L11 : List (View.Piece (Elt F) S256x40 .f32) //
      ∀ (E : Set ℕ) (K : PUnit → sProp 𝕄),
        iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ d, owns (c : Thread nD τ) arg13 fullShare d)
            ∗ (iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ f, arg13.view.loc (c : Thread nD τ) ↦[arg13.view.set]{fullShare} arg13.view.writes (Elt F) f L11)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%farg2, %hfarg2, Harg2⟩, ⟨%farg10, %hfarg10, Harg10⟩, ⟨%farg14, %hfarg14, Harg14⟩, ⟨%farg17, %hfarg17, Harg17⟩, ⟨%farg18, %hfarg18, Harg18⟩, ⟨%darg13, %farg13, -, Harg13⟩, Hk⟩
    obtain rfl := harg2.eq_unread hfarg2
    obtain rfl := harg10.eq_unread hfarg10
    obtain rfl := harg14.eq_unread hfarg14
    obtain rfl := harg17.eq_unread hfarg17
    obtain rfl := harg18.eq_unread hfarg18
    sl_exec (disch := first | exact hc1 | exact hc2 | exact hc3)
    sl_step
    iapply Hk
    isplitl [Harg2]
    · iexists _; isplitr; · ipureintro; exact harg2.read_unread _
      iexact Harg2
    isplitl [Harg10]
    · iexists _; isplitr; · ipureintro; exact harg10.read_unread _
      iexact Harg10
    isplitl [Harg14]
    · iexists _; isplitr; · ipureintro; exact harg14.read_unread _
      iexact Harg14
    isplitl [Harg17]
    · iexists _; isplitr; · ipureintro; exact harg17.read_unread _
      iexact Harg17
    isplitl [Harg18]
    · iexists _; isplitr; · ipureintro; exact harg18.read_unread _
      iexact Harg18
    iexists _; iexact Harg13

end Cert.KernelIdeal.Body

end
-- ==== Proof.KI.Pieces.lean ====
import proofs.«138326_g49246095016332_cont_8to1_c_632_4_alg».proof.Proof.KI.RunP0
import proofs.«138326_g49246095016332_cont_8to1_c_632_4_alg».proof.Proof.KI.RunP1
import proofs.«138326_g49246095016332_cont_8to1_c_632_4_alg».proof.Proof.KI.RunP2
import Idealize.ShloMosaic.Lib.Pipeline.Value

set_option maxRecDepth 16384

/-!
The piece lists the three runs found, each as ONE plain piece: the rectangle of the point's row block (or the whole
staging block) and the body's payload of the contents the run was given — a load through a rectangle of a whole memref
at contents `X` reads `X` at the rectangle's indices, and through the whole-shape rectangle reads `X`.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

section P0
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : k0_cond1 i = 1#1) (hc2 : ¬ k0_cond2 i = 1#1) (hc3 : ¬ k0_cond3 i = 1#1)
  (xla : Vec F S1x1 .f32) (xadj : Vec F S256x4096 .f32) (xx : Vec F S256x128 .f32) (xw0 : Vec F S128x128 .f32) (s0 : Vec F S4096x4096 .bf16) (s1 : Vec F S4096x128 .bf16) (s2 : Vec F S4096x128 .f32)

theorem runP0_LS0 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).1
    = [⟨Rect.unit (k0_off1 i) S256x4096.size (k0_off1_inb i hc1), k0_pay4 xla xadj⟩] := by
  unfold runP0; dsimp only
  simp only [View.readAt_eq_ld, harg2.read_unread, harg3.read_unread, View.ld_unit_zero (S := S1x1) hz2, View.ld_unit_zero (S := S256x4096) hz2]
theorem runP0_LS1 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.1
    = [⟨Rect.unit (k0_off2 i) S256x128.size (k0_off2_inb i hc1), k0_pay5 xla xadj xx xw0⟩] := by
  unfold runP0; dsimp only
  simp only [View.readAt_eq_ld, harg2.read_unread, harg3.read_unread, harg4.read_unread, harg5.read_unread, View.ld_unit_zero (S := S1x1) hz2, View.ld_unit_zero (S := S256x4096) hz2, View.ld_unit_zero (S := S256x128) hz2, View.ld_unit_zero (S := S128x128) hz2]
theorem runP0_LS2 : (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.2.1
    = [⟨Rect.unit (k0_off2 i) S256x128.size (k0_off2_inb i hc1), k0_pay6 xla xadj⟩] := by
  unfold runP0; dsimp only
  simp only [View.readAt_eq_ld, harg2.read_unread, harg3.read_unread, View.ld_unit_zero (S := S1x1) hz2, View.ld_unit_zero (S := S256x4096) hz2]
include hc1 hc2 hc3 in
/-- The run with its pieces plain. -/
theorem runP0_spec (E : Set ℕ) (K : PUnit → sProp 𝕄) :
    iprop(owns (c : Thread nD τ) arg2 fullShare xla ∗ owns (c : Thread nD τ) arg3 fullShare xadj ∗ owns (c : Thread nD τ) arg4 fullShare xx ∗ owns (c : Thread nD τ) arg5 fullShare xw0 ∗ owns (c : Thread nD τ) arg14 fullShare s0 ∗ owns (c : Thread nD τ) arg15 fullShare s1 ∗ owns (c : Thread nD τ) arg16 fullShare s2
        ∗ (iprop(owns (c : Thread nD τ) arg2 fullShare xla ∗ owns (c : Thread nD τ) arg3 fullShare xadj ∗ owns (c : Thread nD τ) arg4 fullShare xx ∗ owns (c : Thread nD τ) arg5 fullShare xw0 ∗ (arg14.view.loc (c : Thread nD τ) ↦[arg14.view.set]{fullShare} arg14.view.writes (Elt F) (harg14.unread s0) [⟨Rect.unit (k0_off1 i) S256x4096.size (k0_off1_inb i hc1), k0_pay4 xla xadj⟩]) ∗ (arg15.view.loc (c : Thread nD τ) ↦[arg15.view.set]{fullShare} arg15.view.writes (Elt F) (harg15.unread s1) [⟨Rect.unit (k0_off2 i) S256x128.size (k0_off2_inb i hc1), k0_pay5 xla xadj xx xw0⟩]) ∗ (arg16.view.loc (c : Thread nD τ) ↦[arg16.view.set]{fullShare} arg16.view.writes (Elt F) (harg16.unread s2) [⟨Rect.unit (k0_off2 i) S256x128.size (k0_off2_inb i hc1), k0_pay6 xla xadj⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla xadj xx xw0 s0 s1 s2).2.2.2 E K
  simp only [runP0_LS0, runP0_LS1, runP0_LS2] at h
  exact h
end P0

section P1
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : ¬ k0_cond1 i = 1#1) (hc2 : k0_cond2 i = 1#1) (hc3 : ¬ k0_cond3 i = 1#1)
  (xla : Vec F S1x1 .f32) (x6 : Vec F S128x40 .f32) (x7 : Vec F S128x40 .f32) (x8 : Vec F S1x128 .f32) (x9 : Vec F S1x40 .f32) (s0 : Vec F S4096x4096 .bf16) (s1 : Vec F S4096x128 .bf16) (s2 : Vec F S4096x128 .f32) (s3 : Vec F S4096x40 .bf16) (s4 : Vec F S4096x40 .f32)

/-- The rows of the three phase-0 scratch buffers the point reads. -/
abbrev rd0 : Vec F S256x4096 .bf16 := View.ld s0 (Rect.unit (k0_off3 i) S256x4096.size (k0_off3_inb i hc2))
abbrev rd2 : Vec F S256x128 .f32 := View.ld s2 (Rect.unit (k0_off4 i) S256x128.size (k0_off4_inb i hc2))
abbrev rd1 : Vec F S256x128 .bf16 := View.ld s1 (Rect.unit (k0_off4 i) S256x128.size (k0_off4_inb i hc2))

theorem runP1_LS3 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).1
    = [⟨Rect.unit (k0_off5 i) S256x40.size (k0_off5_inb i hc2), k0_pay13 (k0_pay1 xla) (rd0 i hc2 s0) s1 (rd2 i hc2 s2) (rd1 i hc2 s1) x8 x6⟩] := by
  unfold runP1; dsimp only
  simp only [View.readAt_eq_ld, harg2.read_unread, harg6.read_unread, harg8.read_unread, harg14.read_unread, harg15.read_unread, harg16.read_unread, View.ld_unit_zero (S := S1x1) hz2, View.ld_unit_zero (S := S4096x128) hz2, View.ld_unit_zero (S := S1x128) hz2, View.ld_unit_zero (S := S128x40) hz2]
theorem runP1_LS4 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.1
    = [⟨Rect.unit (k0_off5 i) S256x40.size (k0_off5_inb i hc2), k0_pay7 xla (k0_pay11 (rd2 i hc2 s2)) (k0_pay12 (k0_pay1 xla) (rd0 i hc2 s0) s1 (rd2 i hc2 s2) (rd1 i hc2 s1) x8 x6)⟩] := by
  unfold runP1; dsimp only
  simp only [View.readAt_eq_ld, harg2.read_unread, harg6.read_unread, harg8.read_unread, harg14.read_unread, harg15.read_unread, harg16.read_unread, View.ld_unit_zero (S := S1x1) hz2, View.ld_unit_zero (S := S4096x128) hz2, View.ld_unit_zero (S := S1x128) hz2, View.ld_unit_zero (S := S128x40) hz2]
theorem runP1_L9 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.1
    = [⟨Rect.unit ![0, 0] S256x128.size inb_S256x128_S256x128_0_0, k0_pay9 (k0_pay1 xla) (rd0 i hc2 s0) s1 (rd2 i hc2 s2) (rd1 i hc2 s1) x8⟩] := by
  unfold runP1; dsimp only
  simp only [View.readAt_eq_ld, harg2.read_unread, harg8.read_unread, harg14.read_unread, harg15.read_unread, harg16.read_unread, View.ld_unit_zero (S := S1x1) hz2, View.ld_unit_zero (S := S4096x128) hz2, View.ld_unit_zero (S := S1x128) hz2]
theorem runP1_L10 : (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.2.1
    = [⟨Rect.unit ![0, 0] S256x40.size inb_S256x40_S256x40_0_0, k0_pay10 (k0_pay1 xla) (rd0 i hc2 s0) s1 (rd2 i hc2 s2) (rd1 i hc2 s1) x8 x7 x9⟩] := by
  unfold runP1; dsimp only
  simp only [View.readAt_eq_ld, harg2.read_unread, harg7.read_unread, harg8.read_unread, harg9.read_unread, harg14.read_unread, harg15.read_unread, harg16.read_unread, View.ld_unit_zero (S := S1x1) hz2, View.ld_unit_zero (S := S4096x128) hz2, View.ld_unit_zero (S := S1x128) hz2, View.ld_unit_zero (S := S128x40) hz2, View.ld_unit_zero (S := S1x40) hz2]
include hc1 hc2 hc3 in
/-- The run with its pieces plain. -/
theorem runP1_spec (E : Set ℕ) (K : PUnit → sProp 𝕄) :
    iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ owns (c : Thread nD τ) arg17 fullShare s3 ∗ owns (c : Thread nD τ) arg18 fullShare s4 ∗ (∃ d, owns (c : Thread nD τ) arg11 fullShare d) ∗ (∃ d, owns (c : Thread nD τ) arg12 fullShare d)
        ∗ (iprop(owns (c : Thread nD τ) arg2 fullShare xla ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare s0 ∗ owns (c : Thread nD τ) arg15 fullShare s1 ∗ owns (c : Thread nD τ) arg16 fullShare s2 ∗ (arg17.view.loc (c : Thread nD τ) ↦[arg17.view.set]{fullShare} arg17.view.writes (Elt F) (harg17.unread s3) [⟨Rect.unit (k0_off5 i) S256x40.size (k0_off5_inb i hc2), k0_pay13 (k0_pay1 xla) (rd0 i hc2 s0) s1 (rd2 i hc2 s2) (rd1 i hc2 s1) x8 x6⟩]) ∗ (arg18.view.loc (c : Thread nD τ) ↦[arg18.view.set]{fullShare} arg18.view.writes (Elt F) (harg18.unread s4) [⟨Rect.unit (k0_off5 i) S256x40.size (k0_off5_inb i hc2), k0_pay7 xla (k0_pay11 (rd2 i hc2 s2)) (k0_pay12 (k0_pay1 xla) (rd0 i hc2 s0) s1 (rd2 i hc2 s2) (rd1 i hc2 s1) x8 x6)⟩]) ∗ (∃ f, arg11.view.loc (c : Thread nD τ) ↦[arg11.view.set]{fullShare} arg11.view.writes (Elt F) f [⟨Rect.unit ![0, 0] S256x128.size inb_S256x128_S256x128_0_0, k0_pay9 (k0_pay1 xla) (rd0 i hc2 s0) s1 (rd2 i hc2 s2) (rd1 i hc2 s1) x8⟩]) ∗ (∃ f, arg12.view.loc (c : Thread nD τ) ↦[arg12.view.set]{fullShare} arg12.view.writes (Elt F) f [⟨Rect.unit ![0, 0] S256x40.size inb_S256x40_S256x40_0_0, k0_pay10 (k0_pay1 xla) (rd0 i hc2 s0) s1 (rd2 i hc2 s2) (rd1 i hc2 s1) x8 x7 x9⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x6 x7 x8 x9 s0 s1 s2 s3 s4).2.2.2.2 E K
  simp only [runP1_LS3, runP1_LS4, runP1_L9, runP1_L10] at h
  exact h
end P1

section P2
variable (c : Dev nD) (i : grid0.Coords) (arg2 : Memref sig .tc .vmem S1x1 .f32) (harg2 : arg2.IsWhole) (arg3 : Memref sig .tc .vmem S256x4096 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x40 .f32) (harg6 : arg6.IsWhole) (arg7 : Memref sig .tc .vmem S128x40 .f32) (harg7 : arg7.IsWhole) (arg8 : Memref sig .tc .vmem S1x128 .f32) (harg8 : arg8.IsWhole) (arg9 : Memref sig .tc .vmem S1x40 .f32) (harg9 : arg9.IsWhole) (arg10 : Memref sig .tc .vmem S1x40 .f32) (harg10 : arg10.IsWhole) (arg11 : Memref sig .tc .vmem S256x128 .f32) (harg11 : arg11.IsWhole) (arg12 : Memref sig .tc .vmem S256x40 .f32) (harg12 : arg12.IsWhole) (arg13 : Memref sig .tc .vmem S256x40 .f32) (harg13 : arg13.IsWhole) (arg14 : Memref sig .tc .vmem S4096x4096 .bf16) (harg14 : arg14.IsWhole) (arg15 : Memref sig .tc .vmem S4096x128 .bf16) (harg15 : arg15.IsWhole) (arg16 : Memref sig .tc .vmem S4096x128 .f32) (harg16 : arg16.IsWhole) (arg17 : Memref sig .tc .vmem S4096x40 .bf16) (harg17 : arg17.IsWhole) (arg18 : Memref sig .tc .vmem S4096x40 .f32) (harg18 : arg18.IsWhole)
  (hc1 : ¬ k0_cond1 i = 1#1) (hc2 : ¬ k0_cond2 i = 1#1) (hc3 : k0_cond3 i = 1#1)
  (xla : Vec F S1x1 .f32) (x10 : Vec F S1x40 .f32) (s0 : Vec F S4096x4096 .bf16) (s3 : Vec F S4096x40 .bf16) (s4 : Vec F S4096x40 .f32)

theorem runP2_L11 : (runP2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x10 s0 s3 s4).1
    = [⟨Rect.unit ![0, 0] S256x40.size inb_S256x40_S256x40_0_0, k0_pay8 (View.ld s0 (Rect.unit (k0_off6 i) S256x4096.size (k0_off6_inb i hc3))) s3 (View.ld s4 (Rect.unit (k0_off7 i) S256x40.size (k0_off7_inb i hc3))) x10⟩] := by
  unfold runP2; dsimp only
  simp only [View.readAt_eq_ld, harg10.read_unread, harg14.read_unread, harg17.read_unread, harg18.read_unread, View.ld_unit_zero (S := S4096x40) hz2, View.ld_unit_zero (S := S1x40) hz2]
include hc1 hc2 hc3 in
/-- The run with its pieces plain. -/
theorem runP2_spec (E : Set ℕ) (K : PUnit → sProp 𝕄) :
    iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ d, owns (c : Thread nD τ) arg13 fullShare d)
        ∗ (iprop(owns (c : Thread nD τ) arg2 fullShare xla ∗ owns (c : Thread nD τ) arg10 fullShare x10 ∗ owns (c : Thread nD τ) arg14 fullShare s0 ∗ owns (c : Thread nD τ) arg17 fullShare s3 ∗ owns (c : Thread nD τ) arg18 fullShare s4 ∗ (∃ f, arg13.view.loc (c : Thread nD τ) ↦[arg13.view.set]{fullShare} arg13.view.writes (Elt F) f [⟨Rect.unit ![0, 0] S256x40.size inb_S256x40_S256x40_0_0, k0_pay8 (View.ld s0 (Rect.unit (k0_off6 i) S256x4096.size (k0_off6_inb i hc3))) s3 (View.ld s4 (Rect.unit (k0_off7 i) S256x40.size (k0_off7_inb i hc3))) x10⟩])) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h := (runP2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 xla x10 s0 s3 s4).2 E K
  simp only [runP2_L11] at h
  exact h
end P2

end Cert.KernelIdeal.Body

end
-- ==== Proof.KI.Tracked.lean ====
import proofs.«138326_g49246095016332_cont_8to1_c_632_4_alg».proof.Proof.KI.Shared
import Idealize.ShloMosaic.Lib.Pipeline.Value
import Idealize.ShloMosaic.Lib.ValueIdx

set_option maxRecDepth 16384

/-!
What the five scratch buffers and the three output blocks hold, as functions of the arrays the region finds.

Phase 0 at point `t < 16` stores, into rows `256·t … 256·t + 255` of three scratch buffers, the row-scaled adjacency
block, the row-scaled feature block and the inverse square-root degrees of that row block: the whole buffers after phase 0
are the functions `AB`, `ZB`, `DS` (row `r` is row `r % 256` of the block stored at point `r / 256`). Phase 1 at point
`16 + b` reads rows `256·b …` of them (and all of `ZB`), leaves the encoder's and the node head's blocks in their staging
buffers, and stores the row-scaled decoder input and the decoder's diagonal term into rows `256·b …` of two more scratch
buffers (`ZWB`, `DG`). Phase 2 at point `32 + b` reads those and leaves the decoder's block.
`Known n` says contents of the five buffers agree with these functions on the rows the first `n` points have stored; one
store of a row block extends the agreement by that block (`agree_step`).
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

/-- One store through rectangle `r`, over contents that agree with `G` wherever `P` holds, leaves contents that agree with
    `G` wherever `P` holds or the rectangle covers — given that the payload is `G` on the rectangle. -/
theorem agree_step {sig' : RefSig} {κ : Kind} {sp : Space} {S : Shape} {e : EltTy} {Val : EltTy → Type}
    (v : View sig' κ sp S e) (f : v.ty.Contents Val) (r : Rect S) (w : r.shape.Idx → Val e)
    (G : S.Idx → Val e) (P : S.Idx → Prop) (hold : ∀ y, P y → v.read Val f y = G y) (hnew : ∀ x, w x = G (r.emb x))
    (y : S.Idx) (hy : P y ∨ y ∈ r.set) : v.read Val (v.writes Val f [⟨r, w⟩]) y = G y := by
  by_cases hm : y ∈ r.set
  · obtain ⟨x, rfl⟩ : ∃ x, r.emb x = y := r.exists_idx_of_mem hm
    rw [View.read_writes_cons_emb]; exact hnew x
  · rw [View.read_writes_apply_of_forall_not_mem v f y _ (fun p hp => by rw [List.mem_singleton] at hp; subst hp; exact hm)]
    exact hold y (hy.resolve_right hm)

/-- A rectangle of 256 rows from row `256·(t % 16)` and all `w` columns lies inside 4096 rows. -/
theorem inb_rows (off : Fin 2 → ℕ) (t w : ℕ) (hoff : off = ![256 * (t % 16), 0]) :
    ∀ a, off a + (![256, w] : Fin 2 → ℕ) a ≤ (![4096, w] : Fin 2 → ℕ) a := by
  subst hoff; intro a
  have := Nat.mod_lt t (show 16 > 0 by decide)
  fin_cases a
  · show 256 * (t % 16) + 256 ≤ 4096; omega
  · show 0 + w ≤ w; omega

/-- Point number `n` of the 48. -/
def pt (n : ℕ) (h : n < 48) : Fin cfg0.N := ⟨n, lt_of_lt_of_eq h N_0.symm⟩
@[simp] theorem pt_val (n : ℕ) (h : n < 48) : (pt n h).val = n := rfl
theorem pt_eq (t : Fin cfg0.N) (n : ℕ) (h : n < 48) (e : n = t.val) : pt n h = t := Fin.ext e

variable (m : (ℓ : Loc nD τ sig) → Buf (Elt F) ℓ) (c : Dev nD)

/-! ## The nine input blocks at a point, by name -/

def xLa (t : Fin cfg0.N) : Vec F S1x1 .f32 := iblk m c 0 t
def xAdj (t : Fin cfg0.N) : Vec F S256x4096 .f32 := iblk m c 1 t
def xX (t : Fin cfg0.N) : Vec F S256x128 .f32 := iblk m c 2 t
def xW0 (t : Fin cfg0.N) : Vec F S128x128 .f32 := iblk m c 3 t
def xWd (t : Fin cfg0.N) : Vec F S128x40 .f32 := iblk m c 4 t
def xMw (t : Fin cfg0.N) : Vec F S128x40 .f32 := iblk m c 5 t
def xB0 (t : Fin cfg0.N) : Vec F S1x128 .f32 := iblk m c 6 t
def xMb (t : Fin cfg0.N) : Vec F S1x40 .f32 := iblk m c 7 t
def xBd (t : Fin cfg0.N) : Vec F S1x40 .f32 := iblk m c 8 t

/-! ## Phase 0: the three scratch buffers as whole functions -/

/-- The row-scaled adjacency: row `r` is row `r % 256` of the block point `r / 256` stores. -/
def AB : Vec F S4096x4096 .bf16 := fun y =>
  k0_pay4 (xLa m c (pt ((y 0).val / 256) (by have h : (y 0).val < 4096 := (y 0).isLt; omega)))
    (xAdj m c (pt ((y 0).val / 256) (by have h : (y 0).val < 4096 := (y 0).isLt; omega)))
    (ix2 (⟨(y 0).val % 256, Nat.mod_lt _ (by decide)⟩ : Fin 256) (⟨(y 1).val, (y 1).isLt⟩ : Fin 4096))
/-- The row-scaled features. -/
def ZB : Vec F S4096x128 .bf16 := fun y =>
  k0_pay5 (xLa m c (pt ((y 0).val / 256) (by have h : (y 0).val < 4096 := (y 0).isLt; omega)))
    (xAdj m c (pt ((y 0).val / 256) (by have h : (y 0).val < 4096 := (y 0).isLt; omega)))
    (xX m c (pt ((y 0).val / 256) (by have h : (y 0).val < 4096 := (y 0).isLt; omega)))
    (xW0 m c (pt ((y 0).val / 256) (by have h : (y 0).val < 4096 := (y 0).isLt; omega)))
    (ix2 (⟨(y 0).val % 256, Nat.mod_lt _ (by decide)⟩ : Fin 256) (⟨(y 1).val, (y 1).isLt⟩ : Fin 128))
/-- The inverse square-root degrees, one row of 128 equal entries per node. -/
def DS : Vec F S4096x128 .f32 := fun y =>
  k0_pay6 (xLa m c (pt ((y 0).val / 256) (by have h : (y 0).val < 4096 := (y 0).isLt; omega)))
    (xAdj m c (pt ((y 0).val / 256) (by have h : (y 0).val < 4096 := (y 0).isLt; omega)))
    (ix2 (⟨(y 0).val % 256, Nat.mod_lt _ (by decide)⟩ : Fin 256) (⟨(y 1).val, (y 1).isLt⟩ : Fin 128))

/-! ## Phase 1: what a point reads of them, and what it leaves -/

def rd0At (t : Fin cfg0.N) : Vec F S256x4096 .bf16 :=
  View.ld (AB m c) (Rect.unit (k0_off3 (grid0.coords t)) S256x4096.size (inb_rows _ t.val 4096 (off3_eq t)))
def rd2At (t : Fin cfg0.N) : Vec F S256x128 .f32 :=
  View.ld (DS m c) (Rect.unit (k0_off4 (grid0.coords t)) S256x128.size (inb_rows _ t.val 128 (off4_eq t)))
def rd1At (t : Fin cfg0.N) : Vec F S256x128 .bf16 :=
  View.ld (ZB m c) (Rect.unit (k0_off4 (grid0.coords t)) S256x128.size (inb_rows _ t.val 128 (off4_eq t)))
/-- The encoder's block. -/
def embAt (t : Fin cfg0.N) : Vec F S256x128 .f32 :=
  k0_pay9 (k0_pay1 (xLa m c t)) (rd0At m c t) (ZB m c) (rd2At m c t) (rd1At m c t) (xB0 m c t)
/-- The node head's block. -/
def lnAt (t : Fin cfg0.N) : Vec F S256x40 .f32 :=
  k0_pay10 (k0_pay1 (xLa m c t)) (rd0At m c t) (ZB m c) (rd2At m c t) (rd1At m c t) (xB0 m c t) (xMw m c t) (xMb m c t)
/-- The row-scaled decoder input of the point's rows. -/
def zwbAt (t : Fin cfg0.N) : Vec F S256x40 .bf16 :=
  k0_pay13 (k0_pay1 (xLa m c t)) (rd0At m c t) (ZB m c) (rd2At m c t) (rd1At m c t) (xB0 m c t) (xWd m c t)
/-- The decoder's diagonal term of the point's rows. -/
def dgAt (t : Fin cfg0.N) : Vec F S256x40 .f32 :=
  k0_pay7 (xLa m c t) (k0_pay11 (rd2At m c t)) (k0_pay12 (k0_pay1 (xLa m c t)) (rd0At m c t) (ZB m c) (rd2At m c t) (rd1At m c t) (xB0 m c t) (xWd m c t))
/-- The two scratch buffers phase 1 fills, whole: row `r` is row `r % 256` of what point `16 + r / 256` stores. -/
def ZWB : Vec F S4096x40 .bf16 := fun y =>
  zwbAt m c (pt (16 + (y 0).val / 256) (by have h : (y 0).val < 4096 := (y 0).isLt; omega))
    (ix2 (⟨(y 0).val % 256, Nat.mod_lt _ (by decide)⟩ : Fin 256) (⟨(y 1).val, (y 1).isLt⟩ : Fin 40))
def DG : Vec F S4096x40 .f32 := fun y =>
  dgAt m c (pt (16 + (y 0).val / 256) (by have h : (y 0).val < 4096 := (y 0).isLt; omega))
    (ix2 (⟨(y 0).val % 256, Nat.mod_lt _ (by decide)⟩ : Fin 256) (⟨(y 1).val, (y 1).isLt⟩ : Fin 40))

/-! ## Phase 2: the decoder's block -/

def lgAt (t : Fin cfg0.N) : Vec F S256x40 .f32 :=
  k0_pay8 (View.ld (AB m c) (Rect.unit (k0_off6 (grid0.coords t)) S256x4096.size (inb_rows _ t.val 4096 (off6_eq t)))) (ZWB m c)
    (View.ld (DG m c) (Rect.unit (k0_off7 (grid0.coords t)) S256x40.size (inb_rows _ t.val 40 (off7_eq t)))) (xBd m c t)

/-! ## What the staging buffers of the three outputs hold after each point -/

/-- A point of phase 1 itself, a later point as the last point of phase 1 (the block stays in its buffer to the end). -/
def clamp31 (t : Fin cfg0.N) : Fin cfg0.N := if t.val ≤ 31 then t else pt 31 (by decide)
def outH (t : Fin cfg0.N) : Vec F S256x128 .f32 := embAt m c (clamp31 t)
def outLn (t : Fin cfg0.N) : Vec F S256x40 .f32 := lnAt m c (clamp31 t)
def outLg (t : Fin cfg0.N) : Vec F S256x40 .f32 := lgAt m c t

/-! ## Agreement on the rows stored so far -/

/-- After `n` points: the three phase-0 buffers agree with `AB`, `ZB`, `DS` on rows below `256·n`, the two phase-1 buffers
    with `ZWB`, `DG` on rows below `256·(n - 16)`. -/
def Known (n : ℕ) (d0 : Vec F S4096x4096 .bf16) (d1 : Vec F S4096x128 .bf16) (d2 : Vec F S4096x128 .f32)
    (d3 : Vec F S4096x40 .bf16) (d4 : Vec F S4096x40 .f32) : Prop :=
  (∀ y : S4096x4096.Idx, (y 0).val < 256 * n → d0 y = AB m c y) ∧ (∀ y : S4096x128.Idx, (y 0).val < 256 * n → d1 y = ZB m c y)
  ∧ (∀ y : S4096x128.Idx, (y 0).val < 256 * n → d2 y = DS m c y)
  ∧ (∀ y : S4096x40.Idx, (y 0).val + 4096 < 256 * n → d3 y = ZWB m c y) ∧ (∀ y : S4096x40.Idx, (y 0).val + 4096 < 256 * n → d4 y = DG m c y)

theorem known_zero (d0 d1 d2 d3 d4) : Known m c 0 d0 d1 d2 d3 d4 :=
  ⟨fun _ h => absurd h (by omega), fun _ h => absurd h (by omega), fun _ h => absurd h (by omega), fun _ h => absurd h (by omega), fun _ h => absurd h (by omega)⟩

end Cert.KernelIdeal.Body

end
-- ==== Proof.KI.Agree.lean ====
import proofs.«138326_g49246095016332_cont_8to1_c_632_4_alg».proof.Proof.KI.Tracked

set_option maxRecDepth 16384

/-!
The agreement steps: how the rows on which the five scratch buffers are known grow from one grid point to the next, and
what a point reads of them.

Point `t` touches the 256 rows from row `256·(t % 16)` of each buffer. A row `ρ` of that block is row `ρ % 256` of the
block stored at point `ρ / 256` (phase 0), or at point `16 + ρ / 256` (phase 1): with `ρ = 256·(t % 16) + x` and
`x < 256` the quotient is `t % 16` and the remainder is `x`, so a stored block is the whole function on its rows. The
rows known after `n` points are those below `256·n` (phase 0's three buffers) and below `256·(n − 16)` (phase 1's
two): a store extends them by one block, a point of a later phase finds all 4096 rows of an earlier phase known.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

/-! ## A block of 256 rows, all columns, of an array of 4096 rows -/

section Rows
variable {w : ℕ} (off : Fin 2 → ℕ)
  (inb : ∀ a, off a + (![256, w] : Fin 2 → ℕ) a ≤ (⟨2, ![4096, w]⟩ : Shape).size a)

/-- The row of the block's index `x` in the array. -/
theorem unit_idx0 (x : (Rect.unit (s := ⟨2, ![4096, w]⟩) off ![256, w] inb).shape.Idx) :
    (((Rect.unit (s := ⟨2, ![4096, w]⟩) off ![256, w] inb).idx x) 0).val = off 0 + (x 0).val := by
  show off 0 + 1 * (x 0).val = _
  omega

/-- Its column. -/
theorem unit_idx1 (x : (Rect.unit (s := ⟨2, ![4096, w]⟩) off ![256, w] inb).shape.Idx) :
    (((Rect.unit (s := ⟨2, ![4096, w]⟩) off ![256, w] inb).idx x) 1).val = off 1 + (x 1).val := by
  show off 1 + 1 * (x 1).val = _
  omega

/-- The block from row `256·b` covers the rows `256·b … 256·b + 255`. -/
theorem mem_unit_rows (b : ℕ) (hoff : off = ![256 * b, 0]) (y : (⟨2, ![4096, w]⟩ : Shape).Idx)
    (h : 256 * b ≤ (y 0).val ∧ (y 0).val < 256 * b + 256) :
    y ∈ (Rect.unit (s := ⟨2, ![4096, w]⟩) off ![256, w] inb).set := by
  subst hoff
  rw [Rect.mem_set_unit]
  intro a
  have h1 : (y 1).val < w := (y 1).isLt
  match a with
  | ⟨0, _⟩ => exact ⟨h.1, h.2⟩
  | ⟨1, _⟩ => exact ⟨Nat.zero_le _, by show (y 1).val < 0 + w; omega⟩

end Rows

variable (m : (ℓ : Loc nD τ sig) → Buf (Elt F) ℓ) (c : Dev nD)

/-! ## A stored block is the whole function on its rows -/

/-- An index of the array whose row is `256·t + x₀` and column `x₁` has block `t` and index `x` in it. -/
theorem blk_ix {w : ℕ} (y : (⟨2, ![4096, w]⟩ : Shape).Idx) (x : (⟨2, ![256, w]⟩ : Shape).Idx) (b : ℕ)
    (h0 : (y 0).val = 256 * b + (x 0).val) (h1 : (y 1).val = (x 1).val) (p0 : (y 0).val % 256 < 256) (p1 : (y 1).val < w) :
    ix2 (⟨(y 0).val % 256, p0⟩ : Fin 256) (⟨(y 1).val, p1⟩ : Fin w) = x := by
  have hx : (x 0).val < 256 := (x 0).isLt
  funext a
  match a with
  | ⟨0, _⟩ => exact Fin.ext (by show (y 0).val % 256 = (x 0).val; omega)
  | ⟨1, _⟩ => exact Fin.ext h1

theorem AB_blk (t : Fin cfg0.N) (ht : t.val < 16) (y : S4096x4096.Idx) (x : S256x4096.Idx)
    (h0 : (y 0).val = 256 * t.val + (x 0).val) (h1 : (y 1).val = (x 1).val) :
    AB m c y = k0_pay4 (xLa m c t) (xAdj m c t) x := by
  have hx : (x 0).val < 256 := (x 0).isLt
  have hp : ∀ h, pt ((y 0).val / 256) h = t := fun h => pt_eq t _ h (by omega)
  unfold AB
  simp only [hp]
  exact congrArg (k0_pay4 (xLa m c t) (xAdj m c t)) (blk_ix y x t.val h0 h1 _ _)

theorem ZB_blk (t : Fin cfg0.N) (ht : t.val < 16) (y : S4096x128.Idx) (x : S256x128.Idx)
    (h0 : (y 0).val = 256 * t.val + (x 0).val) (h1 : (y 1).val = (x 1).val) :
    ZB m c y = k0_pay5 (xLa m c t) (xAdj m c t) (xX m c t) (xW0 m c t) x := by
  have hx : (x 0).val < 256 := (x 0).isLt
  have hp : ∀ h, pt ((y 0).val / 256) h = t := fun h => pt_eq t _ h (by omega)
  unfold ZB
  simp only [hp]
  exact congrArg (k0_pay5 (xLa m c t) (xAdj m c t) (xX m c t) (xW0 m c t)) (blk_ix y x t.val h0 h1 _ _)

theorem DS_blk (t : Fin cfg0.N) (ht : t.val < 16) (y : S4096x128.Idx) (x : S256x128.Idx)
    (h0 : (y 0).val = 256 * t.val + (x 0).val) (h1 : (y 1).val = (x 1).val) :
    DS m c y = k0_pay6 (xLa m c t) (xAdj m c t) x := by
  have hx : (x 0).val < 256 := (x 0).isLt
  have hp : ∀ h, pt ((y 0).val / 256) h = t := fun h => pt_eq t _ h (by omega)
  unfold DS
  simp only [hp]
  exact congrArg (k0_pay6 (xLa m c t) (xAdj m c t)) (blk_ix y x t.val h0 h1 _ _)

theorem ZWB_blk (t : Fin cfg0.N) (ht : 16 ≤ t.val ∧ t.val < 32) (y : S4096x40.Idx) (x : S256x40.Idx)
    (h0 : (y 0).val = 256 * (t.val - 16) + (x 0).val) (h1 : (y 1).val = (x 1).val) :
    ZWB m c y = zwbAt m c t x := by
  have hx : (x 0).val < 256 := (x 0).isLt
  have hp : ∀ h, pt (16 + (y 0).val / 256) h = t := fun h => pt_eq t _ h (by omega)
  unfold ZWB
  simp only [hp]
  exact congrArg (zwbAt m c t) (blk_ix y x (t.val - 16) h0 h1 _ _)

theorem DG_blk (t : Fin cfg0.N) (ht : 16 ≤ t.val ∧ t.val < 32) (y : S4096x40.Idx) (x : S256x40.Idx)
    (h0 : (y 0).val = 256 * (t.val - 16) + (x 0).val) (h1 : (y 1).val = (x 1).val) :
    DG m c y = dgAt m c t x := by
  have hx : (x 0).val < 256 := (x 0).isLt
  have hp : ∀ h, pt (16 + (y 0).val / 256) h = t := fun h => pt_eq t _ h (by omega)
  unfold DG
  simp only [hp]
  exact congrArg (dgAt m c t) (blk_ix y x (t.val - 16) h0 h1 _ _)

/-! ## The same block through the embedding a store uses -/

section RowsEmb
variable {w : ℕ} (off : Fin 2 → ℕ)
  (inb : ∀ a, off a + (![256, w] : Fin 2 → ℕ) a ≤ (⟨2, ![4096, w]⟩ : Shape).size a)

theorem unit_emb0 (x : (Rect.unit (s := ⟨2, ![4096, w]⟩) off ![256, w] inb).shape.Idx) :
    (((Rect.unit (s := ⟨2, ![4096, w]⟩) off ![256, w] inb).emb x) 0).val = off 0 + (x 0).val :=
  unit_idx0 off inb x

theorem unit_emb1 (x : (Rect.unit (s := ⟨2, ![4096, w]⟩) off ![256, w] inb).shape.Idx) :
    (((Rect.unit (s := ⟨2, ![4096, w]⟩) off ![256, w] inb).emb x) 1).val = off 1 + (x 1).val :=
  unit_idx1 off inb x

end RowsEmb

/-! ## What a point of phase 1 reads -/

theorem rd0_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d0 (Rect.unit (k0_off3 (grid0.coords t)) S256x4096.size (k0_off3_inb _ hc2)) = rd0At m c t := by
  unfold rd0At
  funext x
  have hx : (x 0).val < 256 := (x 0).isLt
  have hm := Nat.mod_lt t.val (show 16 > 0 by decide)
  have ho : k0_off3 (grid0.coords t) 0 = 256 * (t.val % 16) := by rw [off3_eq t]; rfl
  exact hK.1 _ ((unit_idx0 (w := 4096) (k0_off3 (grid0.coords t)) (k0_off3_inb _ hc2) x).trans_lt (by omega))

theorem rd2_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d2 (Rect.unit (k0_off4 (grid0.coords t)) S256x128.size (k0_off4_inb _ hc2)) = rd2At m c t := by
  unfold rd2At
  funext x
  have hx : (x 0).val < 256 := (x 0).isLt
  have hm := Nat.mod_lt t.val (show 16 > 0 by decide)
  have ho : k0_off4 (grid0.coords t) 0 = 256 * (t.val % 16) := by rw [off4_eq t]; rfl
  exact hK.2.2.1 _ ((unit_idx0 (w := 128) (k0_off4 (grid0.coords t)) (k0_off4_inb _ hc2) x).trans_lt (by omega))

theorem rd1_of_known (t : Fin cfg0.N) (ht : 16 ≤ t.val) (hc2 : k0_cond2 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d1 (Rect.unit (k0_off4 (grid0.coords t)) S256x128.size (k0_off4_inb _ hc2)) = rd1At m c t := by
  unfold rd1At
  funext x
  have hx : (x 0).val < 256 := (x 0).isLt
  have hm := Nat.mod_lt t.val (show 16 > 0 by decide)
  have ho : k0_off4 (grid0.coords t) 0 = 256 * (t.val % 16) := by rw [off4_eq t]; rfl
  exact hK.2.1 _ ((unit_idx0 (w := 128) (k0_off4 (grid0.coords t)) (k0_off4_inb _ hc2) x).trans_lt (by omega))

theorem zb_of_known (t : Fin cfg0.N) (ht : 16 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) : d1 = ZB m c := by
  funext y
  have hy : (y 0).val < 4096 := (y 0).isLt
  exact hK.2.1 y (by omega)

/-! ## What a point of phase 2 reads -/

theorem rd0_of_known2 (t : Fin cfg0.N) (ht : 32 ≤ t.val) (hc3 : k0_cond3 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d0 (Rect.unit (k0_off6 (grid0.coords t)) S256x4096.size (k0_off6_inb _ hc3))
      = View.ld (AB m c) (Rect.unit (k0_off6 (grid0.coords t)) S256x4096.size (inb_rows _ t.val 4096 (off6_eq t))) := by
  funext x
  have hx : (x 0).val < 256 := (x 0).isLt
  have hm := Nat.mod_lt t.val (show 16 > 0 by decide)
  have ho : k0_off6 (grid0.coords t) 0 = 256 * (t.val % 16) := by rw [off6_eq t]; rfl
  exact hK.1 _ ((unit_idx0 (w := 4096) (k0_off6 (grid0.coords t)) (k0_off6_inb _ hc3) x).trans_lt (by omega))

theorem rd4_of_known2 (t : Fin cfg0.N) (ht : 32 ≤ t.val) (hc3 : k0_cond3 (grid0.coords t) = 1#1)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    View.ld d4 (Rect.unit (k0_off7 (grid0.coords t)) S256x40.size (k0_off7_inb _ hc3))
      = View.ld (DG m c) (Rect.unit (k0_off7 (grid0.coords t)) S256x40.size (inb_rows _ t.val 40 (off7_eq t))) := by
  funext x
  have hx : (x 0).val < 256 := (x 0).isLt
  have hm := Nat.mod_lt t.val (show 16 > 0 by decide)
  have ho : k0_off7 (grid0.coords t) 0 = 256 * (t.val % 16) := by rw [off7_eq t]; rfl
  refine hK.2.2.2.2 _ ?_
  have hr := unit_idx0 (w := 40) (k0_off7 (grid0.coords t)) (k0_off7_inb _ hc3) x
  exact lt_of_eq_of_lt (congrArg (· + 4096) hr) (by omega)

theorem zwb_of_known2 (t : Fin cfg0.N) (ht : 32 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) : d3 = ZWB m c := by
  funext y
  have hy : (y 0).val < 4096 := (y 0).isLt
  exact hK.2.2.2.1 y (by omega)

/-! ## One point extends the known rows -/

theorem known_step0 {sg : RefSig} {κ : Kind} {sp : Space} (t : Fin cfg0.N) (ht : t.val < 16) (hc1 : k0_cond1 (grid0.coords t) = 1#1)
    (v0 : View sg κ sp S4096x4096 .bf16) (f0 : v0.ty.Contents (Elt F)) (v1 : View sg κ sp S4096x128 .bf16) (f1 : v1.ty.Contents (Elt F)) (v2 : View sg κ sp S4096x128 .f32) (f2 : v2.ty.Contents (Elt F))
    (d3 : Vec F S4096x40 .bf16) (d4 : Vec F S4096x40 .f32)
    (hK : Known m c t.val (v0.read (Elt F) f0) (v1.read (Elt F) f1) (v2.read (Elt F) f2) d3 d4) :
    Known m c (t.val + 1)
      (v0.read (Elt F) (v0.writes (Elt F) f0 [⟨Rect.unit (k0_off1 (grid0.coords t)) S256x4096.size (k0_off1_inb _ hc1), k0_pay4 (xLa m c t) (xAdj m c t)⟩]))
      (v1.read (Elt F) (v1.writes (Elt F) f1 [⟨Rect.unit (k0_off2 (grid0.coords t)) S256x128.size (k0_off2_inb _ hc1), k0_pay5 (xLa m c t) (xAdj m c t) (xX m c t) (xW0 m c t)⟩]))
      (v2.read (Elt F) (v2.writes (Elt F) f2 [⟨Rect.unit (k0_off2 (grid0.coords t)) S256x128.size (k0_off2_inb _ hc1), k0_pay6 (xLa m c t) (xAdj m c t)⟩]))
      d3 d4 := by
  have hm : t.val % 16 = t.val := Nat.mod_eq_of_lt ht
  have ho1 := off1_eq t
  have ho2 := off2_eq t
  have e10 : k0_off1 (grid0.coords t) 0 = 256 * (t.val % 16) := by rw [ho1]; rfl
  have e11 : k0_off1 (grid0.coords t) 1 = 0 := by rw [ho1]; rfl
  have e20 : k0_off2 (grid0.coords t) 0 = 256 * (t.val % 16) := by rw [ho2]; rfl
  have e21 : k0_off2 (grid0.coords t) 1 = 0 := by rw [ho2]; rfl
  obtain ⟨k0, k1, k2, _, _⟩ := hK
  refine ⟨fun y hy => ?_, fun y hy => ?_, fun y hy => ?_, fun y hy => absurd hy (by omega), fun y hy => absurd hy (by omega)⟩
  · refine agree_step v0 f0 _ _ (AB m c) (fun y => (y 0).val < 256 * t.val) k0 (fun x => ?_) y ?_
    · exact (AB_blk m c t ht _ x
        ((unit_emb0 (w := 4096) (k0_off1 (grid0.coords t)) (k0_off1_inb _ hc1) x).trans (by omega))
        ((unit_emb1 (w := 4096) (k0_off1 (grid0.coords t)) (k0_off1_inb _ hc1) x).trans (by omega))).symm
    · by_cases hlt : (y 0).val < 256 * t.val
      · exact Or.inl hlt
      · exact Or.inr (mem_unit_rows (w := 4096) _ _ t.val (by rw [ho1, hm]) y ⟨by omega, by omega⟩)
  · refine agree_step v1 f1 _ _ (ZB m c) (fun y => (y 0).val < 256 * t.val) k1 (fun x => ?_) y ?_
    · exact (ZB_blk m c t ht _ x
        ((unit_emb0 (w := 128) (k0_off2 (grid0.coords t)) (k0_off2_inb _ hc1) x).trans (by omega))
        ((unit_emb1 (w := 128) (k0_off2 (grid0.coords t)) (k0_off2_inb _ hc1) x).trans (by omega))).symm
    · by_cases hlt : (y 0).val < 256 * t.val
      · exact Or.inl hlt
      · exact Or.inr (mem_unit_rows (w := 128) _ _ t.val (by rw [ho2, hm]) y ⟨by omega, by omega⟩)
  · refine agree_step v2 f2 _ _ (DS m c) (fun y => (y 0).val < 256 * t.val) k2 (fun x => ?_) y ?_
    · exact (DS_blk m c t ht _ x
        ((unit_emb0 (w := 128) (k0_off2 (grid0.coords t)) (k0_off2_inb _ hc1) x).trans (by omega))
        ((unit_emb1 (w := 128) (k0_off2 (grid0.coords t)) (k0_off2_inb _ hc1) x).trans (by omega))).symm
    · by_cases hlt : (y 0).val < 256 * t.val
      · exact Or.inl hlt
      · exact Or.inr (mem_unit_rows (w := 128) _ _ t.val (by rw [ho2, hm]) y ⟨by omega, by omega⟩)

theorem known_step1 {sg : RefSig} {κ : Kind} {sp : Space} (t : Fin cfg0.N) (ht : 16 ≤ t.val ∧ t.val < 32) (hc2 : k0_cond2 (grid0.coords t) = 1#1)
    (d0 : Vec F S4096x4096 .bf16) (d1 : Vec F S4096x128 .bf16) (d2 : Vec F S4096x128 .f32)
    (v3 : View sg κ sp S4096x40 .bf16) (f3 : v3.ty.Contents (Elt F)) (v4 : View sg κ sp S4096x40 .f32) (f4 : v4.ty.Contents (Elt F))
    (hK : Known m c t.val d0 d1 d2 (v3.read (Elt F) f3) (v4.read (Elt F) f4)) :
    Known m c (t.val + 1) d0 d1 d2
      (v3.read (Elt F) (v3.writes (Elt F) f3 [⟨Rect.unit (k0_off5 (grid0.coords t)) S256x40.size (k0_off5_inb _ hc2), zwbAt m c t⟩]))
      (v4.read (Elt F) (v4.writes (Elt F) f4 [⟨Rect.unit (k0_off5 (grid0.coords t)) S256x40.size (k0_off5_inb _ hc2), dgAt m c t⟩])) := by
  have hm : t.val % 16 = t.val - 16 := by omega
  have ho5 := off5_eq t
  have e50 : k0_off5 (grid0.coords t) 0 = 256 * (t.val % 16) := by rw [ho5]; rfl
  have e51 : k0_off5 (grid0.coords t) 1 = 0 := by rw [ho5]; rfl
  obtain ⟨k0, k1, k2, k3, k4⟩ := hK
  refine ⟨fun y _ => k0 y ?_, fun y _ => k1 y ?_, fun y _ => k2 y ?_, fun y hy => ?_, fun y hy => ?_⟩
  · have h : (y 0).val < 4096 := (y 0).isLt
    omega
  · have h : (y 0).val < 4096 := (y 0).isLt
    omega
  · have h : (y 0).val < 4096 := (y 0).isLt
    omega
  · refine agree_step v3 f3 _ _ (ZWB m c) (fun y => (y 0).val + 4096 < 256 * t.val) k3 (fun x => ?_) y ?_
    · exact (ZWB_blk m c t ht _ x
        ((unit_emb0 (w := 40) (k0_off5 (grid0.coords t)) (k0_off5_inb _ hc2) x).trans (by omega))
        ((unit_emb1 (w := 40) (k0_off5 (grid0.coords t)) (k0_off5_inb _ hc2) x).trans (by omega))).symm
    · by_cases hlt : (y 0).val + 4096 < 256 * t.val
      · exact Or.inl hlt
      · exact Or.inr (mem_unit_rows (w := 40) _ _ (t.val - 16) (by rw [ho5, hm]) y ⟨by omega, by omega⟩)
  · refine agree_step v4 f4 _ _ (DG m c) (fun y => (y 0).val + 4096 < 256 * t.val) k4 (fun x => ?_) y ?_
    · exact (DG_blk m c t ht _ x
        ((unit_emb0 (w := 40) (k0_off5 (grid0.coords t)) (k0_off5_inb _ hc2) x).trans (by omega))
        ((unit_emb1 (w := 40) (k0_off5 (grid0.coords t)) (k0_off5_inb _ hc2) x).trans (by omega))).symm
    · by_cases hlt : (y 0).val + 4096 < 256 * t.val
      · exact Or.inl hlt
      · exact Or.inr (mem_unit_rows (w := 40) _ _ (t.val - 16) (by rw [ho5, hm]) y ⟨by omega, by omega⟩)

theorem known_step2 (t : Fin cfg0.N) (ht : 32 ≤ t.val)
    (d0 : Vec F S4096x4096 .bf16) (d1 : Vec F S4096x128 .bf16) (d2 : Vec F S4096x128 .f32)
    (d3 : Vec F S4096x40 .bf16) (d4 : Vec F S4096x40 .f32) (hK : Known m c t.val d0 d1 d2 d3 d4) :
    Known m c (t.val + 1) d0 d1 d2 d3 d4 := by
  obtain ⟨k0, k1, k2, k3, k4⟩ := hK
  refine ⟨fun y _ => k0 y ?_, fun y _ => k1 y ?_, fun y _ => k2 y ?_, fun y _ => k3 y ?_, fun y _ => k4 y ?_⟩
  all_goals
    have h : (y 0).val < 4096 := (y 0).isLt
    omega

end Cert.KernelIdeal.Body

end
-- ==== Proof.KI.FrameData.lean ====
import proofs.«138326_g49246095016332_cont_8to1_c_632_4_alg».proof.Proof.KI.Pieces
import proofs.«138326_g49246095016332_cont_8to1_c_632_4_alg».proof.Proof.KI.Tracked
import proofs.«138326_g49246095016332_cont_8to1_c_632_4_alg».proof.Proof.KI.Agree

set_option maxRecDepth 16384

/-!
The frame of the program: it runs to the end, faults nowhere, and leaves its argument arrays unchanged.

The proof data names what every window's staging buffer holds after the body at each of the 48 points — an input's its
block, an output's the block the tracked contents say — and the region invariant: the five scratch buffers at contents
that agree, on the rows stored so far, with the functions of the entry arrays the tracked contents name. The body
obligation is by phase: the point's run, then the agreement extended by the stored row block (phase 0 and 1) or kept
(phase 2). An output's buffer is handed back untouched where the body stores nothing into it; the encoder's and the node
head's blocks stay in their buffers from the last point of phase 1 to the write-back at the very last point.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole-shape rectangle leaves its payload, whatever the buffer held. -/
theorem read_writes_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-- The region invariant before point `n`: each scratch buffer at some contents, the five agreeing with the tracked
    functions on the rows the first `n` points stored; the generator register at some state. -/
def PhiS (c : Dev nD) (n : ℕ) : sProp 𝕄 :=
  iprop(∃ d0, ∃ d1, ∃ d2, ∃ d3, ∃ d4, owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4
    ∗ ⌜Known m c n d0 d1 d2 d3 d4⌝ ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH m c t
    | ⟨10, _⟩ => outLn m c t
    | ⟨11, _⟩ => outLg m c t
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outH m c t := by dsimp only [dats]
theorem after_10 (c : Dev nD) (t : Fin cfg0.N) : (dats m 0 c).after 10 t = outLn m c t := by dsimp only [dats]
theorem after_11 (c : Dev nD) (t : Fin cfg0.N) : (dats m 0 c).after 11 t = outLg m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- An input's buffer is handed back at its block. -/
theorem leaves_0 (c : Dev nD) (t : Fin cfg0.N) : (dats m 0 c).leavesExact 0 t = owns (c : Thread nD τ) (ms0 t) fullShare (iblk m c 0 t) := by
  unfold Dat.leavesExact; rw [live_in 0 (by decide) t, after_0]
theorem leaves_1 (c : Dev nD) (t : Fin cfg0.N) : (dats m 0 c).leavesExact 1 t = owns (c : Thread nD τ) (ms1 t) fullShare (iblk m c 1 t) := by
  unfold Dat.leavesExact; rw [live_in 1 (by decide) t, after_1]
theorem leaves_2 (c : Dev nD) (t : Fin cfg0.N) : (dats m 0 c).leavesExact 2 t = owns (c : Thread nD τ) (ms2 t) fullShare (iblk m c 2 t) := by
  unfold Dat.leavesExact; rw [live_in 2 (by decide) t, after_2]
theorem leaves_3 (c : Dev nD) (t : Fin cfg0.N) : (dats m 0 c).leavesExact 3 t = owns (c : Thread nD τ) (ms3 t) fullShare (iblk m c 3 t) := by
  unfold Dat.leavesExact; rw [live_in 3 (by decide) t, after_3]
theorem leaves_4 (c : Dev nD) (t : Fin cfg0.N) : (dats m 0 c).leavesExact 4 t = owns (c : Thread nD τ) (ms4 t) fullShare (iblk m c 4 t) := by
  unfold Dat.leavesExact; rw [live_in 4 (by decide) t, after_4]
theorem leaves_5 (c : Dev nD) (t : Fin cfg0.N) : (dats m 0 c).leavesExact 5 t = owns (c : Thread nD τ) (ms5 t) fullShare (iblk m c 5 t) := by
  unfold Dat.leavesExact; rw [live_in 5 (by decide) t, after_5]
theorem leaves_6 (c : Dev nD) (t : Fin cfg0.N) : (dats m 0 c).leavesExact 6 t = owns (c : Thread nD τ) (ms6 t) fullShare (iblk m c 6 t) := by
  unfold Dat.leavesExact; rw [live_in 6 (by decide) t, after_6]
theorem leaves_7 (c : Dev nD) (t : Fin cfg0.N) : (dats m 0 c).leavesExact 7 t = owns (c : Thread nD τ) (ms7 t) fullShare (iblk m c 7 t) := by
  unfold Dat.leavesExact; rw [live_in 7 (by decide) t, after_7]
theorem leaves_8 (c : Dev nD) (t : Fin cfg0.N) : (dats m 0 c).leavesExact 8 t = owns (c : Thread nD τ) (ms8 t) fullShare (iblk m c 8 t) := by
  unfold Dat.leavesExact; rw [live_in 8 (by decide) t, after_8]

/-! ## The encoder's and the node head's buffers after phase 1 -/

/-- `before` one point later, for a window not fetched there. -/
theorem before_step (c : Dev nD) (w : Fin cfg0.W) (t t' : Fin cfg0.N) (h : t'.val + 1 = t.val) (hf : (cfg0.win w).fetch t = false) (d) :
    (dats m 0 c).before w t d = if (cfg0.win w).flush t' then d else (dats m 0 c).left w t' d := by
  have e : (⟨t.val - 1, Nat.lt_of_le_of_lt (Nat.sub_le _ _) t.isLt⟩ : Fin cfg0.N) = t' := Fin.ext (by simp only []; omega)
  rw [Dat.before_of_pos _ w t (by omega) hf d, e]

theorem outH_late (c : Dev nD) (t : Fin cfg0.N) (h : 31 ≤ t.val) : outH m c t = embAt m c (pt 31 (by decide)) := by
  unfold outH clamp31
  by_cases h31 : t.val ≤ 31
  · rw [if_pos h31]; exact congrArg _ (Fin.ext (by simp only [pt_val]; omega))
  · rw [if_neg h31]
theorem outLn_late (c : Dev nD) (t : Fin cfg0.N) (h : 31 ≤ t.val) : outLn m c t = lnAt m c (pt 31 (by decide)) := by
  unfold outLn clamp31
  by_cases h31 : t.val ≤ 31
  · rw [if_pos h31]; exact congrArg _ (Fin.ext (by simp only [pt_val]; omega))
  · rw [if_neg h31]
theorem outH_mid (c : Dev nD) (t : Fin cfg0.N) (h : t.val ≤ 31) : outH m c t = embAt m c t := by
  unfold outH clamp31; rw [if_pos h]
theorem outLn_mid (c : Dev nD) (t : Fin cfg0.N) (h : t.val ≤ 31) : outLn m c t = lnAt m c t := by
  unfold outLn clamp31; rw [if_pos h]

/-- From point 32 on the encoder's buffer holds the block the last point of phase 1 left: nothing is stored into it and it
    is not written back before the last point. -/
theorem before9_late (c : Dev nD) (d) : ∀ (k : ℕ) (hk : 32 + k < cfg0.N), (dats m 0 c).before 9 ⟨32 + k, hk⟩ d = outH m c ⟨32 + k, hk⟩
  | 0, hk => by
    have hN : (31 : ℕ) < cfg0.N := by omega
    rw [before_step m c 9 ⟨32 + 0, hk⟩ ⟨31, hN⟩ rfl (fetch9 _) d]
    have hfl : (cfg0.win 9).flush ⟨31, hN⟩ = false := Bool.eq_false_iff.mpr fun hf => by
      have := (flush9 ⟨31, hN⟩).mp hf; simp only [] at this; omega
    have hid : cfg0.idle 9 (grid0.coords ⟨31, hN⟩) = false := Bool.eq_false_iff.mpr fun hf => by
      have := (idle9 ⟨31, hN⟩).mp hf; simp only [] at this; omega
    rw [hfl, if_neg Bool.false_ne_true]
    unfold Dat.left; rw [hid]
    show (dats m 0 c).after 9 ⟨31, hN⟩ = _
    rw [after_9, outH_late m c _ (by simp only []; omega), outH_late m c _ (by simp only []; omega)]
  | k + 1, hk => by
    have hN : 32 + k < cfg0.N := by omega
    rw [before_step m c 9 ⟨32 + (k + 1), hk⟩ ⟨32 + k, hN⟩ (by simp only []; omega) (fetch9 _) d]
    have hfl : (cfg0.win 9).flush ⟨32 + k, hN⟩ = false := Bool.eq_false_iff.mpr fun hf => by
      have h48 : 32 + (k + 1) < 48 := lt_of_lt_of_eq hk N_0
      have := (flush9 ⟨32 + k, hN⟩).mp hf; simp only [] at this; omega
    have hid : cfg0.idle 9 (grid0.coords ⟨32 + k, hN⟩) = true := (idle9 ⟨32 + k, hN⟩).mpr (by simp only []; omega)
    rw [hfl, if_neg Bool.false_ne_true]
    unfold Dat.left; rw [hid]
    show (dats m 0 c).before 9 ⟨32 + k, hN⟩ d = _
    rw [before9_late c d k hN, outH_late m c _ (by simp only []; omega), outH_late m c _ (by simp only []; omega)]
theorem before10_late (c : Dev nD) (d) : ∀ (k : ℕ) (hk : 32 + k < cfg0.N), (dats m 0 c).before 10 ⟨32 + k, hk⟩ d = outLn m c ⟨32 + k, hk⟩
  | 0, hk => by
    have hN : (31 : ℕ) < cfg0.N := by omega
    rw [before_step m c 10 ⟨32 + 0, hk⟩ ⟨31, hN⟩ rfl (fetch10 _) d]
    have hfl : (cfg0.win 10).flush ⟨31, hN⟩ = false := Bool.eq_false_iff.mpr fun hf => by
      have := (flush10 ⟨31, hN⟩).mp hf; simp only [] at this; omega
    have hid : cfg0.idle 10 (grid0.coords ⟨31, hN⟩) = false := Bool.eq_false_iff.mpr fun hf => by
      have := (idle10 ⟨31, hN⟩).mp hf; simp only [] at this; omega
    rw [hfl, if_neg Bool.false_ne_true]
    unfold Dat.left; rw [hid]
    show (dats m 0 c).after 10 ⟨31, hN⟩ = _
    rw [after_10, outLn_late m c _ (by simp only []; omega), outLn_late m c _ (by simp only []; omega)]
  | k + 1, hk => by
    have hN : 32 + k < cfg0.N := by omega
    rw [before_step m c 10 ⟨32 + (k + 1), hk⟩ ⟨32 + k, hN⟩ (by simp only []; omega) (fetch10 _) d]
    have hfl : (cfg0.win 10).flush ⟨32 + k, hN⟩ = false := Bool.eq_false_iff.mpr fun hf => by
      have h48 : 32 + (k + 1) < 48 := lt_of_lt_of_eq hk N_0
      have := (flush10 ⟨32 + k, hN⟩).mp hf; simp only [] at this; omega
    have hid : cfg0.idle 10 (grid0.coords ⟨32 + k, hN⟩) = true := (idle10 ⟨32 + k, hN⟩).mpr (by simp only []; omega)
    rw [hfl, if_neg Bool.false_ne_true]
    unfold Dat.left; rw [hid]
    show (dats m 0 c).before 10 ⟨32 + k, hN⟩ d = _
    rw [before10_late c d k hN, outLn_late m c _ (by simp only []; omega), outLn_late m c _ (by simp only []; omega)]

theorem before9_late' (c : Dev nD) (t : Fin cfg0.N) (h : 32 ≤ t.val) (d) : (dats m 0 c).before 9 t d = outH m c t := by
  obtain ⟨n, hn⟩ := t
  obtain ⟨k, rfl⟩ : ∃ k, n = 32 + k := ⟨n - 32, by simp only [] at h; omega⟩
  exact before9_late m c d k hn
theorem before10_late' (c : Dev nD) (t : Fin cfg0.N) (h : 32 ≤ t.val) (d) : (dats m 0 c).before 10 t d = outLn m c t := by
  obtain ⟨n, hn⟩ := t
  obtain ⟨k, rfl⟩ : ∃ k, n = 32 + k := ⟨n - 32, by simp only [] at h; omega⟩
  exact before10_late m c d k hn

/-- In phase 2 the encoder's buffer, holding that block, is what the point hands back — untouched where it is not written
    back, and as the stated contents at the last point, where it is. -/
theorem leaves9_late (c : Dev nD) (t : Fin cfg0.N) (h : 32 ≤ t.val) (d) :
    owns (c : Thread nD τ) (ms9 t) fullShare ((dats m 0 c).before 9 t d) ⊢ ((dats m 0 c).leavesExact 9 t : sProp 𝕄) := by
  have hid : cfg0.idle 9 (grid0.coords t) = true := (idle9 t).mpr (by omega)
  by_cases hfl : (cfg0.win 9).flush t = true
  · unfold Dat.leavesExact; rw [hid, hfl, before9_late' m c t h d, after_9]
  · rw [Dat.leavesExact_idle (dats m 0 c) 9 t hid (Bool.eq_false_iff.mpr hfl)]
    iintro H; iexists d; iexact H
theorem leaves10_late (c : Dev nD) (t : Fin cfg0.N) (h : 32 ≤ t.val) (d) :
    owns (c : Thread nD τ) (ms10 t) fullShare ((dats m 0 c).before 10 t d) ⊢ ((dats m 0 c).leavesExact 10 t : sProp 𝕄) := by
  have hid : cfg0.idle 10 (grid0.coords t) = true := (idle10 t).mpr (by omega)
  by_cases hfl : (cfg0.win 10).flush t = true
  · unfold Dat.leavesExact; rw [hid, hfl, before10_late' m c t h d, after_10]
  · rw [Dat.leavesExact_idle (dats m 0 c) 10 t hid (Bool.eq_false_iff.mpr hfl)]
    iintro H; iexists d; iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.KernelIdeal.Body

end
-- ==== Proof.KI.Body0.lean ====
import proofs.«138326_g49246095016332_cont_8to1_c_632_4_alg».proof.Proof.KI.FrameData

set_option maxRecDepth 16384

/-!
The body obligation at a point of phase 0.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 0: the run stores one row block into each of the three phase-0 scratch buffers; the agreement grows by
    that block; every output's buffer is handed back untouched. -/
theorem sound_body0 (c : Dev nD) (t : Fin cfg0.N) (h1 : t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : k0_cond1 (grid0.coords t) = 1#1 := (hcond1 t).mpr h1
  have hc2 : ¬ k0_cond2 (grid0.coords t) = 1#1 := fun h => by have := (hcond2 t).mp h; omega
  have hc3 : ¬ k0_cond3 (grid0.coords t) = 1#1 := fun h => by have := (hcond3 t).mp h; omega
  rw [Dat.leavesExact_idle (dats m 0 c) 9 t ((idle9 t).mpr (by omega)) (Bool.eq_false_iff.mpr fun hf => by have := (flush9 t).mp hf; omega)]
  rw [Dat.leavesExact_idle (dats m 0 c) 10 t ((idle10 t).mpr (by omega)) (Bool.eq_false_iff.mpr fun hf => by have := (flush10 t).mp hf; omega)]
  rw [Dat.leavesExact_idle (dats m 0 c) 11 t ((idle11 t).mpr (by omega)) (Bool.eq_false_iff.mpr fun hf => by have := (flush11 t).mp hf; omega)]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply (runP0_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 1 t) (iblk m c 2 t) (iblk m c 3 t) d0 d1 d2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 HS3 HS4 Hg]
  · iexists _; iexists _; iexists _; iexists d3; iexists d4
    isplitl [HS0]
    · unfold owns; iexists _; isplitr; swap; · iexact HS0
      ipureintro; rfl
    isplitl [HS1]
    · unfold owns; iexists _; isplitr; swap; · iexact HS1
      ipureintro; rfl
    isplitl [HS2]
    · unfold owns; iexists _; isplitr; swap; · iexact HS2
      ipureintro; rfl
    isplitl [HS3]; · iexact HS3
    isplitl [HS4]; · iexact HS4
    isplitr [Hg]
    · ipureintro
      exact known_step0 m c t h1 hc1 sc0.view _ sc1.view _ sc2.view _ d3 d4
        (by rw [Memref.IsWhole.read_unread, Memref.IsWhole.read_unread, Memref.IsWhole.read_unread]; exact hK)
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.KernelIdeal.Body

end
-- ==== Proof.KI.Body1.lean ====
import proofs.«138326_g49246095016332_cont_8to1_c_632_4_alg».proof.Proof.KI.FrameData

set_option maxRecDepth 16384

/-!
The body obligation at a point of phase 1.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 1: with all of phase 0 known, the run leaves the encoder's and the node head's blocks in their buffers
    and stores one row block into each of the two phase-1 scratch buffers; the agreement grows by that block. -/
theorem sound_body1 (c : Dev nD) (t : Fin cfg0.N) (h16 : 16 ≤ t.val) (h32 : t.val < 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : ¬ k0_cond1 (grid0.coords t) = 1#1 := fun h => by have := (hcond1 t).mp h; omega
  have hc2 : k0_cond2 (grid0.coords t) = 1#1 := (hcond2 t).mpr ⟨h16, h32⟩
  have hc3 : ¬ k0_cond3 (grid0.coords t) = 1#1 := fun h => by have := (hcond3 t).mp h; omega
  rw [show (dats m 0 c).leavesExact 9 t = owns (c : Thread nD τ) (ms9 t) fullShare (outH m c t) from by
    unfold Dat.leavesExact; rw [(show cfg0.idle 9 (grid0.coords t) = false from Bool.eq_false_iff.mpr fun hf => by have := (idle9 t).mp hf; omega), after_9]]
  rw [show (dats m 0 c).leavesExact 10 t = owns (c : Thread nD τ) (ms10 t) fullShare (outLn m c t) from by
    unfold Dat.leavesExact; rw [(show cfg0.idle 10 (grid0.coords t) = false from Bool.eq_false_iff.mpr fun hf => by have := (idle10 t).mp hf; omega), after_10]]
  rw [Dat.leavesExact_idle (dats m 0 c) 11 t ((idle11 t).mpr (by omega)) (Bool.eq_false_iff.mpr fun hf => by have := (flush11 t).mp hf; omega)]
  rw [outH_mid m c t (by omega), outLn_mid m c t (by omega)]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  have e1 := zb_of_known m c t h16 d0 d1 d2 d3 d4 hK
  subst e1
  have e13 : k0_pay13 (k0_pay1 (iblk m c 0 t)) (rd0 (grid0.coords t) hc2 d0) (ZB m c) (rd2 (grid0.coords t) hc2 d2) (rd1 (grid0.coords t) hc2 (ZB m c)) (iblk m c 6 t) (iblk m c 4 t) = zwbAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e7 : k0_pay7 (iblk m c 0 t) (k0_pay11 (rd2 (grid0.coords t) hc2 d2)) (k0_pay12 (k0_pay1 (iblk m c 0 t)) (rd0 (grid0.coords t) hc2 d0) (ZB m c) (rd2 (grid0.coords t) hc2 d2) (rd1 (grid0.coords t) hc2 (ZB m c)) (iblk m c 6 t) (iblk m c 4 t)) = dgAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e9 : k0_pay9 (k0_pay1 (iblk m c 0 t)) (rd0 (grid0.coords t) hc2 d0) (ZB m c) (rd2 (grid0.coords t) hc2 d2) (rd1 (grid0.coords t) hc2 (ZB m c)) (iblk m c 6 t) = embAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  have e10 : k0_pay10 (k0_pay1 (iblk m c 0 t)) (rd0 (grid0.coords t) hc2 d0) (ZB m c) (rd2 (grid0.coords t) hc2 d2) (rd1 (grid0.coords t) hc2 (ZB m c)) (iblk m c 6 t) (iblk m c 5 t) (iblk m c 7 t) = lnAt m c t := by
    simp only [rd0, rd1, rd2]
    rw [rd0_of_known m c t h16 hc2 d0 (ZB m c) d2 d3 d4 hK, rd2_of_known m c t h16 hc2 d0 (ZB m c) d2 d3 d4 hK, rd1_of_known m c t h16 hc2 d0 (ZB m c) d2 d3 d4 hK]
    rfl
  iapply (runP1_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 4 t) (iblk m c 5 t) (iblk m c 6 t) (iblk m c 7 t) d0 (ZB m c) d2 d3 d4 Set.univ _)
  isplitl [H0]; · iexact H0
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [H9]; · iexists _; iexact H9
  isplitl [H10]; · iexists _; iexact H10
  iintro ⟨H0, H4, H5, H6, H7, HS0, HS1, HS2, HS3, HS4, ⟨%f9, H9⟩, ⟨%f10, H10⟩⟩
  rw [e13, e7, e9, e10]
  isplitl [HS0 HS1 HS2 HS3 HS4 Hg]
  · iexists d0; iexists (ZB m c); iexists d2; iexists _; iexists _
    isplitl [HS0]; · iexact HS0
    isplitl [HS1]; · iexact HS1
    isplitl [HS2]; · iexact HS2
    isplitl [HS3]
    · unfold owns; iexists _; isplitr; swap; · iexact HS3
      ipureintro; rfl
    isplitl [HS4]
    · unfold owns; iexists _; isplitr; swap; · iexact HS4
      ipureintro; rfl
    isplitr [Hg]
    · ipureintro
      exact known_step1 m c t ⟨h16, h32⟩ hc2 d0 (ZB m c) d2 sc3.view _ sc4.view _
        (by rw [Memref.IsWhole.read_unread, Memref.IsWhole.read_unread]; exact hK)
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact read_writes_whole _ _ hz2 _ _
  isplitl [H10]
  · unfold owns; iexists _; isplitr; swap; · iexact H10
    ipureintro; exact read_writes_whole _ _ hz2 _ _
  iexists _; iexact H11

end Cert.KernelIdeal.Body

end
-- ==== Proof.KI.Body2.lean ====
import proofs.«138326_g49246095016332_cont_8to1_c_632_4_alg».proof.Proof.KI.FrameData

set_option maxRecDepth 16384

/-!
The body obligation at a point of phase 2.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- A point of phase 2: with every scratch row known, the run leaves the decoder's block in its buffer; the scratch buffers
    are only read. -/
theorem sound_body2 (c : Dev nD) (t : Fin cfg0.N) (h32 : 32 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [Phi_succ, Phi_castSucc, leaves_0, leaves_1, leaves_2, leaves_3, leaves_4, leaves_5, leaves_6, leaves_7, leaves_8]
  have hc1 : ¬ k0_cond1 (grid0.coords t) = 1#1 := fun h => by have := (hcond1 t).mp h; omega
  have hc2 : ¬ k0_cond2 (grid0.coords t) = 1#1 := fun h => by have := (hcond2 t).mp h; omega
  have hc3 : k0_cond3 (grid0.coords t) = 1#1 := (hcond3 t).mpr h32
  rw [show (dats m 0 c).leavesExact 11 t = owns (c : Thread nD τ) (ms11 t) fullShare (outLg m c t) from by
    unfold Dat.leavesExact; rw [(show cfg0.idle 11 (grid0.coords t) = false from Bool.eq_false_iff.mpr fun hf => by have := (idle11 t).mp hf; omega), after_11]]
  rw [show outLg m c t = lgAt m c t from rfl]
  unfold PhiS
  iintro ⟨⟨%d0, %d1, %d2, %d3, %d4, HS0, HS1, HS2, HS3, HS4, %hK, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  have e3 := zwb_of_known2 m c t h32 d0 d1 d2 d3 d4 hK
  subst e3
  have e8 : k0_pay8 (View.ld d0 (Rect.unit (k0_off6 (grid0.coords t)) S256x4096.size (k0_off6_inb (grid0.coords t) hc3))) (ZWB m c) (View.ld d4 (Rect.unit (k0_off7 (grid0.coords t)) S256x40.size (k0_off7_inb (grid0.coords t) hc3))) (iblk m c 8 t) = lgAt m c t := by
    rw [rd0_of_known2 m c t h32 hc3 d0 d1 d2 (ZWB m c) d4 hK, rd4_of_known2 m c t h32 hc3 d0 d1 d2 (ZWB m c) d4 hK]
    rfl
  iapply (runP2_spec c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) hc1 hc2 hc3 (iblk m c 0 t) (iblk m c 8 t) d0 (ZWB m c) d4 Set.univ _)
  isplitl [H0]; · iexact H0
  isplitl [H8]; · iexact H8
  isplitl [HS0]; · iexact HS0
  isplitl [HS3]; · iexact HS3
  isplitl [HS4]; · iexact HS4
  isplitl [H11]; · iexists _; iexact H11
  iintro ⟨H0, H8, HS0, HS3, HS4, ⟨%f11, H11⟩⟩
  rw [e8]
  isplitl [HS0 HS1 HS2 HS3 HS4 Hg]
  · iexists d0; iexists d1; iexists d2; iexists (ZWB m c); iexists d4
    isplitl [HS0]; · iexact HS0
    isplitl [HS1]; · iexact HS1
    isplitl [HS2]; · iexact HS2
    isplitl [HS3]; · iexact HS3
    isplitl [HS4]; · iexact HS4
    isplitr [Hg]
    · ipureintro; exact known_step2 m c t h32 d0 d1 d2 (ZWB m c) d4 hK
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves9_late m c t h32 e9); iexact H9
  isplitl [H10]; · iapply (leaves10_late m c t h32 e10); iexact H10
  unfold owns; iexists _; isplitr; swap; · iexact H11
  ipureintro; exact read_writes_whole _ _ hz2 _ _

end Cert.KernelIdeal.Body

end
-- ==== Proof.KI.Frame.lean ====
import proofs.«138326_g49246095016332_cont_8to1_c_632_4_alg».proof.Proof.KI.Body0
import proofs.«138326_g49246095016332_cont_8to1_c_632_4_alg».proof.Proof.KI.Body1
import proofs.«138326_g49246095016332_cont_8to1_c_632_4_alg».proof.Proof.KI.Body2

set_option maxRecDepth 16384

/-!
The body obligation at every point, the launch's two entailments, the run and the frame.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 16
  · exact sound_body0 m c t h1
  · by_cases h2 : t.val < 32
    · exact sound_body1 m c t (by omega) h2
    · exact sound_body2 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratch yet. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩, ⟨%d2, HS2⟩, ⟨%d3, HS3⟩, ⟨%d4, HS4⟩⟩, Hg⟩
  iexists d0; iexists d1; iexists d2; iexists d3; iexists d4
  isplitl [HS0]; · iexact HS0
  isplitl [HS1]; · iexact HS1
  isplitl [HS2]; · iexact HS2
  isplitl [HS3]; · iexact HS3
  isplitl [HS4]; · iexact HS4
  isplitr [Hg]
  · ipureintro; exact known_zero m c d0 d1 d2 d3 d4
  · iexact Hg

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%d0, %d1, %d2, %d3, %d4, HS0, HS1, HS2, HS3, HS4, -, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-! ## The run and the frame -/

set_option backward.isDefEq.respectTransparency.types false in
/-- Every weakly fair execution of @main on the TensorCores terminates, and every final state has every array of the
    pipeline at what the library computes from the proof data and every other unscoped buffer as the line after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.KI.FinalArrays.lean ====
import proofs.«138326_g49246095016332_cont_8to1_c_632_4_alg».proof.Proof.KI.FrameData
import Idealize.ShloMosaic.Lib.Pipeline.Value
import Idealize.ShloMosaic.Lib.ValueIdx

set_option maxRecDepth 16384

/-!
From the blocks the points write back to the three output arrays after the run.

Each output array has 4096 rows, written back in blocks of 256 rows. The encoder's and the node head's block of rows
`256·b … 256·b + 255` is the one point `16 + b` computes; it is written back when that point's successor starts, and the last
one (`b = 15`) stays in its buffer through the third phase and is written back at the very last point. The decoder's block
of those rows is the one point `32 + b` computes and writes back. So the array after the run is, at row `r`, row `r % 256` of
the block of point `16 + r / 256` (or `32 + r / 256`): every row lies in exactly such a block, and what a flushing point
writes back is that block of this function.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

variable (m : (ℓ : Loc nD τ sig) → Buf (Elt F) ℓ) (c : Dev nD)

/-! ## The three arrays as functions of the tracked blocks -/

def GH : Vec F S4096x128 .f32 := fun y => embAt m c (pt (16 + (y 0).val / 256) (by have h : (y 0).val < 4096 := (y 0).isLt; omega)) (ix2 (⟨(y 0).val % 256, Nat.mod_lt _ (by decide)⟩ : Fin 256) (⟨(y 1).val, (y 1).isLt⟩ : Fin 128))
def GLn : Vec F S4096x40 .f32 := fun y => lnAt m c (pt (16 + (y 0).val / 256) (by have h : (y 0).val < 4096 := (y 0).isLt; omega)) (ix2 (⟨(y 0).val % 256, Nat.mod_lt _ (by decide)⟩ : Fin 256) (⟨(y 1).val, (y 1).isLt⟩ : Fin 40))
def GLg : Vec F S4096x40 .f32 := fun y => lgAt m c (pt (32 + (y 0).val / 256) (by have h : (y 0).val < 4096 := (y 0).isLt; omega)) (ix2 (⟨(y 0).val % 256, Nat.mod_lt _ (by decide)⟩ : Fin 256) (⟨(y 1).val, (y 1).isLt⟩ : Fin 40))

/-! ## The output windows' block indices, decided once over the 48 grid points -/

/-- The encoder's and the node head's windows: block row `t - 16` in the second phase, `15` in the third; the decoder's:
    block row `t - 32` in the third phase. The column index is always zero. -/
theorem idx_out : ∀ t : Fin cfg0.N,
    (16 ≤ t.val → t.val < 32 → win0_9.index t (0 : Fin 2) = t.val - 16) ∧ (32 ≤ t.val → win0_9.index t (0 : Fin 2) = 15)
    ∧ win0_9.index t (1 : Fin 2) = 0
    ∧ (16 ≤ t.val → t.val < 32 → win0_10.index t (0 : Fin 2) = t.val - 16) ∧ (32 ≤ t.val → win0_10.index t (0 : Fin 2) = 15)
    ∧ win0_10.index t (1 : Fin 2) = 0
    ∧ (32 ≤ t.val → win0_11.index t (0 : Fin 2) = t.val - 32) ∧ win0_11.index t (1 : Fin 2) = 0 :=
  (by decide +kernel : ∀ t : Fin grid0.N, _)

/-- The point whose block a later point still holds: the point itself up to 31, then 31. -/
theorem clamp31_val (t : Fin cfg0.N) : (clamp31 t).val = if t.val ≤ 31 then t.val else 31 := by
  unfold clamp31
  by_cases h : t.val ≤ 31
  · rw [if_pos h, if_pos h]
  · rw [if_neg h, if_neg h]; rfl

/-! ## The encoder's array -/

/-- At row `256·b + j₀` and column `j₁` the function is the block of point `16 + b` at `(j₀, j₁)`. -/
theorem GH_at (t' : Fin cfg0.N) (b : ℕ) (hb : 16 + b = t'.val) (y : S4096x128.Idx) (j : S256x128.Idx)
    (h0 : (y 0).val = b * 256 + (j 0).val) (h1 : (y 1).val = (j 1).val) : GH m c y = embAt m c t' j := by
  have hj0 : (j 0).val < 256 := (j 0).isLt
  have hp : pt (16 + (y 0).val / 256) (by have h : (y 0).val < 4096 := (y 0).isLt; omega) = t' :=
    Fin.ext (by rw [pt_val]; omega)
  have hj : ix2 (⟨(y 0).val % 256, Nat.mod_lt _ (by decide)⟩ : Fin 256) (⟨(y 1).val, (y 1).isLt⟩ : Fin 128) = j := by
    funext a
    match a with
    | ⟨0, _⟩ => exact Fin.ext (by show (y 0).val % 256 = (j 0).val; omega)
    | ⟨1, _⟩ => exact Fin.ext (by show (y 1).val = (j 1).val; exact h1)
  show embAt m c (pt (16 + (y 0).val / 256) _) (ix2 _ _) = embAt m c t' j
  exact congr (congrArg (embAt m c) hp) hj

/-- What a flushing point writes back is its block of the function. -/
theorem flushed9_eq (t : Fin cfg0.N) (hf : (cfg0.win 9).flush t = true) :
    (dats m 0 c).flushed 9 t = ((cfg0.win 9).blk t).view.read (Elt F) (GH m c) := by
  show (cfg0.win 9).cut (grid0.coords t) ((dats m 0 c).after 9 t) = _
  rw [after_9]
  obtain ⟨e0, e1, e2, -⟩ := idx_out t
  have hft := (flush9 t).1 hf
  have hc := clamp31_val t
  funext j
  show embAt m c (clamp31 t) j = GH m c (((cfg0.win 9).blk t).view.emb j)
  refine (GH_at m c (clamp31 t) (win0_9.index t (0 : Fin 2)) ?_ _ j ?_ ?_).symm
  · rw [hc]
    rcases hft with ⟨h16, h31⟩ | h47
    · rw [if_pos (by omega), e0 h16 (by omega)]; omega
    · rw [if_neg (by omega), e1 (by omega)]
  · show win0_9.index t (0 : Fin 2) * 256 + 1 * (j 0).val = win0_9.index t (0 : Fin 2) * 256 + (j 0).val
    omega
  · show win0_9.index t (1 : Fin 2) * 128 + 1 * (j 1).val = (j 1).val
    rw [e2]; omega

/-- An index of the array is in point `t`'s block iff each coordinate is in the block's range on its axis. -/
theorem mem_blk9 (t : Fin cfg0.N) (i : S4096x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v6_0).slice (win0_9.rect t)).set ↔ _
  rw [View.set_slice_whole, Rect.mem_set_unit]
  exact Iff.rfl

/-- Every row lies in the block some flushing point writes back: rows below `3840` in that of point `16 + r / 256`, the last
    256 rows in that of the last point. -/
theorem cover9 (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  by_cases hb : (i 0).val / 256 < 15
  · refine ⟨pt (16 + (i 0).val / 256) (by omega), (flush9 _).2 (Or.inl ⟨by rw [pt_val]; omega, by rw [pt_val]; omega⟩), ?_⟩
    obtain ⟨e0, -, e2, -⟩ := idx_out (pt (16 + (i 0).val / 256) (by omega))
    have q0 := e0 (by rw [pt_val]; omega) (by rw [pt_val]; omega)
    rw [pt_val] at q0
    rw [mem_blk9]
    intro a
    match a with
    | ⟨0, _⟩ =>
      show win0_9.index _ (0 : Fin 2) * 256 ≤ (i 0).val ∧ (i 0).val < win0_9.index _ (0 : Fin 2) * 256 + 256
      rw [q0]; omega
    | ⟨1, _⟩ =>
      show win0_9.index _ (1 : Fin 2) * 128 ≤ (i 1).val ∧ (i 1).val < win0_9.index _ (1 : Fin 2) * 128 + 128
      rw [e2]; omega
  · refine ⟨pt 47 (by decide), (flush9 _).2 (Or.inr (pt_val 47 _)), ?_⟩
    obtain ⟨-, e1, e2, -⟩ := idx_out (pt 47 (by decide))
    have q0 := e1 (by rw [pt_val]; omega)
    rw [mem_blk9]
    intro a
    match a with
    | ⟨0, _⟩ =>
      show win0_9.index _ (0 : Fin 2) * 256 ≤ (i 0).val ∧ (i 0).val < win0_9.index _ (0 : Fin 2) * 256 + 256
      rw [q0]; omega
    | ⟨1, _⟩ =>
      show win0_9.index _ (1 : Fin 2) * 128 ≤ (i 1).val ∧ (i 1).val < win0_9.index _ (1 : Fin 2) * 128 + 128
      rw [e2]; omega

/-- The encoder's array after the run. -/
theorem final9 : (dats m 0 c).arrAt 9 cfg0.N = GH m c :=
  (dats m 0 c).arrAt_eq_of_cover 9 (GH m c) (fun t hf => flushed9_eq m c t hf) (cover9)

/-! ## The node head's array -/

/-- At row `256·b + j₀` and column `j₁` the function is the block of point `16 + b` at `(j₀, j₁)`. -/
theorem GLn_at (t' : Fin cfg0.N) (b : ℕ) (hb : 16 + b = t'.val) (y : S4096x40.Idx) (j : S256x40.Idx)
    (h0 : (y 0).val = b * 256 + (j 0).val) (h1 : (y 1).val = (j 1).val) : GLn m c y = lnAt m c t' j := by
  have hj0 : (j 0).val < 256 := (j 0).isLt
  have hp : pt (16 + (y 0).val / 256) (by have h : (y 0).val < 4096 := (y 0).isLt; omega) = t' :=
    Fin.ext (by rw [pt_val]; omega)
  have hj : ix2 (⟨(y 0).val % 256, Nat.mod_lt _ (by decide)⟩ : Fin 256) (⟨(y 1).val, (y 1).isLt⟩ : Fin 40) = j := by
    funext a
    match a with
    | ⟨0, _⟩ => exact Fin.ext (by show (y 0).val % 256 = (j 0).val; omega)
    | ⟨1, _⟩ => exact Fin.ext (by show (y 1).val = (j 1).val; exact h1)
  show lnAt m c (pt (16 + (y 0).val / 256) _) (ix2 _ _) = lnAt m c t' j
  exact congr (congrArg (lnAt m c) hp) hj

/-- What a flushing point writes back is its block of the function. -/
theorem flushed10_eq (t : Fin cfg0.N) (hf : (cfg0.win 10).flush t = true) :
    (dats m 0 c).flushed 10 t = ((cfg0.win 10).blk t).view.read (Elt F) (GLn m c) := by
  show (cfg0.win 10).cut (grid0.coords t) ((dats m 0 c).after 10 t) = _
  rw [after_10]
  obtain ⟨-, -, -, e0, e1, e2, -⟩ := idx_out t
  have hft := (flush10 t).1 hf
  have hc := clamp31_val t
  funext j
  show lnAt m c (clamp31 t) j = GLn m c (((cfg0.win 10).blk t).view.emb j)
  refine (GLn_at m c (clamp31 t) (win0_10.index t (0 : Fin 2)) ?_ _ j ?_ ?_).symm
  · rw [hc]
    rcases hft with ⟨h16, h31⟩ | h47
    · rw [if_pos (by omega), e0 h16 (by omega)]; omega
    · rw [if_neg (by omega), e1 (by omega)]
  · show win0_10.index t (0 : Fin 2) * 256 + 1 * (j 0).val = win0_10.index t (0 : Fin 2) * 256 + (j 0).val
    omega
  · show win0_10.index t (1 : Fin 2) * 40 + 1 * (j 1).val = (j 1).val
    rw [e2]; omega

/-- An index of the array is in point `t`'s block iff each coordinate is in the block's range on its axis. -/
theorem mem_blk10 (t : Fin cfg0.N) (i : S4096x40.Idx) :
    i ∈ ((cfg0.win 10).blk t).view.set ↔ ∀ a : Fin 2, win0_10.index t a * S256x40.size a ≤ (i a).val ∧ (i a).val < win0_10.index t a * S256x40.size a + S256x40.size a := by
  show i ∈ ((View.whole main_v6_1).slice (win0_10.rect t)).set ↔ _
  rw [View.set_slice_whole, Rect.mem_set_unit]
  exact Iff.rfl

/-- Every row lies in the block some flushing point writes back. -/
theorem cover10 (i : S4096x40.Idx) : ∃ t : Fin cfg0.N, (cfg0.win 10).flush t = true ∧ i ∈ ((cfg0.win 10).blk t).view.set := by
  have hi0 : (i 0).val < 4096 := (i 0).isLt
  have hi1 : (i 1).val < 40 := (i 1).isLt
  by_cases hb : (i 0).val / 256 < 15
  · refine ⟨pt (16 + (i 0).val / 256) (by omega), (flush10 _).2 (Or.inl ⟨by rw [pt_val]; omega, by rw [pt_val]; omega⟩), ?_⟩
    obtain ⟨-, -, -, e0, -, e2, -⟩ := idx_out (pt (16 + (i 0).val / 256) (by omega))
    have q0 := e0 (by rw [pt_val]; omega) (by rw [pt_val]; omega)
    rw [pt_val] at q0
    rw [mem_blk10]
    intro a
    match a with
    | ⟨0, _⟩ =>
      show win0_10.index _ (0 : Fin 2) * 256 ≤ (i 0).val ∧ (i 0).val < win0_10.index _ (0 : Fin 2) * 256 + 256
      rw [q0]; omega
    | ⟨1, _⟩ =>
      show win0_10.index _ (1 : Fin 2) * 40 ≤ (i 1).val ∧ (i 1).val < win0_10.index _ (1 : Fin 2) * 40 + 40
      rw [e2]; omega
  · refine ⟨pt 47 (by decide), (flush10 _).2 (Or.inr (pt_val 47 _)), ?_⟩
    obtain ⟨-, -, -, -, e1, e2, -⟩ := idx_out (pt 47 (by decide))
    have q0 := e1 (by rw [pt_val]; omega)
    rw [mem_blk10]
    intro a
    match a with
    | ⟨0, _⟩ =>
      show win0_10.index _ (0 : Fin 2) * 256 ≤ (i 0).val ∧ (i 0).val < win0_10.index _ (0 : Fin 2) * 256 + 256
      rw [q0]; omega
    | ⟨1, _⟩ =>
      show win0_10.index _ (1 : Fin 2) * 40 ≤ (i 1).val ∧ (i 1).val < win0_10.index _ (1 : Fin 2) * 40 + 40
      rw [e2]; omega

/-- The node head's array after the run. -/
theorem final10 : (dats m 0 c).arrAt 10 cfg0.N = GLn m c :=
  (dats m 0 c).arrAt_eq_of_cover 10 (GLn m c) (fun t hf => flushed10_eq m c t hf) (cover10)

/-! ## The decoder's array -/

/-- At row `256·b + j₀` and column `j₁` the function is the block of point `32 + b` at `(j₀, j₁)`. -/
theorem GLg_at (t' : Fin cfg0.N) (b : ℕ) (hb : 32 + b = t'.val) (y : S4096x40.Idx) (j : S256x40.Idx)
    (h0 : (y 0).val = b * 256 + (j 0).val) (h1 : (y 1).val = (j 1).val) : GLg m c y = lgAt m c t' j := by
  have hj0 : (j 0).val < 256 := (j 0).isLt
  have hp : pt (32 + (y 0).val / 256) (by have h : (y 0).val < 4096 := (y 0).isLt; omega) = t' :=
    Fin.ext (by rw [pt_val]; omega)
  have hj : ix2 (⟨(y 0).val % 256, Nat.mod_lt _ (by decide)⟩ : Fin 256) (⟨(y 1).val, (y 1).isLt⟩ : Fin 40) = j := by
    funext a
    match a with
    | ⟨0, _⟩ => exact Fin.ext (by show (y 0).val % 256 = (j 0).val; omega)
    | ⟨1, _⟩ => exact Fin.ext (by show (y 1).val = (j 1).val; exact h1)
  show lgAt m c (pt (32 + (y 0).val / 256) _) (ix2 _ _) = lgAt m c t' j
  exact congr (congrArg (lgAt m c) hp) hj

/-- What a flushing point writes back is its block of the function. -/
theorem flushed11_eq (t : Fin cfg0.N) (hf : (cfg0.win 11).flush t = true) :
    (dats m 0 c).flushed 11 t = ((cfg0.win 11).blk t).view.read (Elt F) (GLg m c) := by
  show (cfg0.win 11).cut (grid0.coords t) ((dats m 0 c).after 11 t) = _
  rw [after_11]
  obtain ⟨-, -, -, -, -, -, e0, e2⟩ := idx_out t
  have h32 := (flush11 t).1 hf
  funext j
  show lgAt m c t j = GLg m c (((cfg0.win 11).blk t).view.emb j)
  refine (GLg_at m c t (win0_11.index t (0 : Fin 2)) ?_ _ j ?_ ?_).symm
  · rw [e0 h32]; omega
  · show win0_11.index t (0 : Fin 2) * 256 + 1 * (j 0).val = win0_11.index t (0 : Fin 2) * 256 + (j 0).val
    omega
  · show win0_11.index t (1 : Fin 2) * 40 + 1 * (j 1).val = (j 1).val
    rw [e2]; omega

/-- An index of the array is in point `t`'s block iff each coordinate is in the block's range on its axis. -/
theorem mem_blk11 (t : Fin cfg0.N) (i : S4096x40.Idx) :
    i ∈ ((cfg0.win 11).blk t).view.set ↔ ∀ a : Fin 2, win0_11.index t a * S256x40.size a ≤ (i a).val ∧ (i a).val < win0_11.index t a * S256x40.size a + S256x40.size a := by
  show i ∈ ((View.whole main_v6_2).slice (win0_11.rect t)).set ↔ _
  rw [View.set_slice_whole, Rect.mem_set_unit]
  exact Iff.rfl

/-- Every row lies in the block of the point `32 + r / 256`, which writes it back. -/
theorem cover11 (i : S4096x40.Idx) : ∃ t : Fin cfg0.N, (cfg0.win 11).flush t = true ∧ i ∈ ((cfg0.win 11).blk t).view.set := by
  have hi0 : (i 0).val < 4096 := (i 0).isLt
  have hi1 : (i 1).val < 40 := (i 1).isLt
  refine ⟨pt (32 + (i 0).val / 256) (by omega), (flush11 _).2 (by rw [pt_val]; omega), ?_⟩
  obtain ⟨-, -, -, -, -, -, e0, e2⟩ := idx_out (pt (32 + (i 0).val / 256) (by omega))
  have q0 := e0 (by rw [pt_val]; omega)
  rw [pt_val] at q0
  rw [mem_blk11]
  intro a
  match a with
  | ⟨0, _⟩ =>
    show win0_11.index _ (0 : Fin 2) * 256 ≤ (i 0).val ∧ (i 0).val < win0_11.index _ (0 : Fin 2) * 256 + 256
    rw [q0]; omega
  | ⟨1, _⟩ =>
    show win0_11.index _ (1 : Fin 2) * 40 ≤ (i 1).val ∧ (i 1).val < win0_11.index _ (1 : Fin 2) * 40 + 40
    rw [e2]; omega

/-- The decoder's array after the run. -/
theorem final11 : (dats m 0 c).arrAt 11 cfg0.N = GLg m c :=
  (dats m 0 c).arrAt_eq_of_cover 11 (GLg m c) (fun t hf => flushed11_eq m c t hf) (cover11)

end Cert.KernelIdeal.Body

end
-- ==== Proof.KI.Layout.lean ====
import proofs.«138326_g49246095016332_cont_8to1_c_632_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-!
Layout operations of a two-axis block read at an index given by its coordinates: a column of row values viewed as a
one-column matrix, a one-column matrix or a single entry copied across a matrix, and the sum along the rows' entries.
-/

variable {α : Type}

/-- A vector `[a]` viewed as the one-column matrix `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` copied across `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry `[1, 1]` copied across `[a, b]` reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum of a `256 × 4096` block along its second axis, from the zero word, is at row `r` the sum of the row's entries. -/
theorem rowSum_apply (src : FVec Ideal S256x4096 .f32) (h : S256x4096.Reduces [1] S256) (hφ : FKind.Formats .f32)
    (hacc : (0x00000000#32 : BitVec 32) = 0x00000000#32) (r : Fin 256) :
    multiReduction .add [1] S256 src 0x00000000#32 h hφ hacc (ix1 r) = ∑ k : Fin 4096, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

end Cert.KernelIdeal.Pay

end
-- ==== Proof.KI.Matmul.lean ====
import proofs.«138326_g49246095016332_cont_8to1_c_632_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-!
The block products of the kernel read at an index: each contracts the left operand's second axis with the right operand's
first, so its entry `(r, c)` is the sum over the shared coordinate `k` of left `(r, k)` times right `(k, c)`.
-/

/-- A `256 × 128` block times a `128 × 128` matrix, accumulated from zero, is at `(r, c)` the sum over `k` of the products of the entries `(r, k)` and `(k, c)`. -/
theorem matmul_256x128_128x128_apply {φ₁ φ₂ : FTy} (prec : Option ContractPrecision) (lhs : FVec Ideal S256x128 φ₁) (rhs : FVec Ideal S128x128 φ₂)
    (r : Fin 256) (c : Fin 128) :
    FloatOps.matmul dot_S256x128_S128x128_S256x128_1_0_0_1_n_n prec lhs rhs (constant S256x128 .f32 0x00000000#32) (ix2 r c)
      = ∑ k : Fin 128, lhs (ix2 r k) * rhs (ix2 k c) := by
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r c) ((contrEquiv1 dot_S256x128_S128x128_S256x128_1_0_0_1_n_n 128 rfl rfl).symm k) = ix2 r k :=
    funext fun a => Fin.ext (by
      match a with
      | ⟨0, _⟩ =>
        show (dot_S256x128_S128x128_S256x128_1_0_0_1_n_n.lhsIdx (ix2 r c) _ 0).val = r.val
        unfold DotDims.lhsIdx
        rw [dif_neg (show ¬(0 : Fin S256x128.rank) ∈ dot_S256x128_S128x128_S256x128_1_0_0_1_n_n.lhsBatch by decide),
          dif_pos (show (0 : Fin S256x128.rank) ∈ dot_S256x128_S128x128_S256x128_1_0_0_1_n_n.lhsNonContracting by decide)]
        rfl
      | ⟨1, _⟩ => exact (dot_S256x128_S128x128_S256x128_1_0_0_1_n_n.lhsIdx_val_of_single rfl _ _).trans hk)
  have er : dot_S256x128_S128x128_S256x128_1_0_0_1_n_n.rhsIdx (ix2 r c) ((contrEquiv1 dot_S256x128_S128x128_S256x128_1_0_0_1_n_n 128 rfl rfl).symm k) = ix2 k c :=
    funext fun a => Fin.ext (by
      match a with
      | ⟨0, _⟩ => exact (dot_S256x128_S128x128_S256x128_1_0_0_1_n_n.rhsIdx_val_of_single rfl _ _).trans hk
      | ⟨1, _⟩ =>
        show (dot_S256x128_S128x128_S256x128_1_0_0_1_n_n.rhsIdx (ix2 r c) _ 1).val = c.val
        unfold DotDims.rhsIdx
        rw [dif_neg (show ¬(1 : Fin S128x128.rank) ∈ dot_S256x128_S128x128_S256x128_1_0_0_1_n_n.rhsBatch by decide),
          dif_pos (show (1 : Fin S128x128.rank) ∈ dot_S256x128_S128x128_S256x128_1_0_0_1_n_n.rhsNonContracting by decide)]
        rfl)
  rw [el, er]

/-- A `256 × 4096` block times a `4096 × 128` matrix, accumulated from zero, is at `(r, c)` the sum over `k` of the products of the entries `(r, k)` and `(k, c)`. -/
theorem matmul_256x4096_4096x128_apply {φ₁ φ₂ : FTy} (prec : Option ContractPrecision) (lhs : FVec Ideal S256x4096 φ₁) (rhs : FVec Ideal S4096x128 φ₂)
    (r : Fin 256) (c : Fin 128) :
    FloatOps.matmul dot_S256x4096_S4096x128_S256x128_1_0_0_1_n_n prec lhs rhs (constant S256x128 .f32 0x00000000#32) (ix2 r c)
      = ∑ k : Fin 4096, lhs (ix2 r k) * rhs (ix2 k c) := by
  rw [Ideal.matmul_constant_zero_apply, ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 r c) ((contrEquiv1 dot_S256x4096_S4096x128_S256x128_1_0_0_1_n_n 4096 rfl rfl).symm k) = ix2 r k :=
    funext fun a => Fin.ext (by
      match a with
      | ⟨0, _⟩ =>
        show (dot_S256x4096_S4096x128_S256x128_1_0_0_1_n_n.lhsIdx (ix2 r c) _ 0).val = r.val
        unfold DotDims.lhsIdx
        rw [dif_neg (show ¬(0 : Fin S256x4096.rank) ∈ dot_S256x4096_S4096x128_S256x128_1_0_0_1_n_n.lhsBatch by decide),
          dif_pos (show (0 : Fin S256x4096.rank) ∈ dot_S256x4096_S4096x128_S256x128_1_0_0_1_n_n.lhsNonContracting by decide)]
        rfl
      | ⟨1, _⟩ => exact (dot_S256x4096_S4096x128_S256x128_1_0_0_1_n_n.lhsIdx_val_of_single rfl _ _).trans hk)
  have er : dot_S256x4096_S4096x128_S256x128_1_0_0_1_n_n.rhsIdx (ix2 r c) ((contrEquiv1 dot_S256x4096_S4096x128_S256x128_1_0_0_1_n_n 4096 rfl rfl).symm k) = ix2 k c :=
    funext fun a => Fin.ext (by
      match a with
      | ⟨0, _⟩ => exact (dot_S256x4096_S4096x128_S256x128_1_0_0_1_n_n.rhsIdx_val_of_single rfl _ _).trans hk
      | ⟨1, _⟩ =>
        show (dot_S256x4096_S4096x128_S256x128_1_0_0_1_n_n.rhsIdx (ix2 r c) _ 1).val = c.val
        unfold DotDims.rhsIdx
        rw [dif_neg (show ¬(1 : Fin S4096x128.rank) ∈ dot_S256x4096_S4096x128_S256x128_1_0_0_1_n_n.rhsBatch by decide),
          dif_pos (show (1 : Fin S4096x128.rank) ∈ dot_S256x4096_S4096x128_S256x128_1_0_0_1_n_n.rhsNonContracting by decide)]
        rfl)
  rw [el, er]

/-- A `256 × 128` block times a `128 × 40` matrix, accumulated from zero, is at `(r, c)` the sum over `k` of the products of the entries `(r, k)` and `(k, c)`. -/
theorem matmul_256x128_128x40_apply {φ₁ φ₂ : FTy} (prec : Option ContractPrecision) (lhs : FVec Ideal S256x128 φ₁) (rhs : FVec Ideal S128x40 φ₂)
    (r : Fin 256) (c : Fin 40) :
    FloatOps.matmul dot_S256x128_S128x40_S256x40_1_0_0_1_n_n prec lhs rhs (constant S256x40 .f32 0x00000000#32) (ix2 r c)
      = ∑ k : Fin 128, lhs (ix2 r k) * rhs (ix2 k c) := by
  rw [Ideal.matmul_constant_zero_apply, ← Equiv.sum_comp (contrEquiv1 dot_S256x128_S128x40_S256x40_1_0_0_1_n_n 128 rfl rfl).symm]
  refine Finset.sum_congr rfl fun k _ => ?_
  have hk := contrEquiv1_symm_val dot_S256x128_S128x40_S256x40_1_0_0_1_n_n 128 rfl rfl k
  have el : dot_S256x128_S128x40_S256x40_1_0_0_1_n_n.lhsIdx (ix2 r c) ((contrEquiv1 dot_S256x128_S128x40_S256x40_1_0_0_1_n_n 128 rfl rfl).symm k) = ix2 r k :=
    funext fun a => Fin.ext (by
      match a with
      | ⟨0, _⟩ =>
        show (dot_S256x128_S128x40_S256x40_1_0_0_1_n_n.lhsIdx (ix2 r c) _ 0).val = r.val
        unfold DotDims.lhsIdx
        rw [dif_neg (show ¬(0 : Fin S256x128.rank) ∈ dot_S256x128_S128x40_S256x40_1_0_0_1_n_n.lhsBatch by decide),
          dif_pos (show (0 : Fin S256x128.rank) ∈ dot_S256x128_S128x40_S256x40_1_0_0_1_n_n.lhsNonContracting by decide)]
        rfl
      | ⟨1, _⟩ => exact (dot_S256x128_S128x40_S256x40_1_0_0_1_n_n.lhsIdx_val_of_single rfl _ _).trans hk)
  have er : dot_S256x128_S128x40_S256x40_1_0_0_1_n_n.rhsIdx (ix2 r c) ((contrEquiv1 dot_S256x128_S128x40_S256x40_1_0_0_1_n_n 128 rfl rfl).symm k) = ix2 k c :=
    funext fun a => Fin.ext (by
      match a with
      | ⟨0, _⟩ => exact (dot_S256x128_S128x40_S256x40_1_0_0_1_n_n.rhsIdx_val_of_single rfl _ _).trans hk
      | ⟨1, _⟩ =>
        show (dot_S256x128_S128x40_S256x40_1_0_0_1_n_n.rhsIdx (ix2 r c) _ 1).val = c.val
        unfold DotDims.rhsIdx
        rw [dif_neg (show ¬(1 : Fin S128x40.rank) ∈ dot_S256x128_S128x40_S256x40_1_0_0_1_n_n.rhsBatch by decide),
          dif_pos (show (1 : Fin S128x40.rank) ∈ dot_S256x128_S128x40_S256x40_1_0_0_1_n_n.rhsNonContracting by decide)]
        rfl)
  rw [el, er]

/-- A `256 × 4096` block times a `4096 × 40` matrix, accumulated from zero, is at `(r, c)` the sum over `k` of the products of the entries `(r, k)` and `(k, c)`. -/
theorem matmul_256x4096_4096x40_apply {φ₁ φ₂ : FTy} (prec : Option ContractPrecision) (lhs : FVec Ideal S256x4096 φ₁) (rhs : FVec Ideal S4096x40 φ₂)
    (r : Fin 256) (c : Fin 40) :
    FloatOps.matmul dot_S256x4096_S4096x40_S256x40_1_0_0_1_n_n prec lhs rhs (constant S256x40 .f32 0x00000000#32) (ix2 r c)
      = ∑ k : Fin 4096, lhs (ix2 r k) * rhs (ix2 k c) := by
  rw [Ideal.matmul_constant_zero_apply, ← Equiv.sum_comp (contrEquiv1 dot_S256x4096_S4096x40_S256x40_1_0_0_1_n_n 4096 rfl rfl).symm]
  refine Finset.sum_congr rfl fun k _ => ?_
  have hk := contrEquiv1_symm_val dot_S256x4096_S4096x40_S256x40_1_0_0_1_n_n 4096 rfl rfl k
  have el : dot_S256x4096_S4096x40_S256x40_1_0_0_1_n_n.lhsIdx (ix2 r c) ((contrEquiv1 dot_S256x4096_S4096x40_S256x40_1_0_0_1_n_n 4096 rfl rfl).symm k) = ix2 r k :=
    funext fun a => Fin.ext (by
      match a with
      | ⟨0, _⟩ =>
        show (dot_S256x4096_S4096x40_S256x40_1_0_0_1_n_n.lhsIdx (ix2 r c) _ 0).val = r.val
        unfold DotDims.lhsIdx
        rw [dif_neg (show ¬(0 : Fin S256x4096.rank) ∈ dot_S256x4096_S4096x40_S256x40_1_0_0_1_n_n.lhsBatch by decide),
          dif_pos (show (0 : Fin S256x4096.rank) ∈ dot_S256x4096_S4096x40_S256x40_1_0_0_1_n_n.lhsNonContracting by decide)]
        rfl
      | ⟨1, _⟩ => exact (dot_S256x4096_S4096x40_S256x40_1_0_0_1_n_n.lhsIdx_val_of_single rfl _ _).trans hk)
  have er : dot_S256x4096_S4096x40_S256x40_1_0_0_1_n_n.rhsIdx (ix2 r c) ((contrEquiv1 dot_S256x4096_S4096x40_S256x40_1_0_0_1_n_n 4096 rfl rfl).symm k) = ix2 k c :=
    funext fun a => Fin.ext (by
      match a with
      | ⟨0, _⟩ => exact (dot_S256x4096_S4096x40_S256x40_1_0_0_1_n_n.rhsIdx_val_of_single rfl _ _).trans hk
      | ⟨1, _⟩ =>
        show (dot_S256x4096_S4096x40_S256x40_1_0_0_1_n_n.rhsIdx (ix2 r c) _ 1).val = c.val
        unfold DotDims.rhsIdx
        rw [dif_neg (show ¬(1 : Fin S4096x40.rank) ∈ dot_S256x4096_S4096x40_S256x40_1_0_0_1_n_n.rhsBatch by decide),
          dif_pos (show (1 : Fin S4096x40.rank) ∈ dot_S256x4096_S4096x40_S256x40_1_0_0_1_n_n.rhsNonContracting by decide)]
        rfl)
  rw [el, er]

end Cert.KernelIdeal.Pay

end
-- ==== Proof.KI.Payloads0.lean ====
import proofs.«138326_g49246095016332_cont_8to1_c_632_4_alg».proof.Proof.Gen.KernelIdeal.Skeleton
import proofs.«138326_g49246095016332_cont_8to1_c_632_4_alg».proof.Proof.KI.Layout
import proofs.«138326_g49246095016332_cont_8to1_c_632_4_alg».proof.Proof.KI.Matmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-!
The first phase's stored values read at an index: the degree of a row, its inverse square root where positive, the
adjacency scaled by it on the rows, and the features' product with the first weight matrix scaled by it.
-/

/-- The degree of row `r` of a block of rows: the sum of the row's entries plus the self-loop weight. -/
def degB (la : Vec Ideal S1x1 .f32) (a : Vec Ideal S256x4096 .f32) (r : Fin 256) : EReal :=
  (∑ k : Fin 4096, a (ix2 r k)) + la (ix2 (0 : Fin 1) (0 : Fin 1))

/-- The inverse square root of the degree where the degree is positive, `0` elsewhere. -/
def disB (la : Vec Ideal S1x1 .f32) (a : Vec Ideal S256x4096 .f32) (r : Fin 256) : EReal :=
  if 0 < degB la a r then Ideal.rsqrt (degB la a r) else 0

/-- "Greater than zero" selecting the inverse square root, else zero, on one extended real: the `if` on `0 < x`. -/
theorem select_rsqrt (x : Ideal .f32) :
    Scalar.select (FloatOps.cmpf (F := Ideal) (φ := .f32) .ogt x (Scalar.ofBits .f32 0x00000000#32))
      (FloatOps.rsqrt (F := Ideal) (φ := .f32) x) (Scalar.ofBits .f32 0x00000000#32)
      = if 0 < x then Ideal.rsqrt x else 0 := by
  have hz : (Scalar.ofBits (F := Ideal) .f32 0x00000000#32 : EReal) = 0 := Ideal.ofBits_zero_f32
  rw [Ideal.cmpf_def, Ideal.rsqrt_def, hz]
  unfold Scalar.select Ideal.cmp
  by_cases h : 0 < x
  · simp [h]
  · simp [h]

/-- The self-loop weight's block passes through its identity reshape. -/
theorem pay1_apply (v2 : Vec Ideal S1x1 .f32) :
    k0_pay1 (F := Ideal) v2 (ix2 (0 : Fin 1) (0 : Fin 1)) = v2 (ix2 0 0) := by
  unfold k0_pay1
  exact congrFun (shapeCast_self v2 _) _

/-- The adjacency block passes through its identity reshape. -/
theorem pay2_eq (a : Vec Ideal S256x4096 .f32) : k0_pay2 (F := Ideal) a = a := by
  unfold k0_pay2
  exact shapeCast_self a _

/-- The degree column read at row `r`. -/
theorem deg_read (la : Vec Ideal S1x1 .f32) (a : Vec Ideal S256x4096 .f32) (r : Fin 256) :
    addf (shapeCast S256x1 (multiReduction .add [1] S256 (k0_pay2 (F := Ideal) a) 0x00000000#32 reduces_S256x4096_S256 (.inl rfl) rfl)
        shapeCasts_S256_S256x1) (broadcastTo S256x1 (k0_pay1 (F := Ideal) la) broadcasts_S1x1_S256x1) (ix2 r (0 : Fin 1))
      = degB la a r := by
  refine congrArg₂ (· + ·) ?_ ?_
  · refine (shapeCast_a_a1_apply _ shapeCasts_S256_S256x1 r 0).trans ?_
    refine (rowSum_apply (k0_pay2 (F := Ideal) a) reduces_S256x4096_S256 (.inl rfl) rfl r).trans ?_
    exact Finset.sum_congr rfl fun k _ => congrFun (pay2_eq a) _
  · refine (broadcastTo_11_ab_apply _ broadcasts_S1x1_S256x1 r 0).trans ?_
    exact pay1_apply la

/-- The normalising column at row `r` is the inverse square root of the row's degree where that is positive. -/
theorem pay3_apply (la : Vec Ideal S1x1 .f32) (a : Vec Ideal S256x4096 .f32) (r : Fin 256) :
    k0_pay3 (F := Ideal) la a (ix2 r (0 : Fin 1)) = disB la a r :=
  (select_rsqrt _).trans (congrArg (fun x : EReal => if 0 < x then Ideal.rsqrt x else 0) (deg_read la a r))

/-- The row-scaled adjacency block: entry `(r, k)` is the adjacency entry times the row's normalising factor. -/
theorem pay4_apply (la : Vec Ideal S1x1 .f32) (a : Vec Ideal S256x4096 .f32) (r : Fin 256) (k : Fin 4096) :
    k0_pay4 (F := Ideal) la a (ix2 r k) = a (ix2 r k) * disB la a r := by
  unfold k0_pay4
  refine (congrFun (shapeCast_self _ _) _).trans ?_
  show k0_pay2 (F := Ideal) a (ix2 r k) * broadcastTo S256x4096 (k0_pay3 (F := Ideal) la a) broadcasts_S256x1_S256x4096 (ix2 r k) = _
  refine congrArg₂ (· * ·) (congrFun (pay2_eq a) _) ?_
  exact (broadcastTo_a1_ab_apply _ broadcasts_S256x1_S256x4096 r k).trans (pay3_apply la a r)

/-- The row-scaled features: entry `(r, c)` is the row's normalising factor times the entry of the features' product
with the first weight matrix. -/
theorem pay5_apply (la : Vec Ideal S1x1 .f32) (a : Vec Ideal S256x4096 .f32) (xb : Vec Ideal S256x128 .f32)
    (w0 : Vec Ideal S128x128 .f32) (r : Fin 256) (c : Fin 128) :
    k0_pay5 (F := Ideal) la a xb w0 (ix2 r c) = disB la a r * ∑ k : Fin 128, xb (ix2 r k) * w0 (ix2 k c) := by
  unfold k0_pay5
  refine (congrFun (shapeCast_self _ _) _).trans ?_
  show broadcastTo S256x128 (k0_pay3 (F := Ideal) la a) broadcasts_S256x1_S256x128 (ix2 r c)
      * FloatOps.matmul dot_S256x128_S128x128_S256x128_1_0_0_1_n_n none (shapeCast S256x128 xb shapeCasts_S256x128_S256x128) w0
          (constant S256x128 .f32 0x00000000#32) (ix2 r c) = _
  refine congrArg₂ (· * ·) ((broadcastTo_a1_ab_apply _ broadcasts_S256x1_S256x128 r c).trans (pay3_apply la a r)) ?_
  refine (matmul_256x128_128x128_apply none _ w0 r c).trans ?_
  exact Finset.sum_congr rfl fun k _ => congrArg (· * w0 (ix2 k c)) (congrFun (shapeCast_self xb _) _)

/-- The normalising factor copied along a row of `128` entries. -/
theorem pay6_apply (la : Vec Ideal S1x1 .f32) (a : Vec Ideal S256x4096 .f32) (r : Fin 256) (c : Fin 128) :
    k0_pay6 (F := Ideal) la a (ix2 r c) = disB la a r := by
  unfold k0_pay6
  refine (congrFun (shapeCast_self _ _) _).trans ?_
  refine (broadcastTo_a1_ab_apply _ broadcasts_S256x1_S256x128 r c).trans ?_
  refine (congrFun (shapeCast_self _ _) _).trans ?_
  exact pay3_apply la a r

end Cert.KernelIdeal.Pay

end
-- ==== Proof.KI.Payloads1.lean ====
import proofs.«138326_g49246095016332_cont_8to1_c_632_4_alg».proof.Proof.Gen.KernelIdeal.Skeleton
import proofs.«138326_g49246095016332_cont_8to1_c_632_4_alg».proof.Proof.KI.Layout
import proofs.«138326_g49246095016332_cont_8to1_c_632_4_alg».proof.Proof.KI.Matmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-!
The second and third phases' stored values read at an index: the encoder (the scaled adjacency times the scaled features,
plus the diagonal term, plus the bias, rectified), the node head, the decoder's row-scaled input, its diagonal term and
the decoder's sum.
-/

/-- The encoder's block: at `(r, c)` the sum over the nodes of the scaled adjacency times the scaled features, plus the
diagonal term, plus the bias, and the maximum of that with zero. -/
theorem pay9_apply (v3 : FVec Ideal S1x1 .f32) (v14 : Vec Ideal S256x4096 .bf16) (v15 : Vec Ideal S4096x128 .bf16)
    (v18 : Vec Ideal S256x128 .f32) (v20 : Vec Ideal S256x128 .bf16) (v26 : Vec Ideal S1x128 .f32)
    (r : Fin 256) (c : Fin 128) :
    k0_pay9 (F := Ideal) v3 v14 v15 v18 v20 v26 (ix2 r c)
      = max ((∑ j : Fin 4096, v14 (ix2 r j) * v15 (ix2 j c)) + v3 (ix2 0 0) * v18 (ix2 r c) * v20 (ix2 r c)
          + v26 (ix2 (0 : Fin 1) c)) 0 := by
  unfold k0_pay9
  show max (matmul (F := Ideal) dot_S256x4096_S4096x128_S256x128_1_0_0_1_n_n none v14 v15 (constant S256x128 .f32 0x00000000#32) (ix2 r c)
        + broadcastTo S256x128 v3 broadcasts_S1x1_S256x128 (ix2 r c) * v18 (ix2 r c) * v20 (ix2 r c)
        + broadcastTo S256x128 (shapeCast S1x128 v26 shapeCasts_S1x128_S1x128) broadcasts_S1x128_S256x128 (ix2 r c))
      (Ideal.ofBits .f32 0x00000000#32) = _
  refine congrArg₂ max (congrArg₂ (· + ·) (congrArg₂ (· + ·) ?_ ?_) ?_) Ideal.ofBits_zero_f32
  · exact matmul_256x4096_4096x128_apply none v14 v15 r c
  · exact congrArg (· * v18 (ix2 r c) * v20 (ix2 r c)) (broadcastTo_11_ab_apply v3 broadcasts_S1x1_S256x128 r c)
  · exact (broadcastTo_1b_ab_apply _ broadcasts_S1x128_S256x128 r c).trans (congrFun (shapeCast_self v26 _) _)

/-- The node head's block: the encoder's block times the head's weights, plus its bias. -/
theorem pay10_apply (v3 : FVec Ideal S1x1 .f32) (v14 : Vec Ideal S256x4096 .bf16) (v15 : Vec Ideal S4096x128 .bf16)
    (v18 : Vec Ideal S256x128 .f32) (v20 : Vec Ideal S256x128 .bf16) (v26 : Vec Ideal S1x128 .f32)
    (v33 : Vec Ideal S128x40 .f32) (v35 : Vec Ideal S1x40 .f32) (r : Fin 256) (c : Fin 40) :
    k0_pay10 (F := Ideal) v3 v14 v15 v18 v20 v26 v33 v35 (ix2 r c)
      = (∑ k : Fin 128, k0_pay9 (F := Ideal) v3 v14 v15 v18 v20 v26 (ix2 r k) * v33 (ix2 k c)) + v35 (ix2 (0 : Fin 1) c) := by
  unfold k0_pay10
  show matmul (F := Ideal) dot_S256x128_S128x40_S256x40_1_0_0_1_n_n none (k0_pay9 (F := Ideal) v3 v14 v15 v18 v20 v26) v33
        (constant S256x40 .f32 0x00000000#32) (ix2 r c)
      + broadcastTo S256x40 (shapeCast S1x40 v35 shapeCasts_S1x40_S1x40) broadcasts_S1x40_S256x40 (ix2 r c) = _
  refine congrArg₂ (· + ·) (matmul_256x128_128x40_apply none _ v33 r c) ?_
  exact (broadcastTo_1b_ab_apply _ broadcasts_S1x40_S256x40 r c).trans (congrFun (shapeCast_self v35 _) _)

/-- The first `40` columns of the normalising factor's block. -/
theorem pay11_apply (v18 : Vec Ideal S256x128 .f32) (r : Fin 256) (c : Fin 40) :
    k0_pay11 (F := Ideal) v18 (ix2 r c) = v18 (ix2 r (⟨c.val, by omega⟩ : Fin 128)) := by
  unfold k0_pay11
  exact slice2_axis1_apply 0 v18 slices_S256x128_o0_0_S256x40 r c ⟨c.val, by omega⟩ (Nat.zero_add _).symm

/-- The decoder's row-scaled input: the normalising factor times the encoder's block times the decoder's weights. -/
theorem pay12_apply (v3 : FVec Ideal S1x1 .f32) (v14 : Vec Ideal S256x4096 .bf16) (v15 : Vec Ideal S4096x128 .bf16)
    (v18 : Vec Ideal S256x128 .f32) (v20 : Vec Ideal S256x128 .bf16) (v26 : Vec Ideal S1x128 .f32)
    (v40 : Vec Ideal S128x40 .f32) (r : Fin 256) (c : Fin 40) :
    k0_pay12 (F := Ideal) v3 v14 v15 v18 v20 v26 v40 (ix2 r c)
      = v18 (ix2 r (⟨c.val, by omega⟩ : Fin 128))
        * ∑ k : Fin 128, k0_pay9 (F := Ideal) v3 v14 v15 v18 v20 v26 (ix2 r k) * v40 (ix2 k c) := by
  unfold k0_pay12
  show k0_pay11 (F := Ideal) v18 (ix2 r c)
      * matmul (F := Ideal) dot_S256x128_S128x40_S256x40_1_0_0_1_n_n none (k0_pay9 (F := Ideal) v3 v14 v15 v18 v20 v26) v40
          (constant S256x40 .f32 0x00000000#32) (ix2 r c) = _
  exact congrArg₂ (· * ·) (pay11_apply v18 r c) (matmul_256x128_128x40_apply none _ v40 r c)

/-- The same value kept in the narrower float format: on extended reals the change of format is the identity. -/
theorem pay13_apply (v3 : FVec Ideal S1x1 .f32) (v14 : Vec Ideal S256x4096 .bf16) (v15 : Vec Ideal S4096x128 .bf16)
    (v18 : Vec Ideal S256x128 .f32) (v20 : Vec Ideal S256x128 .bf16) (v26 : Vec Ideal S1x128 .f32)
    (v40 : Vec Ideal S128x40 .f32) (r : Fin 256) (c : Fin 40) :
    k0_pay13 (F := Ideal) v3 v14 v15 v18 v20 v26 v40 (ix2 r c) = k0_pay12 (F := Ideal) v3 v14 v15 v18 v20 v26 v40 (ix2 r c) := by
  unfold k0_pay13
  exact (congrFun (shapeCast_self _ _) _).trans (truncf_apply _ _ _)

/-- The decoder's diagonal term: the self-loop weight times the two factors, entry by entry. -/
theorem pay7_apply (v2 : Vec Ideal S1x1 .f32) (v42 v43 : FVec Ideal S256x40 .f32) (r : Fin 256) (c : Fin 40) :
    k0_pay7 (F := Ideal) v2 v42 v43 (ix2 r c) = v2 (ix2 0 0) * v42 (ix2 r c) * v43 (ix2 r c) := by
  unfold k0_pay7 k0_pay1
  refine (congrFun (shapeCast_self _ _) _).trans ?_
  show broadcastTo S256x40 (shapeCast S1x1 v2 shapeCasts_S1x1_S1x1) broadcasts_S1x1_S256x40 (ix2 r c) * v42 (ix2 r c) * v43 (ix2 r c) = _
  exact congrArg (· * v42 (ix2 r c) * v43 (ix2 r c))
    ((broadcastTo_11_ab_apply _ broadcasts_S1x1_S256x40 r c).trans (congrFun (shapeCast_self v2 _) _))

/-- The decoder's block: the scaled adjacency times the decoder's row-scaled input, plus the diagonal term, plus the bias. -/
theorem pay8_apply (v14 : Vec Ideal S256x4096 .bf16) (v15 : Vec Ideal S4096x40 .bf16) (v18 : Vec Ideal S256x40 .f32)
    (v20 : Vec Ideal S1x40 .f32) (r : Fin 256) (c : Fin 40) :
    k0_pay8 (F := Ideal) v14 v15 v18 v20 (ix2 r c)
      = (∑ j : Fin 4096, v14 (ix2 r j) * v15 (ix2 j c)) + v18 (ix2 r c) + v20 (ix2 (0 : Fin 1) c) := by
  unfold k0_pay8
  show matmul (F := Ideal) dot_S256x4096_S4096x40_S256x40_1_0_0_1_n_n none v14 v15 (constant S256x40 .f32 0x00000000#32) (ix2 r c)
        + v18 (ix2 r c)
      + broadcastTo S256x40 (shapeCast S1x40 v20 shapeCasts_S1x40_S1x40) broadcasts_S1x40_S256x40 (ix2 r c) = _
  refine congrArg₂ (· + ·) (congrArg (· + v18 (ix2 r c)) (matmul_256x4096_4096x40_apply none v14 v15 r c)) ?_
  exact (broadcastTo_1b_ab_apply _ broadcasts_S1x40_S256x40 r c).trans (congrFun (shapeCast_self v20 _) _)

end Cert.KernelIdeal.Pay

end
-- ==== Proof.KI.Payloads.lean ====
import proofs.«138326_g49246095016332_cont_8to1_c_632_4_alg».proof.Proof.KI.Payloads0
import proofs.«138326_g49246095016332_cont_8to1_c_632_4_alg».proof.Proof.KI.Payloads1

/-!
The kernel's stored values read at an index, gathered: the first phase (the degrees, their inverse square roots, the scaled
adjacency and features) and the later phases (the encoder, the node head and the decoder).
-/
-- ==== Proof.KI.HostReads.lean ====
import proofs.«138326_g49246095016332_cont_8to1_c_632_4_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

/-!
The host operations around the region, read entry by entry. Before the region the program reshapes six of its
arguments: each reshape only adds or drops a leading axis of extent one, so the reshaped array at `(r, k)` (or `(0, k)`, or
`(0, 0)`) is the argument at `(0, r, k)` (or `k`, or its single entry). After the region one broadcast puts a leading axis of
extent one in front of a region's result: at `(0, r, k)` it is that result at `(r, k)`.
-/

noncomputable section

namespace Cert.KernelIdeal.HostReads

open Idealize.ShloMosaic Idealize.ShloMosaic.ValueIdx Cert.KernelIdeal Cert.KernelIdeal.Gen
open Idealize.ShloMosaic.TcCoe Idealize.ShloMosaic.StableHlo

variable {F : FTy → Type} [FloatOps F] (m : (ℓ : Loc nD τ sig) → Buf (Elt F) ℓ) (c : Dev nD)

/-! ## The six reshapes before the region -/

/-- The first reshaped array is the `[1, 4096, 4096]` argument cast to `[4096, 4096]`. -/
theorem V_v0_eq : (V m c main_v0 : S4096x4096.Idx → _) =
    shapeCast S4096x4096 (m ((c : Thread nD τ).loc main_arg1) : S1x4096x4096.Idx → _) shapeCasts_S1x4096x4096_S4096x4096 := by
  show StableHlo.after hostOps0 (fun b => m (c, b)) (Proc.devRef .tc main_v0) = _
  after_results
  rfl

/-- At `(r, k)` it is the argument at `(0, r, k)`. -/
theorem V_v0_apply (r k : Fin 4096) : (V m c main_v0 : S4096x4096.Idx → _) (ix2 r k) = (m ((c : Thread nD τ).loc main_arg1) : S1x4096x4096.Idx → _) (ix3 (0 : Fin 1) r k) := by
  rw [V_v0_eq]
  exact shapeCast_1ab_ab_apply _ _ r k

/-- The second reshaped array is the `[1, 4096, 128]` argument cast to `[4096, 128]`. -/
theorem V_v1_eq : (V m c main_v1 : S4096x128.Idx → _) =
    shapeCast S4096x128 (m ((c : Thread nD τ).loc main_arg0) : S1x4096x128.Idx → _) shapeCasts_S1x4096x128_S4096x128 := by
  show StableHlo.after hostOps0 (fun b => m (c, b)) (Proc.devRef .tc main_v1) = _
  after_results
  rfl

/-- At `(r, k)` it is the argument at `(0, r, k)`. -/
theorem V_v1_apply (r : Fin 4096) (k : Fin 128) : (V m c main_v1 : S4096x128.Idx → _) (ix2 r k) = (m ((c : Thread nD τ).loc main_arg0) : S1x4096x128.Idx → _) (ix3 (0 : Fin 1) r k) := by
  rw [V_v1_eq]
  exact shapeCast_1ab_ab_apply _ _ r k

/-- The third reshaped array is the scalar argument cast to `[1, 1]`. -/
theorem V_v2_eq : (V m c main_v2 : S1x1.Idx → _) =
    shapeCast S1x1 (m ((c : Thread nD τ).loc main_arg2) : S_.Idx → _) shapeCasts_S_S1x1 := by
  show StableHlo.after hostOps0 (fun b => m (c, b)) (Proc.devRef .tc main_v2) = _
  after_results
  rfl

/-- Its one entry is the scalar: both arrays have one entry, at row-major position `0`. -/
theorem V_v2_apply : (V m c main_v2 : S1x1.Idx → _) (ix2 (0 : Fin 1) (0 : Fin 1)) = (m ((c : Thread nD τ).loc main_arg2) : S_.Idx → _) ix0 := by
  rw [V_v2_eq]
  have h1 : ((S_ : Shape).rowMajor ix0).val = 0 := by
    have hlt := ((S_ : Shape).rowMajor ix0).isLt
    have e : (S_ : Shape).numel = 1 := by decide
    omega
  have h2 : ((S1x1 : Shape).rowMajor (ix2 (0 : Fin 1) (0 : Fin 1))).val = 0 := by
    rw [Shape.rowMajor_val_two]; rfl
  exact shapeCast_apply _ _ _ _ (h1.trans h2.symm)

/-- The fourth reshaped array is the `[128]` argument cast to `[1, 128]`. -/
theorem V_v3_eq : (V m c main_v3 : S1x128.Idx → _) =
    shapeCast S1x128 (m ((c : Thread nD τ).loc main_arg4) : S128.Idx → _) shapeCasts_S128_S1x128 := by
  show StableHlo.after hostOps0 (fun b => m (c, b)) (Proc.devRef .tc main_v3) = _
  after_results
  rfl

/-- At `(0, k)` it is the argument at `k`. -/
theorem V_v3_apply (k : Fin 128) : (V m c main_v3 : S1x128.Idx → _) (ix2 (0 : Fin 1) k) = (m ((c : Thread nD τ).loc main_arg4) : S128.Idx → _) (ix1 k) := by
  rw [V_v3_eq]
  exact shapeCast_a_1a_apply _ _ (0 : Fin 1) k

/-- The fifth reshaped array is a `[40]` argument cast to `[1, 40]`. -/
theorem V_v4_eq : (V m c main_v4 : S1x40.Idx → _) =
    shapeCast S1x40 (m ((c : Thread nD τ).loc main_arg6) : S40.Idx → _) shapeCasts_S40_S1x40 := by
  show StableHlo.after hostOps0 (fun b => m (c, b)) (Proc.devRef .tc main_v4) = _
  after_results
  rfl

/-- At `(0, k)` it is the argument at `k`. -/
theorem V_v4_apply (k : Fin 40) : (V m c main_v4 : S1x40.Idx → _) (ix2 (0 : Fin 1) k) = (m ((c : Thread nD τ).loc main_arg6) : S40.Idx → _) (ix1 k) := by
  rw [V_v4_eq]
  exact shapeCast_a_1a_apply _ _ (0 : Fin 1) k

/-- The sixth reshaped array is the other `[40]` argument cast to `[1, 40]`. -/
theorem V_v5_eq : (V m c main_v5 : S1x40.Idx → _) =
    shapeCast S1x40 (m ((c : Thread nD τ).loc main_arg8) : S40.Idx → _) shapeCasts_S40_S1x40 := by
  show StableHlo.after hostOps0 (fun b => m (c, b)) (Proc.devRef .tc main_v5) = _
  after_results
  rfl

/-- At `(0, k)` it is the argument at `k`. -/
theorem V_v5_apply (k : Fin 40) : (V m c main_v5 : S1x40.Idx → _) (ix2 (0 : Fin 1) k) = (m ((c : Thread nD τ).loc main_arg8) : S40.Idx → _) (ix1 k) := by
  rw [V_v5_eq]
  exact shapeCast_a_1a_apply _ _ (0 : Fin 1) k

/-! ## The broadcast after the region -/

/-- The program's last array is the region's second result with a leading axis of extent one put in front: at `(0, r, k)` it
    is that result at `(r, k)`. -/
theorem tail_v7_apply (dats : (p : Fin 1) → (c : Dev nD) → Pipeline.Dat τ (Elt F) Unit ℕ (UR sig nD τ) ℕ (cfgs p) c) (r : Fin 4096) (k : Fin 40) :
    (Pipeline.afterTail₀ cfgs dats 0 (V0 m) [hostOps1] c main_v7 : S1x4096x40.Idx → _) (ix3 (0 : Fin 1) r k) = ((dats 0 c).arrAt 10 cfg0.N : S4096x40.Idx → _) (ix2 r k) := by
  unfold Pipeline.afterTail₀
  show (StableHlo.after hostOps1 _ (Proc.devRef .tc main_v7) : S1x4096x40.Idx → _) _ = _
  after_results
  refine (broadcastInDim_apply _ _ _ _ (ix2 r k) ?_).trans ?_
  · intro a; fin_cases a <;> rfl
  · exact congrFun (Pipeline.withArrays_arr spec0 launch0.win.arr_inj c _ _ 10) (ix2 r k)

end Cert.KernelIdeal.HostReads

end
-- ==== Proof.KI.BlockReads.lean ====
import proofs.«138326_g49246095016332_cont_8to1_c_632_4_alg».proof.Proof.KI.Tracked
import Idealize.ShloMosaic.Lib.Pipeline.Value
import Idealize.ShloMosaic.Lib.ValueIdx

set_option maxRecDepth 16384

/-!
The nine input blocks at a grid point, read entry by entry off the arrays the region finds.

An entry of a block sits in its array, on each axis, at the block's index times the block's extent plus the entry's own
coordinate. Seven of the nine windows have a single block, at index `(0, 0)`, which is the whole array: the block at
`(a, b)` is the array at `(a, b)`. The two row-blocked windows (256 rows a block) have, at a point `t < 16`, block index
`(t, 0)`: the block at `(r, k)` is the array at `(256·t + r, k)`.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F] (m : (ℓ : Loc nD τ sig) → Buf (Elt F) ℓ) (c : Dev nD)

/-! ## The block indices, decided once over the 48 grid points -/

/-- The two row-blocked windows: in the first 16 points the row index is the point's number; the column index is always
    zero. -/
theorem idx_rows : ∀ t : Fin cfg0.N, (t.val < 16 → win0_1.index t (0 : Fin 2) = t.val) ∧ win0_1.index t (1 : Fin 2) = 0
    ∧ (t.val < 16 → win0_2.index t (0 : Fin 2) = t.val) ∧ win0_2.index t (1 : Fin 2) = 0 :=
  (by decide +kernel : ∀ t : Fin grid0.N, _)

/-- The seven single-block windows: the block index is `(0, 0)` at every point. -/
theorem idx_whole : ∀ t : Fin cfg0.N, win0_0.index t (0 : Fin 2) = 0 ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The two row-blocked windows -/

/-- The adjacency block at a point `t < 16` is rows `256·t … 256·t + 255` of its array. -/
theorem xAdj_apply (t : Fin cfg0.N) (ht : t.val < 16) (r : Fin 256) (k : Fin 4096) :
    xAdj m c t (ix2 r k) = (V m c main_v0 : S4096x4096.Idx → _) (ix2 (⟨256 * t.val + r.val, by omega⟩ : Fin 4096) k) := by
  obtain ⟨e0, e1, -, -⟩ := idx_rows t
  show V m c main_v0 (((cfg0.win 1).blk t).view.emb (ix2 r k)) = V m c main_v0 _
  refine congrArg (V m c main_v0) (funext fun a => Fin.ext ?_)
  match a with
  | ⟨0, _⟩ => show win0_1.index t (0 : Fin 2) * 256 + 1 * r.val = 256 * t.val + r.val; rw [e0 ht]; omega
  | ⟨1, _⟩ => show win0_1.index t (1 : Fin 2) * 4096 + 1 * k.val = k.val; rw [e1]; omega

/-- The feature block at a point `t < 16` is rows `256·t … 256·t + 255` of its array. -/
theorem xX_apply (t : Fin cfg0.N) (ht : t.val < 16) (r : Fin 256) (k : Fin 128) :
    xX m c t (ix2 r k) = (V m c main_v1 : S4096x128.Idx → _) (ix2 (⟨256 * t.val + r.val, by omega⟩ : Fin 4096) k) := by
  obtain ⟨-, -, e0, e1⟩ := idx_rows t
  show V m c main_v1 (((cfg0.win 2).blk t).view.emb (ix2 r k)) = V m c main_v1 _
  refine congrArg (V m c main_v1) (funext fun a => Fin.ext ?_)
  match a with
  | ⟨0, _⟩ => show win0_2.index t (0 : Fin 2) * 256 + 1 * r.val = 256 * t.val + r.val; rw [e0 ht]; omega
  | ⟨1, _⟩ => show win0_2.index t (1 : Fin 2) * 128 + 1 * k.val = k.val; rw [e1]; omega

/-! ## The seven single-block windows: the block is the whole array -/

/-- The self-loop weight's block is its `[1, 1]` array. -/
theorem xLa_apply (t : Fin cfg0.N) : xLa m c t (ix2 (0 : Fin 1) (0 : Fin 1)) = (V m c main_v2 : S1x1.Idx → _) (ix2 0 0) := by
  obtain ⟨e0, e1, -⟩ := idx_whole t
  show V m c main_v2 (((cfg0.win 0).blk t).view.emb (ix2 (0 : Fin 1) (0 : Fin 1))) = V m c main_v2 _
  refine congrArg (V m c main_v2) (funext fun a => Fin.ext ?_)
  match a with
  | ⟨0, _⟩ => show win0_0.index t (0 : Fin 2) * 1 + 1 * 0 = 0; rw [e0]
  | ⟨1, _⟩ => show win0_0.index t (1 : Fin 2) * 1 + 1 * 0 = 0; rw [e1]

/-- The first weight matrix's block is its array. -/
theorem xW0_apply (t : Fin cfg0.N) (a b : Fin 128) : xW0 m c t (ix2 a b) = (V m c main_arg3 : S128x128.Idx → _) (ix2 a b) := by
  obtain ⟨-, -, e0, e1, -⟩ := idx_whole t
  show V m c main_arg3 (((cfg0.win 3).blk t).view.emb (ix2 a b)) = V m c main_arg3 _
  refine congrArg (V m c main_arg3) (funext fun d => Fin.ext ?_)
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- The decoder weight matrix's block is its array. -/
theorem xWd_apply (t : Fin cfg0.N) (a : Fin 128) (b : Fin 40) : xWd m c t (ix2 a b) = (V m c main_arg5 : S128x40.Idx → _) (ix2 a b) := by
  obtain ⟨-, -, -, -, e0, e1, -⟩ := idx_whole t
  show V m c main_arg5 (((cfg0.win 4).blk t).view.emb (ix2 a b)) = V m c main_arg5 _
  refine congrArg (V m c main_arg5) (funext fun d => Fin.ext ?_)
  match d with
  | ⟨0, _⟩ => show win0_4.index t (0 : Fin 2) * 128 + 1 * a.val = a.val; rw [e0]; omega
  | ⟨1, _⟩ => show win0_4.index t (1 : Fin 2) * 40 + 1 * b.val = b.val; rw [e1]; omega

/-- The node head's weight matrix's block is its array. -/
theorem xMw_apply (t : Fin cfg0.N) (a : Fin 128) (b : Fin 40) : xMw m c t (ix2 a b) = (V m c main_arg7 : S128x40.Idx → _) (ix2 a b) := by
  obtain ⟨-, -, -, -, -, -, e0, e1, -⟩ := idx_whole t
  show V m c main_arg7 (((cfg0.win 5).blk t).view.emb (ix2 a b)) = V m c main_arg7 _
  refine congrArg (V m c main_arg7) (funext fun d => Fin.ext ?_)
  match d with
  | ⟨0, _⟩ => show win0_5.index t (0 : Fin 2) * 128 + 1 * a.val = a.val; rw [e0]; omega
  | ⟨1, _⟩ => show win0_5.index t (1 : Fin 2) * 40 + 1 * b.val = b.val; rw [e1]; omega

/-- The encoder bias's block is its `[1, 128]` array. -/
theorem xB0_apply (t : Fin cfg0.N) (b : Fin 128) : xB0 m c t (ix2 (0 : Fin 1) b) = (V m c main_v3 : S1x128.Idx → _) (ix2 0 b) := by
  obtain ⟨-, -, -, -, -, -, -, -, e0, e1, -⟩ := idx_whole t
  show V m c main_v3 (((cfg0.win 6).blk t).view.emb (ix2 (0 : Fin 1) b)) = V m c main_v3 _
  refine congrArg (V m c main_v3) (funext fun d => Fin.ext ?_)
  match d with
  | ⟨0, _⟩ => show win0_6.index t (0 : Fin 2) * 1 + 1 * 0 = 0; rw [e0]
  | ⟨1, _⟩ => show win0_6.index t (1 : Fin 2) * 128 + 1 * b.val = b.val; rw [e1]; omega

/-- The node head's bias's block is its `[1, 40]` array. -/
theorem xMb_apply (t : Fin cfg0.N) (b : Fin 40) : xMb m c t (ix2 (0 : Fin 1) b) = (V m c main_v5 : S1x40.Idx → _) (ix2 0 b) := by
  obtain ⟨-, -, -, -, -, -, -, -, -, -, e0, e1, -⟩ := idx_whole t
  show V m c main_v5 (((cfg0.win 7).blk t).view.emb (ix2 (0 : Fin 1) b)) = V m c main_v5 _
  refine congrArg (V m c main_v5) (funext fun d => Fin.ext ?_)
  match d with
  | ⟨0, _⟩ => show win0_7.index t (0 : Fin 2) * 1 + 1 * 0 = 0; rw [e0]
  | ⟨1, _⟩ => show win0_7.index t (1 : Fin 2) * 40 + 1 * b.val = b.val; rw [e1]; omega

/-- The decoder bias's block is its `[1, 40]` array. -/
theorem xBd_apply (t : Fin cfg0.N) (b : Fin 40) : xBd m c t (ix2 (0 : Fin 1) b) = (V m c main_v4 : S1x40.Idx → _) (ix2 0 b) := by
  obtain ⟨-, -, -, -, -, -, -, -, -, -, -, -, e0, e1⟩ := idx_whole t
  show V m c main_v4 (((cfg0.win 8).blk t).view.emb (ix2 (0 : Fin 1) b)) = V m c main_v4 _
  refine congrArg (V m c main_v4) (funext fun d => Fin.ext ?_)
  match d with
  | ⟨0, _⟩ => show win0_8.index t (0 : Fin 2) * 1 + 1 * 0 = 0; rw [e0]
  | ⟨1, _⟩ => show win0_8.index t (1 : Fin 2) * 40 + 1 * b.val = b.val; rw [e1]; omega

/-! ## The same as whole arrays -/

theorem xW0_eq (t : Fin cfg0.N) : xW0 m c t = (V m c main_arg3 : S128x128.Idx → _) := by
  funext j
  obtain ⟨a, b, rfl⟩ : ∃ (a : Fin 128) (b : Fin 128), j = ix2 a b := ⟨j 0, j 1, eq_ix2 j⟩
  exact xW0_apply m c t a b

theorem xWd_eq (t : Fin cfg0.N) : xWd m c t = (V m c main_arg5 : S128x40.Idx → _) := by
  funext j
  obtain ⟨a, b, rfl⟩ : ∃ (a : Fin 128) (b : Fin 40), j = ix2 a b := ⟨j 0, j 1, eq_ix2 j⟩
  exact xWd_apply m c t a b

theorem xMw_eq (t : Fin cfg0.N) : xMw m c t = (V m c main_arg7 : S128x40.Idx → _) := by
  funext j
  obtain ⟨a, b, rfl⟩ : ∃ (a : Fin 128) (b : Fin 40), j = ix2 a b := ⟨j 0, j 1, eq_ix2 j⟩
  exact xMw_apply m c t a b

theorem xB0_eq (t : Fin cfg0.N) : xB0 m c t = (V m c main_v3 : S1x128.Idx → _) := by
  funext j
  obtain ⟨a, b, rfl⟩ : ∃ (a : Fin 1) (b : Fin 128), j = ix2 a b := ⟨j 0, j 1, eq_ix2 j⟩
  obtain rfl : a = 0 := Subsingleton.elim _ _
  exact xB0_apply m c t b

theorem xMb_eq (t : Fin cfg0.N) : xMb m c t = (V m c main_v5 : S1x40.Idx → _) := by
  funext j
  obtain ⟨a, b, rfl⟩ : ∃ (a : Fin 1) (b : Fin 40), j = ix2 a b := ⟨j 0, j 1, eq_ix2 j⟩
  obtain rfl : a = 0 := Subsingleton.elim _ _
  exact xMb_apply m c t b

theorem xBd_eq (t : Fin cfg0.N) : xBd m c t = (V m c main_v4 : S1x40.Idx → _) := by
  funext j
  obtain ⟨a, b, rfl⟩ : ∃ (a : Fin 1) (b : Fin 40), j = ix2 a b := ⟨j 0, j 1, eq_ix2 j⟩
  obtain rfl : a = 0 := Subsingleton.elim _ _
  exact xBd_apply m c t b

theorem xLa_eq (t : Fin cfg0.N) : xLa m c t = (V m c main_v2 : S1x1.Idx → _) := by
  funext j
  obtain ⟨a, b, rfl⟩ : ∃ (a : Fin 1) (b : Fin 1), j = ix2 a b := ⟨j 0, j 1, eq_ix2 j⟩
  obtain rfl : a = 0 := Subsingleton.elim _ _
  obtain rfl : b = 0 := Subsingleton.elim _ _
  exact xLa_apply m c t

end Cert.KernelIdeal.Body

end
-- ==== Proof.Spec.lean ====
import Idealize.ShloMosaic.PureOps.Ideal
import Idealize.ShloMosaic.Lib.ValueIdx

/-!
The specification: a dense graph-convolution encoder and decoder with symmetric normalisation, entry by entry over
the extended reals.

For a 4096 × 4096 matrix `adj`, a scalar `la` (the weight of the self loop) and node features `x`:
the degree of row `r` is `deg r = (∑ₖ adj r k) + la`; its inverse square root `dis r` is `(deg r)^(-1/2)` where the degree is
positive and `0` elsewhere. The normalised operator `D^(-1/2) (adj + la·I) D^(-1/2)` applied to a matrix `v` is written
with the diagonal term apart: `∑ⱼ (adj r j · dis r) · (dis j · v j c) + (la · dis r) · (dis r · v r c)`.
The encoder is `emb = max(that of x·W0, plus b0, 0)`, the node head `emb·mW + mb`, the decoder the same operator
applied to `emb·Wd`, plus `bd`.
-/

noncomputable section

namespace Cert.GcnSpec

open Idealize.ShloMosaic Idealize.ShloMosaic.ValueIdx

variable (x : (⟨3, ![1, 4096, 128]⟩ : Shape).Idx → EReal) (adj : (⟨3, ![1, 4096, 4096]⟩ : Shape).Idx → EReal)
  (la : (⟨0, ![]⟩ : Shape).Idx → EReal) (W0 : (⟨2, ![128, 128]⟩ : Shape).Idx → EReal) (b0 : (⟨1, ![128]⟩ : Shape).Idx → EReal)
  (Wd : (⟨2, ![128, 40]⟩ : Shape).Idx → EReal) (bd : (⟨1, ![40]⟩ : Shape).Idx → EReal)
  (mW : (⟨2, ![128, 40]⟩ : Shape).Idx → EReal) (mb : (⟨1, ![40]⟩ : Shape).Idx → EReal)

/-- Every entry of an array of extended reals is a real number. -/
def AllReal {S : Shape} (f : S.Idx → EReal) : Prop := ∀ i, ∃ r : ℝ, f i = (r : EReal)

/-- The degree of row `r`: the row sum of `adj` plus the self-loop weight. -/
def deg (r : Fin 4096) : EReal := (∑ k : Fin 4096, adj (ix3 (0 : Fin 1) r k)) + la ix0

/-- `deg^(-1/2)` where the degree is positive, `0` elsewhere. -/
def dis (r : Fin 4096) : EReal := if 0 < deg adj la r then Ideal.rsqrt (deg adj la r) else 0

/-- The features times the first weight matrix. -/
def feat (r : Fin 4096) (c : Fin 128) : EReal := ∑ k : Fin 128, x (ix3 (0 : Fin 1) r k) * W0 (ix2 k c)

/-- The row-scaled adjacency `adj r j · dis r`. -/
def ab (r j : Fin 4096) : EReal := adj (ix3 (0 : Fin 1) r j) * dis adj la r

/-- The row-scaled features `dis r · (x·W0) r c`. -/
def z (r : Fin 4096) (c : Fin 128) : EReal := dis adj la r * feat x W0 r c

/-- The encoder: the normalised operator applied to `x·W0`, plus the bias, rectified. -/
def emb (r : Fin 4096) (c : Fin 128) : EReal :=
  max ((∑ j : Fin 4096, ab adj la r j * z x adj la W0 j c) + la ix0 * dis adj la r * z x adj la W0 r c + b0 (ix1 c)) 0

/-- The node head `emb·mW + mb`. -/
def lnode (r : Fin 4096) (c : Fin 40) : EReal := (∑ k : Fin 128, emb x adj la W0 b0 r k * mW (ix2 k c)) + mb (ix1 c)

/-- The row-scaled decoder input `dis r · (emb·Wd) r c`. -/
def zw (r : Fin 4096) (c : Fin 40) : EReal := dis adj la r * ∑ k : Fin 128, emb x adj la W0 b0 r k * Wd (ix2 k c)

/-- The decoder: the normalised operator applied to `emb·Wd`, plus the bias. -/
def logit (r : Fin 4096) (c : Fin 40) : EReal :=
  (∑ j : Fin 4096, ab adj la r j * zw x adj la W0 b0 Wd j c) + la ix0 * dis adj la r * zw x adj la W0 b0 Wd r c + bd (ix1 c)

end Cert.GcnSpec

end
-- ==== Proof.KI.KernelSpec0.lean ====
import proofs.«138326_g49246095016332_cont_8to1_c_632_4_alg».proof.Proof.KI.Tracked
import proofs.«138326_g49246095016332_cont_8to1_c_632_4_alg».proof.Proof.KI.Payloads
import proofs.«138326_g49246095016332_cont_8to1_c_632_4_alg».proof.Proof.KI.HostReads
import proofs.«138326_g49246095016332_cont_8to1_c_632_4_alg».proof.Proof.KI.BlockReads
import proofs.«138326_g49246095016332_cont_8to1_c_632_4_alg».proof.Proof.Spec

/-!
The tracked contents, on extended reals, are the specification: the three buffers of the first phase hold the inverse
square-root degrees, the row-scaled adjacency and the row-scaled features of the specification; the second phase's blocks
are its encoder and node head and the two buffers it fills hold the decoder's row-scaled input and diagonal term; the
third phase's block is its decoder.
-/

noncomputable section

namespace Cert.KernelIdeal.Body

open Idealize.ShloMosaic Idealize.ShloMosaic.TcCoe Idealize.ShloMosaic.ValueIdx
open Cert.KernelIdeal Cert.KernelIdeal.Gen Cert.KernelIdeal.Pay Cert.KernelIdeal.HostReads Cert.GcnSpec

variable (m : (ℓ : Loc nD τ sig) → Buf (Elt Ideal) ℓ) (c : Dev nD)

/-! ## The nine argument arrays, as functions to the extended reals -/

/-- The node features. -/
abbrev aX : S1x4096x128.Idx → EReal := m ((c : Thread nD τ).loc main_arg0)
/-- The adjacency matrix. -/
abbrev aAdj : S1x4096x4096.Idx → EReal := m ((c : Thread nD τ).loc main_arg1)
/-- The self-loop weight. -/
abbrev aLa : S_.Idx → EReal := m ((c : Thread nD τ).loc main_arg2)
/-- The first weight matrix. -/
abbrev aW0 : S128x128.Idx → EReal := m ((c : Thread nD τ).loc main_arg3)
/-- The encoder's bias. -/
abbrev aB0 : S128.Idx → EReal := m ((c : Thread nD τ).loc main_arg4)
/-- The decoder's weight matrix. -/
abbrev aWd : S128x40.Idx → EReal := m ((c : Thread nD τ).loc main_arg5)
/-- The decoder's bias. -/
abbrev aBd : S40.Idx → EReal := m ((c : Thread nD τ).loc main_arg6)
/-- The node head's weight matrix. -/
abbrev aMw : S128x40.Idx → EReal := m ((c : Thread nD τ).loc main_arg7)
/-- The node head's bias. -/
abbrev aMb : S40.Idx → EReal := m ((c : Thread nD τ).loc main_arg8)

/-! ## The input blocks of the first phase read off the arguments -/

/-- The self-loop weight's block holds the scalar argument, at every point. -/
theorem xLa_spec (t : Fin cfg0.N) : xLa m c t (ix2 (0 : Fin 1) (0 : Fin 1)) = aLa m c ix0 :=
  (xLa_apply m c t).trans (V_v2_apply m c)

/-- The adjacency block of a point `t < 16` at `(r, k)` is the adjacency at row `256·t + r`. -/
theorem xAdj_spec (t : Fin cfg0.N) (ht : t.val < 16) (r : Fin 256) (R : Fin 4096) (hR : R.val = 256 * t.val + r.val)
    (k : Fin 4096) : xAdj m c t (ix2 r k) = aAdj m c (ix3 (0 : Fin 1) R k) := by
  have hlt : 256 * t.val + r.val < 4096 := by have := r.isLt; omega
  obtain rfl : R = ⟨256 * t.val + r.val, hlt⟩ := Fin.ext hR
  exact (xAdj_apply m c t ht r k).trans (V_v0_apply m c _ k)

/-- The feature block of a point `t < 16` at `(r, k)` is the features at row `256·t + r`. -/
theorem xX_spec (t : Fin cfg0.N) (ht : t.val < 16) (r : Fin 256) (R : Fin 4096) (hR : R.val = 256 * t.val + r.val)
    (k : Fin 128) : xX m c t (ix2 r k) = aX m c (ix3 (0 : Fin 1) R k) := by
  have hlt : 256 * t.val + r.val < 4096 := by have := r.isLt; omega
  obtain rfl : R = ⟨256 * t.val + r.val, hlt⟩ := Fin.ext hR
  exact (xX_apply m c t ht r k).trans (V_v1_apply m c _ k)

/-- The first weight matrix's block is the argument. -/
theorem xW0_spec (t : Fin cfg0.N) (a b : Fin 128) : xW0 m c t (ix2 a b) = aW0 m c (ix2 a b) :=
  (xW0_apply m c t a b).trans (congrFun (V_main_arg3 m c) _)

/-- The degree of a block's row is the specification's degree of that row. -/
theorem degB_spec (t : Fin cfg0.N) (ht : t.val < 16) (r : Fin 256) (R : Fin 4096) (hR : R.val = 256 * t.val + r.val) :
    degB (xLa m c t) (xAdj m c t) r = deg (aAdj m c) (aLa m c) R := by
  unfold degB deg
  exact congrArg₂ (· + ·) (Finset.sum_congr rfl fun k _ => xAdj_spec m c t ht r R hR k) (xLa_spec m c t)

/-- The normalising factor of a block's row is the specification's of that row. -/
theorem disB_spec (t : Fin cfg0.N) (ht : t.val < 16) (r : Fin 256) (R : Fin 4096) (hR : R.val = 256 * t.val + r.val) :
    disB (xLa m c t) (xAdj m c t) r = dis (aAdj m c) (aLa m c) R := by
  unfold disB dis
  rw [degB_spec m c t ht r R hR]

/-! ## The first phase's three buffers -/

/-- Row `R` of a buffer is row `R % 256` of the block of point `R / 256`. -/
theorem row_split (R : Fin 4096) : R.val / 256 < 48 ∧ R.val / 256 < 16 ∧ R.val = 256 * (R.val / 256) + R.val % 256 := by
  have hR : R.val < 4096 := R.isLt
  omega

/-- The buffer of inverse square-root degrees holds, along row `R`, the specification's normalising factor of node `R`. -/
theorem DS_spec (R : Fin 4096) (k : Fin 128) : DS (F := Ideal) m c (ix2 R k) = dis (aAdj m c) (aLa m c) R := by
  obtain ⟨h48, hT, hrow⟩ := row_split R
  refine (pay6_apply _ _ (⟨R.val % 256, Nat.mod_lt _ (by decide)⟩ : Fin 256) k).trans ?_
  exact disB_spec m c (pt (R.val / 256) h48) hT ⟨R.val % 256, Nat.mod_lt _ (by decide)⟩ R hrow

/-- The buffer of the row-scaled adjacency holds the specification's. -/
theorem AB_spec (R j : Fin 4096) : AB (F := Ideal) m c (ix2 R j) = ab (aAdj m c) (aLa m c) R j := by
  obtain ⟨h48, hT, hrow⟩ := row_split R
  refine (pay4_apply _ _ (⟨R.val % 256, Nat.mod_lt _ (by decide)⟩ : Fin 256) j).trans ?_
  unfold ab
  exact congrArg₂ (· * ·) (xAdj_spec m c (pt (R.val / 256) h48) hT ⟨R.val % 256, Nat.mod_lt _ (by decide)⟩ R hrow j)
    (disB_spec m c (pt (R.val / 256) h48) hT ⟨R.val % 256, Nat.mod_lt _ (by decide)⟩ R hrow)

/-- The buffer of the row-scaled features holds the specification's. -/
theorem ZB_spec (R : Fin 4096) (k : Fin 128) :
    ZB (F := Ideal) m c (ix2 R k) = z (aX m c) (aAdj m c) (aLa m c) (aW0 m c) R k := by
  obtain ⟨h48, hT, hrow⟩ := row_split R
  refine (pay5_apply _ _ _ _ (⟨R.val % 256, Nat.mod_lt _ (by decide)⟩ : Fin 256) k).trans ?_
  unfold z feat
  refine congrArg₂ (· * ·) (disB_spec m c (pt (R.val / 256) h48) hT ⟨R.val % 256, Nat.mod_lt _ (by decide)⟩ R hrow) ?_
  exact Finset.sum_congr rfl fun i _ =>
    congrArg₂ (· * ·) (xX_spec m c (pt (R.val / 256) h48) hT ⟨R.val % 256, Nat.mod_lt _ (by decide)⟩ R hrow i)
      (xW0_spec m c _ i k)

end Cert.KernelIdeal.Body

end
-- ==== Proof.KI.KernelSpec1.lean ====
import proofs.«138326_g49246095016332_cont_8to1_c_632_4_alg».proof.Proof.KI.KernelSpec0

/-!
The second and third phases against the specification. A point of the second phase reads the rows of its row block from
the first phase's buffers, so its blocks are the specification's encoder, node head, decoder input and diagonal term on
those rows; a point of the third phase reads the rows of its row block likewise, and its block is the decoder.
-/

noncomputable section

namespace Cert.KernelIdeal.Body

open Idealize.ShloMosaic Idealize.ShloMosaic.TcCoe Idealize.ShloMosaic.ValueIdx
open Cert.KernelIdeal Cert.KernelIdeal.Gen Cert.KernelIdeal.Pay Cert.KernelIdeal.HostReads Cert.GcnSpec

/-! ## A block of 256 rows read out of a buffer of 4096 -/

/-- Rows `256·b …` of a buffer, read through the rectangle that starts there: entry `(r, j)` is the buffer's `(256·b + r, j)`. -/
theorem ld_rows {Val : EltTy → Type} {e : EltTy} {w : ℕ} (X : (⟨2, ![4096, w]⟩ : Shape).Idx → Val e) (off : Fin 2 → ℕ) (b : ℕ)
    (hoff : off = ![256 * b, 0])
    (hin : ∀ a, off a + (⟨2, ![256, w]⟩ : Shape).size a ≤ (⟨2, ![4096, w]⟩ : Shape).size a)
    (r : Fin 256) (j : Fin w) (R : Fin 4096) (hR : R.val = 256 * b + r.val) :
    View.ld X (Rect.unit off (⟨2, ![256, w]⟩ : Shape).size hin) (ix2 r j) = X (ix2 R j) := by
  subst hoff
  refine congrArg X (funext fun a => Fin.ext ?_)
  match a with
  | ⟨0, _⟩ => show 256 * b + 1 * r.val = R.val; omega
  | ⟨1, _⟩ => show 0 + 1 * j.val = j.val; omega

variable (m : (ℓ : Loc nD τ sig) → Buf (Elt Ideal) ℓ) (c : Dev nD)

/-- There are 48 points. -/
theorem pt_lt (t : Fin cfg0.N) : t.val < 48 := lt_of_lt_of_eq t.isLt N_0

/-! ## What a point of the second phase reads -/

theorem rd0At_apply (t : Fin cfg0.N) (r : Fin 256) (j : Fin 4096) (R : Fin 4096) (hR : R.val = 256 * (t.val % 16) + r.val) :
    rd0At (F := Ideal) m c t (ix2 r j) = AB (F := Ideal) m c (ix2 R j) :=
  ld_rows (AB (F := Ideal) m c) _ (t.val % 16) (off3_eq t) _ r j R hR

theorem rd2At_apply (t : Fin cfg0.N) (r : Fin 256) (j : Fin 128) (R : Fin 4096) (hR : R.val = 256 * (t.val % 16) + r.val) :
    rd2At (F := Ideal) m c t (ix2 r j) = DS (F := Ideal) m c (ix2 R j) :=
  ld_rows (DS (F := Ideal) m c) _ (t.val % 16) (off4_eq t) _ r j R hR

theorem rd1At_apply (t : Fin cfg0.N) (r : Fin 256) (j : Fin 128) (R : Fin 4096) (hR : R.val = 256 * (t.val % 16) + r.val) :
    rd1At (F := Ideal) m c t (ix2 r j) = ZB (F := Ideal) m c (ix2 R j) :=
  ld_rows (ZB (F := Ideal) m c) _ (t.val % 16) (off4_eq t) _ r j R hR

/-! ## The second phase's blocks, at the row `R = 256·(t − 16) + r` of the point's row block -/

/-- The encoder's block. -/
theorem embAt_row (t : Fin cfg0.N) (ht : 16 ≤ t.val ∧ t.val < 32) (r : Fin 256) (R : Fin 4096)
    (hR : R.val = 256 * (t.val - 16) + r.val) (k : Fin 128) :
    embAt (F := Ideal) m c t (ix2 r k) = emb (aX m c) (aAdj m c) (aLa m c) (aW0 m c) (aB0 m c) R k := by
  have hR' : R.val = 256 * (t.val % 16) + r.val := by omega
  refine (pay9_apply _ _ _ _ _ _ r k).trans ?_
  unfold emb
  refine congrArg (max · 0) (congrArg₂ (· + ·) (congrArg₂ (· + ·) ?_ ?_) ?_)
  · exact Finset.sum_congr rfl fun j _ =>
      congrArg₂ (· * ·) ((rd0At_apply m c t r j R hR').trans (AB_spec m c R j)) (ZB_spec m c j k)
  · exact congrArg₂ (· * ·)
      (congrArg₂ (· * ·) ((pay1_apply _).trans (xLa_spec m c t)) ((rd2At_apply m c t r k R hR').trans (DS_spec m c R k)))
      ((rd1At_apply m c t r k R hR').trans (ZB_spec m c R k))
  · exact (xB0_apply m c t k).trans (V_v3_apply m c k)

/-- The node head's block. -/
theorem lnAt_row (t : Fin cfg0.N) (ht : 16 ≤ t.val ∧ t.val < 32) (r : Fin 256) (R : Fin 4096)
    (hR : R.val = 256 * (t.val - 16) + r.val) (k : Fin 40) :
    lnAt (F := Ideal) m c t (ix2 r k)
      = lnode (aX m c) (aAdj m c) (aLa m c) (aW0 m c) (aB0 m c) (aMw m c) (aMb m c) R k := by
  refine (pay10_apply _ _ _ _ _ _ _ _ r k).trans ?_
  unfold lnode
  exact congrArg₂ (· + ·)
    (Finset.sum_congr rfl fun i _ => congrArg₂ (· * ·) (embAt_row m c t ht r R hR i)
      ((xMw_apply m c t i k).trans (congrFun (V_main_arg7 m c) _)))
    ((xMb_apply m c t k).trans (V_v5_apply m c k))

/-- The decoder's row-scaled input, before its change of float format. -/
theorem pay12At_row (t : Fin cfg0.N) (ht : 16 ≤ t.val ∧ t.val < 32) (r : Fin 256) (R : Fin 4096)
    (hR : R.val = 256 * (t.val - 16) + r.val) (k : Fin 40) :
    k0_pay12 (F := Ideal) (k0_pay1 (xLa m c t)) (rd0At m c t) (ZB m c) (rd2At m c t) (rd1At m c t) (xB0 m c t) (xWd m c t) (ix2 r k)
      = zw (aX m c) (aAdj m c) (aLa m c) (aW0 m c) (aB0 m c) (aWd m c) R k := by
  have hR' : R.val = 256 * (t.val % 16) + r.val := by omega
  refine (pay12_apply _ _ _ _ _ _ _ r k).trans ?_
  unfold zw
  exact congrArg₂ (· * ·) ((rd2At_apply m c t r _ R hR').trans (DS_spec m c R _))
    (Finset.sum_congr rfl fun i _ => congrArg₂ (· * ·) (embAt_row m c t ht r R hR i)
      ((xWd_apply m c t i k).trans (congrFun (V_main_arg5 m c) _)))

/-- The decoder's row-scaled input as stored. -/
theorem zwbAt_row (t : Fin cfg0.N) (ht : 16 ≤ t.val ∧ t.val < 32) (r : Fin 256) (R : Fin 4096)
    (hR : R.val = 256 * (t.val - 16) + r.val) (k : Fin 40) :
    zwbAt (F := Ideal) m c t (ix2 r k) = zw (aX m c) (aAdj m c) (aLa m c) (aW0 m c) (aB0 m c) (aWd m c) R k :=
  (pay13_apply _ _ _ _ _ _ _ r k).trans (pay12At_row m c t ht r R hR k)

/-- The decoder's diagonal term. -/
theorem dgAt_row (t : Fin cfg0.N) (ht : 16 ≤ t.val ∧ t.val < 32) (r : Fin 256) (R : Fin 4096)
    (hR : R.val = 256 * (t.val - 16) + r.val) (k : Fin 40) :
    dgAt (F := Ideal) m c t (ix2 r k)
      = aLa m c ix0 * dis (aAdj m c) (aLa m c) R * zw (aX m c) (aAdj m c) (aLa m c) (aW0 m c) (aB0 m c) (aWd m c) R k := by
  have hR' : R.val = 256 * (t.val % 16) + r.val := by omega
  refine (pay7_apply _ _ _ r k).trans ?_
  exact congrArg₂ (· * ·)
    (congrArg₂ (· * ·) (xLa_spec m c t)
      ((pay11_apply _ r k).trans ((rd2At_apply m c t r _ R hR').trans (DS_spec m c R _))))
    (pay12At_row m c t ht r R hR k)

/-! ## The same with the row written out -/

theorem embAt_spec (t : Fin cfg0.N) (ht : 16 ≤ t.val ∧ t.val < 32) (r : Fin 256) (k : Fin 128) :
    embAt (F := Ideal) m c t (ix2 r k)
      = emb (aX m c) (aAdj m c) (aLa m c) (aW0 m c) (aB0 m c) (⟨256 * (t.val - 16) + r.val, by omega⟩ : Fin 4096) k :=
  embAt_row m c t ht r _ rfl k

theorem lnAt_spec (t : Fin cfg0.N) (ht : 16 ≤ t.val ∧ t.val < 32) (r : Fin 256) (k : Fin 40) :
    lnAt (F := Ideal) m c t (ix2 r k)
      = lnode (aX m c) (aAdj m c) (aLa m c) (aW0 m c) (aB0 m c) (aMw m c) (aMb m c)
          (⟨256 * (t.val - 16) + r.val, by omega⟩ : Fin 4096) k :=
  lnAt_row m c t ht r _ rfl k

/-! ## The two buffers the second phase fills -/

/-- Row `R` is row `R % 256` of the block of point `16 + R / 256`. -/
theorem row_split1 (R : Fin 4096) : 16 + R.val / 256 < 48 ∧ (16 ≤ 16 + R.val / 256 ∧ 16 + R.val / 256 < 32)
    ∧ R.val = 256 * (16 + R.val / 256 - 16) + R.val % 256 := by
  have hR : R.val < 4096 := R.isLt
  omega

/-- The buffer of the decoder's row-scaled input holds the specification's. -/
theorem ZWB_spec (R : Fin 4096) (k : Fin 40) :
    ZWB (F := Ideal) m c (ix2 R k) = zw (aX m c) (aAdj m c) (aLa m c) (aW0 m c) (aB0 m c) (aWd m c) R k := by
  obtain ⟨h48, ht, hrow⟩ := row_split1 R
  exact zwbAt_row m c (pt (16 + R.val / 256) h48) ht ⟨R.val % 256, Nat.mod_lt _ (by decide)⟩ R hrow k

/-- The buffer of the decoder's diagonal term holds the specification's. -/
theorem DG_spec (R : Fin 4096) (k : Fin 40) :
    DG (F := Ideal) m c (ix2 R k)
      = aLa m c ix0 * dis (aAdj m c) (aLa m c) R * zw (aX m c) (aAdj m c) (aLa m c) (aW0 m c) (aB0 m c) (aWd m c) R k := by
  obtain ⟨h48, ht, hrow⟩ := row_split1 R
  exact dgAt_row m c (pt (16 + R.val / 256) h48) ht ⟨R.val % 256, Nat.mod_lt _ (by decide)⟩ R hrow k

/-! ## The third phase's block -/

/-- The decoder's block at the row `R = 256·(t − 32) + r` of the point's row block. -/
theorem lgAt_row (t : Fin cfg0.N) (ht : 32 ≤ t.val) (r : Fin 256) (R : Fin 4096) (hR : R.val = 256 * (t.val - 32) + r.val)
    (k : Fin 40) :
    lgAt (F := Ideal) m c t (ix2 r k)
      = logit (aX m c) (aAdj m c) (aLa m c) (aW0 m c) (aB0 m c) (aWd m c) (aBd m c) R k := by
  have h48 := pt_lt t
  have hR' : R.val = 256 * (t.val % 16) + r.val := by omega
  refine (pay8_apply _ _ _ _ r k).trans ?_
  unfold logit
  refine congrArg₂ (· + ·) (congrArg₂ (· + ·) ?_ ?_) ?_
  · exact Finset.sum_congr rfl fun j _ => congrArg₂ (· * ·)
      ((ld_rows (AB (F := Ideal) m c) _ (t.val % 16) (off6_eq t) _ r j R hR').trans (AB_spec m c R j)) (ZWB_spec m c j k)
  · exact (ld_rows (DG (F := Ideal) m c) _ (t.val % 16) (off7_eq t) _ r k R hR').trans (DG_spec m c R k)
  · exact (xBd_apply m c t k).trans (V_v4_apply m c k)

theorem lgAt_spec (t : Fin cfg0.N) (ht : 32 ≤ t.val) (r : Fin 256) (k : Fin 40) :
    lgAt (F := Ideal) m c t (ix2 r k)
      = logit (aX m c) (aAdj m c) (aLa m c) (aW0 m c) (aB0 m c) (aWd m c) (aBd m c)
          (⟨256 * (t.val - 32) + r.val, by have := pt_lt t; omega⟩ : Fin 4096) k :=
  lgAt_row m c t ht r _ rfl k

end Cert.KernelIdeal.Body

end
-- ==== Proof.KI.KernelSpec.lean ====
import proofs.«138326_g49246095016332_cont_8to1_c_632_4_alg».proof.Proof.KI.KernelSpec0
import proofs.«138326_g49246095016332_cont_8to1_c_632_4_alg».proof.Proof.KI.KernelSpec1

/-!
The tracked contents against the specification, gathered: the first phase's three buffers, then the second and third
phases' blocks and buffers.
-/
-- ==== Proof.LibNormalisedOperator.lean ====
import Idealize.ShloMosaic.PureOps.Ideal

/-!
Algebra over the extended reals for a symmetrically normalised operator with a self loop, on entries that are real
numbers.

The extended reals are not a ring: a product does not distribute over a sum when an infinity meets a zero. Every law
here that needs distributivity therefore asks that the entries it touches be real numbers, and is proved by moving
the equation to the reals. The laws:

* a row sum of `a j + l · [r = j]` is the row sum of `a` plus `l` (no hypothesis: only one term carries `l`);
* for a positive real `d`, `1 / √d` is the inverse square root `d^(-1/2)`, so the two spellings of
  "inverse square root where positive, zero elsewhere" agree, and that value is a real number;
* the operator `∑ⱼ ((a j + l · [r = j]) · d r · d j) · v j` is the off-diagonal form
  `∑ⱼ (a j · d r) · (d j · v j)` plus the diagonal term `(l · d r) · (d r · v r)`, for real entries at `r`.
-/

noncomputable section

namespace Cert.ReferenceIdeal.RefValue

open Idealize.ShloMosaic
open scoped BigOperators

/-- An extended real that is a real number. -/
def IsReal (x : EReal) : Prop := ∃ r : ℝ, x = (r : EReal)

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A finite sum of products of real numbers is a real number. -/
theorem IsReal.sum_mul {ι : Type*} [Fintype ι] (f g : ι → EReal) (hf : ∀ i, IsReal (f i)) (hg : ∀ i, IsReal (g i)) :
    IsReal (∑ i, f i * g i) :=
  IsReal.sum _ _ fun i _ => (hf i).mul (hg i)

/-- The row sum with a self loop: only the diagonal term carries the loop weight. -/
theorem sum_add_diag {ι : Type*} [Fintype ι] [DecidableEq ι] (a : ι → EReal) (l : EReal) (r : ι) :
    (0 : EReal) + ∑ j, (a j + l * (if r = j then 1 else 0)) = (∑ j, a j) + l := by
  rw [zero_add, Finset.sum_add_distrib]
  refine congrArg (_ + ·) ?_
  simp only [mul_ite, mul_one, mul_zero]
  rw [Finset.sum_ite_eq, if_pos (Finset.mem_univ r)]

/-- For a positive real `d`, one over the square root is the inverse square root. -/
theorem div_one_sqrt {d : ℝ} (hd : 0 < d) : Ideal.div 1 (Ideal.sqrt (d : EReal)) = Ideal.rsqrt (d : EReal) := by
  have hs : Real.sqrt d ≠ 0 := (Real.sqrt_pos.mpr hd).ne'
  rw [Ideal.sqrt_coe, if_neg (not_lt.mpr hd.le), Ideal.div_coe hs, one_mul, Ideal.rsqrt_coe,
    if_neg (not_lt.mpr hd.le), if_neg hd.ne', one_div]

/-- "One over the square root where positive, zero elsewhere" is "the inverse square root where positive, zero
elsewhere", at a real number. -/
theorem select_div_sqrt {d : EReal} (hd : IsReal d) :
    (if 0 < d then Ideal.div 1 (Ideal.sqrt d) else 0) = if 0 < d then Ideal.rsqrt d else 0 := by
  obtain ⟨x, rfl⟩ := hd
  by_cases h : (0 : EReal) < (x : EReal)
  · rw [if_pos h, if_pos h, div_one_sqrt (EReal.coe_pos.mp h)]
  · rw [if_neg h, if_neg h]

/-- The inverse square root where positive, zero elsewhere, of a real number is a real number. -/
theorem IsReal.rsqrt_pos {d : EReal} (hd : IsReal d) : IsReal (if 0 < d then Ideal.rsqrt d else 0) := by
  obtain ⟨x, rfl⟩ := hd
  by_cases h : (0 : EReal) < (x : EReal)
  · have hx : 0 < x := EReal.coe_pos.mp h
    rw [if_pos h, Ideal.rsqrt_coe, if_neg (not_lt.mpr hx.le), if_neg hx.ne']
    exact ⟨_, rfl⟩
  · rw [if_neg h]; exact IsReal.zero

/-- The normalised operator with the diagonal term apart. The entries at the row `r` itself are real numbers, which
is what distributing over the diagonal term needs; the other terms only reassociate. -/
theorem norm_law {ι : Type*} [Fintype ι] [DecidableEq ι] (a d v : ι → EReal) (l : EReal) (r : ι)
    (har : IsReal (a r)) (hl : IsReal l) (hdr : IsReal (d r)) (hvr : IsReal (v r)) :
    ∑ j, (a j + l * (if r = j then 1 else 0)) * d r * d j * v j
      = (∑ j, a j * d r * (d j * v j)) + l * d r * (d r * v r) := by
  have key : ∀ j, (a j + l * (if r = j then 1 else 0)) * d r * d j * v j
      = a j * d r * (d j * v j) + (if r = j then l * d r * (d r * v r) else 0) := by
    intro j
    by_cases h : r = j
    · subst h
      rw [if_pos rfl, if_pos rfl, mul_one]
      obtain ⟨x, hx⟩ := har
      obtain ⟨y, hy⟩ := hl
      obtain ⟨z, hz⟩ := hdr
      obtain ⟨w, hw⟩ := hvr
      rw [hx, hy, hz, hw]
      exact_mod_cast (by ring : (x + y) * z * z * w = x * z * (z * w) + y * z * (z * w))
    · rw [if_neg h, if_neg h, mul_zero, add_zero, add_zero, mul_assoc (a j * d r)]
  rw [Finset.sum_congr rfl fun j _ => key j, Finset.sum_add_distrib, Finset.sum_ite_eq, if_pos (Finset.mem_univ r)]

end Cert.ReferenceIdeal.RefValue

end
-- ==== Proof.RefRead.lean ====
import proofs.«138326_g49246095016332_cont_8to1_c_632_4_alg».proof.Proof.Gen.ReferenceIdeal.Read
import proofs.«138326_g49246095016332_cont_8to1_c_632_4_alg».proof.Proof.Spec
import proofs.«138326_g49246095016332_cont_8to1_c_632_4_alg».proof.Proof.LibNormalisedOperator
import Idealize.ShloMosaic.Lib.IdealHost

/-!
The reference program read at an index: its three results are the specification's, for inputs whose entries are all
real numbers.

The reference adds the self loop to the adjacency as `la · eye`, with `eye` the 0/1 matrix of "row index equals
column index"; its degree is the row sum of that from zero; its normaliser is `1 / √deg` where the degree is
positive and zero elsewhere; its operator matrix is `(adj + la · eye) r j · dis r · dis j`. Read at an index these
are, in turn: the specification's degree `(∑ₖ adj r k) + la` (one diagonal term carries `la`); its inverse square
root (for a positive real `d`, `1 / √d = d^(-1/2)`); and, applied to a matrix `v` with real entries, the
off-diagonal sum `∑ⱼ (adj r j · dis r) · (dis j · v j c)` plus the diagonal term `(la · dis r) · (dis r · v r c)`.
The operator is used twice: on `x · W0` for the encoder, and on `emb · Wd` for the decoder, where `emb` is real
entrywise because it is a maximum of a real number and zero. The node head is the encoder times a matrix, plus a bias.
-/

noncomputable section

namespace Cert.ReferenceIdeal.RefValue

open Idealize.ShloMosaic Idealize.ShloMosaic.ValueIdx Cert.ReferenceIdeal Cert.ReferenceIdeal.Read Cert.GcnSpec
open scoped BigOperators

/-- Two indices below 4096, as 32-bit words, are equal exactly when the indices are. -/
theorem eye_word (r j : Fin 4096) :
    IntOp.cmpi .eq (IntOp.addi (BitVec.ofNat 32 r.val) 0#32) (BitVec.ofNat 32 j.val) = if r = j then 1#1 else 0#1 := by
  have hr := r.isLt
  have hj := j.isLt
  unfold IntOp.cmpi IntOp.addi
  rw [BitVec.add_zero]
  by_cases h : r = j
  · subst h; simp
  · rw [if_neg h]
    have hne : BitVec.ofNat 32 r.val ≠ BitVec.ofNat 32 j.val := by
      intro e
      have e' := congrArg BitVec.toNat e
      simp only [BitVec.toNat_ofNat] at e'
      exact h (Fin.ext (by omega))
    rw [show (BitVec.ofNat 32 r.val == BitVec.ofNat 32 j.val) = false from beq_eq_false_iff_ne.mpr hne]
    rfl

/-- The identity matrix the reference builds from two iotas, read at an index. -/
theorem eye_at (r j : Fin 4096) :
    val_main_v6 (F := Ideal) (ix3 (0 : Fin 1) r j) = if r = j then 1 else 0 := by
  rw [val_main_v6_apply, val_main_v5_apply, val_main_v4_apply, val_main_v3_apply, val_main_v2_apply,
    val_main_c_apply, val_main_v0_apply, val_main_v1_apply]
  show FloatOps.uitofp (F := Ideal) .f32
    (IntOp.cmpi .eq (IntOp.addi (BitVec.ofNat 32 r.val) 0#32) (BitVec.ofNat 32 j.val)) = _
  rw [eye_word]
  by_cases h : r = j
  · rw [if_pos h, if_pos h]
    show (((1#1 : BitVec 1).toNat : ℝ) : EReal) = 1
    simp
  · rw [if_neg h, if_neg h]
    show (((0#1 : BitVec 1).toNat : ℝ) : EReal) = 0
    simp

/-- The adjacency with the self loop added, read at an index. -/
theorem adjl_at (x1 : (⟨S1x4096x4096, .f32⟩ : BufTy).Contents (Elt Ideal)) (x2 : (⟨S_, .f32⟩ : BufTy).Contents (Elt Ideal))
    (r j : Fin 4096) :
    val_main_v9 (F := Ideal) x1 x2 (ix3 (0 : Fin 1) r j)
      = x1 (ix3 (0 : Fin 1) r j) + x2 ix0 * (if r = j then 1 else 0) := by
  rw [val_main_v9_apply, val_main_v8_apply, val_main_v7_apply, eye_at]
  rfl

theorem idx10 (r k : Fin 4096) : idx_main_v10 (ix2 (0 : Fin 1) r) k = ix3 (0 : Fin 1) r k := by
  funext a
  match a with
  | ⟨0, _⟩ => rfl
  | ⟨1, _⟩ => rfl
  | ⟨2, _⟩ => rfl

/-- The reference's degree is the specification's: the row sum plus the self-loop weight. -/
theorem deg_at (x1 : (⟨S1x4096x4096, .f32⟩ : BufTy).Contents (Elt Ideal)) (x2 : (⟨S_, .f32⟩ : BufTy).Contents (Elt Ideal))
    (r : Fin 4096) :
    val_main_v10 (F := Ideal) x1 x2 (ix2 (0 : Fin 1) r) = deg x1 x2 r := by
  rw [val_main_v10_apply, val_main_cst_apply]
  simp only [idx10, adjl_at]
  rw [Ideal.ofBits_def, Ideal.ofBits_zero_f32]
  exact sum_add_diag (fun k => x1 (ix3 (0 : Fin 1) r k)) (x2 ix0) r

/-- The degree of real entries is a real number. -/
theorem deg_real (x1 : (⟨S1x4096x4096, .f32⟩ : BufTy).Contents (Elt Ideal)) (x2 : (⟨S_, .f32⟩ : BufTy).Contents (Elt Ideal))
    (h1 : AllReal x1) (h2 : AllReal x2) (r : Fin 4096) : IsReal (deg x1 x2 r) :=
  (IsReal.sum _ _ fun k _ => h1 _).add (h2 _)

/-- The inverse square root of the degree, where positive, is a real number. -/
theorem dis_real (x1 : (⟨S1x4096x4096, .f32⟩ : BufTy).Contents (Elt Ideal)) (x2 : (⟨S_, .f32⟩ : BufTy).Contents (Elt Ideal))
    (h1 : AllReal x1) (h2 : AllReal x2) (r : Fin 4096) : IsReal (dis x1 x2 r) :=
  (deg_real x1 x2 h1 h2 r).rsqrt_pos

/-- A select on "greater than zero" is the `if`. -/
theorem select_ogt_zero (d A B : EReal) : Scalar.select (Ideal.cmp .ogt d 0) A B = if 0 < d then A else B := by
  unfold Scalar.select Ideal.cmp
  by_cases h : 0 < d <;> simp [h]

/-- The reference's normaliser `select(deg > 0, 1 / √deg, 0)` is the specification's inverse square root. -/
theorem dis_at (x1 : (⟨S1x4096x4096, .f32⟩ : BufTy).Contents (Elt Ideal)) (x2 : (⟨S_, .f32⟩ : BufTy).Contents (Elt Ideal))
    (h1 : AllReal x1) (h2 : AllReal x2) (r : Fin 4096) :
    val_main_v16 (F := Ideal) x1 x2 (ix2 (0 : Fin 1) r) = dis x1 x2 r := by
  rw [val_main_v16_apply, val_main_v12_apply, val_main_v15_apply, val_main_v13_apply, val_main_v14_apply,
    val_main_cst_1_apply, val_main_v11_apply, val_main_cst_0_apply, val_main_call0_v1_apply,
    val_main_call0_v0_apply, val_main_cst_2_apply, deg_at]
  simp only [Ideal.ofBits_def, Ideal.ofBits_zero_f32, Ideal.ofBits_one_f32, Ideal.hostDivf_def,
    Ideal.hostUnary_sqrt_def, Ideal.cmpf_def]
  rw [select_ogt_zero]
  exact select_div_sqrt (deg_real x1 x2 h1 h2 r)

theorem idx24 (r j : Fin 4096) : idx_main_v24 (ix2 r j) = ix3 (0 : Fin 1) r j := by
  have hr := r.isLt
  have hj := j.isLt
  funext a
  match a with
  | ⟨0, _⟩ => rfl
  | ⟨1, _⟩ => exact Fin.ext (by show (r.val * 4096 + j.val) / 4096 % 4096 = r.val; omega)
  | ⟨2, _⟩ => exact Fin.ext (by show (r.val * 4096 + j.val) % 4096 = j.val; omega)

theorem idx17 (r j : Fin 4096) : idx_main_v17 (idx_main_v18 (ix3 (0 : Fin 1) r j)) = ix2 (0 : Fin 1) r := by
  funext a
  match a with
  | ⟨0, _⟩ => rfl
  | ⟨1, _⟩ => rfl

theorem idx20 (r j : Fin 4096) : idx_main_v20 (idx_main_v21 (ix3 (0 : Fin 1) r j)) = ix2 (0 : Fin 1) j := by
  funext a
  match a with
  | ⟨0, _⟩ => rfl
  | ⟨1, _⟩ => rfl

/-- The normalised operator's matrix, read at an index: the adjacency with the self loop, scaled by the row's and by
the column's normaliser. -/
theorem A_at (x1 : (⟨S1x4096x4096, .f32⟩ : BufTy).Contents (Elt Ideal)) (x2 : (⟨S_, .f32⟩ : BufTy).Contents (Elt Ideal))
    (r j : Fin 4096) :
    val_main_v24 (F := Ideal) x1 x2 (ix2 r j)
      = (x1 (ix3 (0 : Fin 1) r j) + x2 ix0 * (if r = j then 1 else 0))
          * val_main_v16 (F := Ideal) x1 x2 (ix2 (0 : Fin 1) r) * val_main_v16 (F := Ideal) x1 x2 (ix2 (0 : Fin 1) j) := by
  rw [val_main_v24_apply, idx24, val_main_v22_apply, val_main_v19_apply, adjl_at, val_main_v18_apply,
    val_main_v17_apply, val_main_v21_apply, val_main_v20_apply, idx17, idx20]
  rfl

theorem idx23 (r : Fin 4096) (c k : Fin 128) : idx_main_v23 (lidx_main_v25 (ix2 r c) k) = ix3 (0 : Fin 1) r k := by
  have hr := r.isLt
  have hk := k.isLt
  funext a
  match a with
  | ⟨0, _⟩ => rfl
  | ⟨1, _⟩ => exact Fin.ext (by show (r.val * 128 + k.val) / 128 % 4096 = r.val; omega)
  | ⟨2, _⟩ => exact Fin.ext (by show (r.val * 128 + k.val) % 128 = k.val; omega)

theorem ridx25 (r : Fin 4096) (c k : Fin 128) : ridx_main_v25 (ix2 r c) k = ix2 k c := by
  funext a
  match a with
  | ⟨0, _⟩ => rfl
  | ⟨1, _⟩ => rfl

/-- The features times the first weight matrix, read at an index. -/
theorem feat_at (x0 : (⟨S1x4096x128, .f32⟩ : BufTy).Contents (Elt Ideal)) (x3 : (⟨S128x128, .f32⟩ : BufTy).Contents (Elt Ideal))
    (r : Fin 4096) (c : Fin 128) :
    val_main_v25 (F := Ideal) x0 x3 (ix2 r c) = feat x0 x3 r c := by
  rw [val_main_v25_apply]
  unfold feat
  refine Finset.sum_congr rfl fun k _ => ?_
  rw [val_main_v23_apply, idx23, ridx25]

theorem feat_real (x0 : (⟨S1x4096x128, .f32⟩ : BufTy).Contents (Elt Ideal)) (x3 : (⟨S128x128, .f32⟩ : BufTy).Contents (Elt Ideal))
    (h0 : AllReal x0) (h3 : AllReal x3) (r : Fin 4096) (c : Fin 128) : IsReal (feat x0 x3 r c) :=
  IsReal.sum_mul _ _ (fun _ => h0 _) (fun _ => h3 _)

theorem lidx26 (r : Fin 4096) (c : Fin 128) (k : Fin 4096) : lidx_main_v26 (ix2 r c) k = ix2 r k := by
  funext a
  match a with
  | ⟨0, _⟩ => rfl
  | ⟨1, _⟩ => rfl

theorem ridx26 (r : Fin 4096) (c : Fin 128) (k : Fin 4096) : ridx_main_v26 (ix2 r c) k = ix2 k c := by
  funext a
  match a with
  | ⟨0, _⟩ => rfl
  | ⟨1, _⟩ => rfl

theorem idx27 (r : Fin 4096) (c : Fin 128) : idx_main_v27 (idx_main_v28 (ix2 r c)) = ix1 c := by
  funext a
  match a with
  | ⟨0, _⟩ => rfl

/-- The encoder. -/
theorem ref_h (x0 : (⟨S1x4096x128, .f32⟩ : BufTy).Contents (Elt Ideal)) (x1 : (⟨S1x4096x4096, .f32⟩ : BufTy).Contents (Elt Ideal)) (x2 : (⟨S_, .f32⟩ : BufTy).Contents (Elt Ideal)) (x3 : (⟨S128x128, .f32⟩ : BufTy).Contents (Elt Ideal)) (x4 : (⟨S128, .f32⟩ : BufTy).Contents (Elt Ideal))
    (h0 : AllReal x0) (h1 : AllReal x1) (h2 : AllReal x2) (h3 : AllReal x3) (h4 : AllReal x4) (r : Fin 4096) (c : Fin 128) :
    val_main_v30 (F := Ideal) x0 x1 x2 x3 x4 (ix2 r c) = emb x0 x1 x2 x3 x4 r c := by
  rw [val_main_v30_apply, val_main_v29_apply, val_main_v26_apply, val_main_v28_apply, val_main_v27_apply,
    val_main_call1_v0_apply, val_main_call1_cst_apply, idx27]
  simp only [lidx26, ridx26, A_at, feat_at, dis_at x1 x2 h1 h2]
  have hn := norm_law (fun j => x1 (ix3 (0 : Fin 1) r j)) (dis x1 x2) (fun j => feat x0 x3 j c) (x2 ix0) r
    (h1 _) (h2 _) (dis_real x1 x2 h1 h2 r) (feat_real x0 x3 h0 h3 r c)
  rw [Ideal.ofBits_def, Ideal.ofBits_zero_f32, Ideal.maximumf_def, Ideal.addf_def, hn]
  rfl

/-- The encoder of real entries is real entrywise. -/
theorem emb_real (x0 : (⟨S1x4096x128, .f32⟩ : BufTy).Contents (Elt Ideal)) (x1 : (⟨S1x4096x4096, .f32⟩ : BufTy).Contents (Elt Ideal)) (x2 : (⟨S_, .f32⟩ : BufTy).Contents (Elt Ideal)) (x3 : (⟨S128x128, .f32⟩ : BufTy).Contents (Elt Ideal)) (x4 : (⟨S128, .f32⟩ : BufTy).Contents (Elt Ideal))
    (h0 : AllReal x0) (h1 : AllReal x1) (h2 : AllReal x2) (h3 : AllReal x3) (h4 : AllReal x4) (r : Fin 4096) (c : Fin 128) :
    IsReal (emb x0 x1 x2 x3 x4 r c) := by
  have hz : ∀ j, IsReal (z x0 x1 x2 x3 j c) := fun j => (dis_real x1 x2 h1 h2 j).mul (feat_real x0 x3 h0 h3 j c)
  have hab : ∀ j, IsReal (ab x1 x2 r j) := fun j => IsReal.mul (h1 _) (dis_real x1 x2 h1 h2 r)
  exact IsReal.max (((IsReal.sum_mul _ _ hab hz).add (((IsReal.mul (h2 _) (dis_real x1 x2 h1 h2 r))).mul (hz r))).add (h4 _))
    IsReal.zero

theorem lidx31 (r : Fin 4096) (c : Fin 40) (k : Fin 128) : lidx_main_v31 (ix2 r c) k = ix2 r k := by
  funext a
  match a with
  | ⟨0, _⟩ => rfl
  | ⟨1, _⟩ => rfl

theorem ridx31 (r : Fin 4096) (c : Fin 40) (k : Fin 128) : ridx_main_v31 (ix2 r c) k = ix2 k c := by
  funext a
  match a with
  | ⟨0, _⟩ => rfl
  | ⟨1, _⟩ => rfl

/-- The encoder times the decoder's weight matrix, read at an index. -/
theorem embWd_at (x0 : (⟨S1x4096x128, .f32⟩ : BufTy).Contents (Elt Ideal)) (x1 : (⟨S1x4096x4096, .f32⟩ : BufTy).Contents (Elt Ideal)) (x2 : (⟨S_, .f32⟩ : BufTy).Contents (Elt Ideal)) (x3 : (⟨S128x128, .f32⟩ : BufTy).Contents (Elt Ideal)) (x4 : (⟨S128, .f32⟩ : BufTy).Contents (Elt Ideal))
    (x5 : (⟨S128x40, .f32⟩ : BufTy).Contents (Elt Ideal))
    (h0 : AllReal x0) (h1 : AllReal x1) (h2 : AllReal x2) (h3 : AllReal x3) (h4 : AllReal x4) (r : Fin 4096) (c : Fin 40) :
    val_main_v31 (F := Ideal) x0 x1 x2 x3 x4 x5 (ix2 r c) = ∑ k : Fin 128, emb x0 x1 x2 x3 x4 r k * x5 (ix2 k c) := by
  rw [val_main_v31_apply]
  refine Finset.sum_congr rfl fun k _ => ?_
  rw [lidx31, ridx31, ref_h x0 x1 x2 x3 x4 h0 h1 h2 h3 h4]

theorem lidx32 (r : Fin 4096) (c : Fin 40) (k : Fin 4096) : lidx_main_v32 (ix2 r c) k = ix2 r k := by
  funext a
  match a with
  | ⟨0, _⟩ => rfl
  | ⟨1, _⟩ => rfl

theorem ridx32 (r : Fin 4096) (c : Fin 40) (k : Fin 4096) : ridx_main_v32 (ix2 r c) k = ix2 k c := by
  funext a
  match a with
  | ⟨0, _⟩ => rfl
  | ⟨1, _⟩ => rfl

theorem idx33 (r : Fin 4096) (c : Fin 40) : idx_main_v33 (idx_main_v34 (ix2 r c)) = ix1 c := by
  funext a
  match a with
  | ⟨0, _⟩ => rfl

/-- The decoder. -/
theorem ref_logits (x0 : (⟨S1x4096x128, .f32⟩ : BufTy).Contents (Elt Ideal)) (x1 : (⟨S1x4096x4096, .f32⟩ : BufTy).Contents (Elt Ideal)) (x2 : (⟨S_, .f32⟩ : BufTy).Contents (Elt Ideal)) (x3 : (⟨S128x128, .f32⟩ : BufTy).Contents (Elt Ideal)) (x4 : (⟨S128, .f32⟩ : BufTy).Contents (Elt Ideal))
    (x5 : (⟨S128x40, .f32⟩ : BufTy).Contents (Elt Ideal)) (x6 : (⟨S40, .f32⟩ : BufTy).Contents (Elt Ideal))
    (h0 : AllReal x0) (h1 : AllReal x1) (h2 : AllReal x2) (h3 : AllReal x3) (h4 : AllReal x4) (h5 : AllReal x5) (h6 : AllReal x6)
    (r : Fin 4096) (c : Fin 40) :
    val_main_v35 (F := Ideal) x0 x1 x2 x3 x4 x5 x6 (ix2 r c) = logit x0 x1 x2 x3 x4 x5 x6 r c := by
  rw [val_main_v35_apply, val_main_v32_apply, val_main_v34_apply, val_main_v33_apply, idx33]
  simp only [lidx32, ridx32, A_at, embWd_at x0 x1 x2 x3 x4 x5 h0 h1 h2 h3 h4, dis_at x1 x2 h1 h2]
  have hn := norm_law (fun j => x1 (ix3 (0 : Fin 1) r j)) (dis x1 x2)
    (fun j => ∑ k : Fin 128, emb x0 x1 x2 x3 x4 j k * x5 (ix2 k c)) (x2 ix0) r
    (h1 _) (h2 _) (dis_real x1 x2 h1 h2 r)
    (IsReal.sum_mul _ _ (fun k => emb_real x0 x1 x2 x3 x4 h0 h1 h2 h3 h4 r k) (fun _ => h5 _))
  rw [Ideal.addf_def, hn]
  rfl

theorem idx40 (r : Fin 4096) (c : Fin 40) : idx_main_v40 (ix3 (0 : Fin 1) r c) = ix2 r c := by
  funext a
  match a with
  | ⟨0, _⟩ => rfl
  | ⟨1, _⟩ => rfl

theorem lidx36 (r : Fin 4096) (c : Fin 40) (k : Fin 128) : lidx_main_v36 (ix2 r c) k = ix2 r k := by
  funext a
  match a with
  | ⟨0, _⟩ => rfl
  | ⟨1, _⟩ => rfl

theorem ridx36 (r : Fin 4096) (c : Fin 40) (k : Fin 128) : ridx_main_v36 (ix2 r c) k = ix2 k c := by
  funext a
  match a with
  | ⟨0, _⟩ => rfl
  | ⟨1, _⟩ => rfl

theorem idx37 (r : Fin 4096) (c : Fin 40) : idx_main_v37 (idx_main_v38 (ix2 r c)) = ix1 c := by
  funext a
  match a with
  | ⟨0, _⟩ => rfl

/-- The node head. -/
theorem ref_lnode (x0 : (⟨S1x4096x128, .f32⟩ : BufTy).Contents (Elt Ideal)) (x1 : (⟨S1x4096x4096, .f32⟩ : BufTy).Contents (Elt Ideal)) (x2 : (⟨S_, .f32⟩ : BufTy).Contents (Elt Ideal)) (x3 : (⟨S128x128, .f32⟩ : BufTy).Contents (Elt Ideal)) (x4 : (⟨S128, .f32⟩ : BufTy).Contents (Elt Ideal))
    (x7 : (⟨S128x40, .f32⟩ : BufTy).Contents (Elt Ideal)) (x8 : (⟨S40, .f32⟩ : BufTy).Contents (Elt Ideal))
    (h0 : AllReal x0) (h1 : AllReal x1) (h2 : AllReal x2) (h3 : AllReal x3) (h4 : AllReal x4) (h7 : AllReal x7) (h8 : AllReal x8)
    (r : Fin 4096) (c : Fin 40) :
    val_main_v40 (F := Ideal) x0 x1 x2 x3 x4 x7 x8 (ix3 (0 : Fin 1) r c) = lnode x0 x1 x2 x3 x4 x7 x8 r c := by
  rw [val_main_v40_apply, idx40, val_main_v39_apply, val_main_v36_apply, val_main_v38_apply, val_main_v37_apply, idx37]
  simp only [lidx36, ridx36, ref_h x0 x1 x2 x3 x4 h0 h1 h2 h3 h4]
  rfl

end Cert.ReferenceIdeal.RefValue

end
-- ==== Proof.Finite.lean ====
import proofs.«138326_g49246095016332_cont_8to1_c_632_4_alg».proof.Pre_finite_inputs
import proofs.«138326_g49246095016332_cont_8to1_c_632_4_alg».proof.Proof.Gen.Pre_finite_inputs
import proofs.«138326_g49246095016332_cont_8to1_c_632_4_alg».proof.Proof.Spec
import Idealize.ShloMosaic.Lib.ReduceAll
import Idealize.ShloMosaic.Lib.ValueIdx
import Idealize.ShloMosaic.PureOps.Ideal

/-!
The finiteness precondition read back. The printed predicate is, for each of the nine float inputs, the conjunction over
all entries of `|x| < +∞`, and the nine results conjoined. Over the extended reals `|v| = max v (-v)` is below `+∞` exactly when
`v` is neither `+∞` nor `-∞`, that is when `v` is a real number; so the predicate being true makes every entry of every
input a real number.
-/

namespace Cert.Pre_finite_inputs.Decode

open Idealize.ShloMosaic Cert.Pre_finite_inputs

/-- The rank-zero shape has one index. -/
instance : Subsingleton S_.Idx := ⟨fun a b => funext fun d => d.elim0⟩

/-- The word `0x7F800000` (sign 0, exponent all ones, significand 0) denotes `+∞`. -/
theorem ofBits_inf : Ideal.ofBits .f32 0x7F800000#32 = (⊤ : EReal) := by
  simp [Ideal.ofBits, Ideal.ieee]

/-- An extended real whose absolute value `max v (-v)` is strictly below `+∞` is a real number. -/
theorem real_of_abs_lt_top (v : EReal) (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

/-- `all(|x| < +∞)`: when the conjunction over every entry of the comparison of `|x|` with an array that is `+∞` everywhere
    is true, every entry of `x` is a real number. -/
theorem allReal_of_all {S : Shape} {axes : List (Fin S.rank)} (x top : FVec Ideal S .f32)
    (htop : ∀ i, top i = Ideal.ofBits .f32 0x7F800000#32) (init : IVec S_ 1) (hr : S.ReducesTo axes S_) (hu : 0 < S_.numel)
    (e : Host.reduce IntOp.andi (cmpf .olt (Host.absf x) top) init hr hu ValueIdx.ix0 = 1#1) : Cert.GcnSpec.AllReal x := by
  intro i
  have hi := Host.reduce_andi_all _ init hr hu _ e i
  rw [ValueIdx.cmpf_apply, htop i, ofBits_inf] at hi
  exact real_of_abs_lt_top (x i) hi

/-- The finiteness precondition makes every entry of each of the nine float inputs a real number. -/
theorem allReal_of_pre [Cert.Pre_finite_inputs.Facts]
    (a0 : FVec Ideal S1x4096x128 .f32) (a1 : FVec Ideal S1x4096x4096 .f32) (a2 : FVec Ideal S_ .f32)
    (a3 : FVec Ideal S128x128 .f32) (a4 : FVec Ideal S128 .f32) (a5 : FVec Ideal S128x40 .f32) (a6 : FVec Ideal S40 .f32)
    (a7 : FVec Ideal S128x40 .f32) (a8 : FVec Ideal S40 .f32)
    (h : Cert.Pre_finite_inputs.fn (F := Ideal) a0 a1 a2 a3 a4 a5 a6 a7 a8 = (fun _ => 1#1)) :
    Cert.GcnSpec.AllReal a0 ∧ Cert.GcnSpec.AllReal a1 ∧ Cert.GcnSpec.AllReal a2 ∧ Cert.GcnSpec.AllReal a3 ∧
      Cert.GcnSpec.AllReal a4 ∧ Cert.GcnSpec.AllReal a5 ∧ Cert.GcnSpec.AllReal a6 ∧ Cert.GcnSpec.AllReal a7 ∧
      Cert.GcnSpec.AllReal a8 := by
  have h0 := congrFun h ValueIdx.ix0
  dsimp only [fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨allReal_of_all a0 _ (fun _ => rfl) _ _ _ e0, allReal_of_all a1 _ (fun _ => rfl) _ _ _ e1,
    allReal_of_all a2 _ (fun _ => rfl) _ _ _ e2, allReal_of_all a3 _ (fun _ => rfl) _ _ _ e3,
    allReal_of_all a4 _ (fun _ => rfl) _ _ _ e4, allReal_of_all a5 _ (fun _ => rfl) _ _ _ e5,
    allReal_of_all a6 _ (fun _ => rfl) _ _ _ e6, allReal_of_all a7 _ (fun _ => rfl) _ _ _ e7,
    allReal_of_all a8 _ (fun _ => rfl) _ _ _ e8⟩

end Cert.Pre_finite_inputs.Decode
-- ==== Proof.Algebraic.lean ====
import proofs.«138326_g49246095016332_cont_8to1_c_632_4_alg».proof.Defs
import proofs.«138326_g49246095016332_cont_8to1_c_632_4_alg».proof.Proof.Gen.ReferenceIdeal.Run
import proofs.«138326_g49246095016332_cont_8to1_c_632_4_alg».proof.Proof.Gen.ReferenceIdeal.Read
import proofs.«138326_g49246095016332_cont_8to1_c_632_4_alg».proof.Proof.Gen.Pre_finite_inputs
import proofs.«138326_g49246095016332_cont_8to1_c_632_4_alg».proof.Proof.KI.Frame
import proofs.«138326_g49246095016332_cont_8to1_c_632_4_alg».proof.Proof.KI.FinalArrays
import proofs.«138326_g49246095016332_cont_8to1_c_632_4_alg».proof.Proof.KI.KernelSpec
import proofs.«138326_g49246095016332_cont_8to1_c_632_4_alg».proof.Proof.KI.HostReads
import proofs.«138326_g49246095016332_cont_8to1_c_632_4_alg».proof.Proof.RefRead
import proofs.«138326_g49246095016332_cont_8to1_c_632_4_alg».proof.Proof.Finite

/-!
The value claim: at the ideal instance the kernel and the reference, run from memories that agree on the nine arguments,
end with equal results.

The kernel's three result arrays after the run are the whole-array functions the frame's proof data tracks (the encoder
block by block over phase 1, the node head likewise with a leading unit axis put on by the line after the region, the
decoder block by block over phase 2), and each of their entries is the specification's (`emb`, `lnode`, `logit`): the
kernel computes the normalised operator with the diagonal term apart, exactly as the specification is written. The
reference's three results are the specification's at every entry too, for real inputs — there the self loop is added to the
adjacency before normalising, and the two forms agree by distributing over the diagonal term, which needs every entry to be
a real number: this is where the precondition (every input finite) is used.
-/

set_option maxRecDepth 16384

noncomputable section

namespace Cert.Proof.Value

open Idealize.ShloMosaic Idealize.ShloMosaic.TcCoe Idealize.SL.Sem Idealize.ShloMosaic.ValueIdx
open Idealize.ShloMosaic.Pipeline (Dat)
open Cert.GcnSpec

/-! ## The kernel's run, with its three results named -/

section Kernel
open Cert.KernelIdeal Cert.KernelIdeal.Gen Cert.KernelIdeal.Body

variable (m : (ℓ : Loc nD τ sig) → Buf (Elt Ideal) ℓ) (ρ : Dev nD → PrngReg)

/-- The node head's result: the line after the region puts a leading unit axis on the region's second output. -/
def tailLn (c : Dev nD) : Buf (Elt Ideal) ((c.tc : Thread nD τ).loc main_v7) :=
  Pipeline.afterTail₀ cfgs (dats m) 0 (V0 m) [hostOps1] c main_v7

/-- The frame run re-posted: each result at its tracked whole-array function, the arguments unchanged. -/
theorem kernel_run : θ_run defs (onTc (τ := τ) (main (F := Ideal))) ⟨m, fun _ => 0, ρ⟩ (fun r => ∀ c : Dev nD,
      r.2.mem ((c.tc : Thread nD τ).loc main_v6_2) = GLg m c
      ∧ r.2.mem ((c.tc : Thread nD τ).loc main_v7) = tailLn m c
      ∧ r.2.mem ((c.tc : Thread nD τ).loc main_v6_0) = GH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 11).trans (final11 m c),
      (h c).2 main_v7 (Pipeline.mem_restRefs_of main_v7 (by decide) (by decide)),
      ((h c).1 9).trans (final9 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      ((h c).1 4).trans ((((dats m) 0 c).arrAt_in 4 rfl _).trans ((A_eq m c 4).trans (V_main_arg5 m c))),
      (((h c).2 main_arg6 (Pipeline.mem_restRefs_of main_arg6 (by decide) (by decide))).trans (W_main_arg6 m (dats m) c)),
      ((h c).1 5).trans ((((dats m) 0 c).arrAt_in 5 rfl _).trans ((A_eq m c 5).trans (V_main_arg7 m c))),
      (((h c).2 main_arg8 (Pipeline.mem_restRefs_of main_arg8 (by decide) (by decide))).trans (W_main_arg8 m (dats m) c))⟩)
    (run_main m ρ)

/-- Row `R` is row `R % 256` of row block `R / 256`. -/
theorem row_eq (R : Fin 4096) (base : ℕ) : R.val = 256 * ((base + R.val / 256) - base) + R.val % 256 := by
  have := Nat.div_add_mod R.val 256; omega

/-- The decoder's array, entry by entry, is the specification's. -/
theorem GLg_spec (c : Dev nD) (R : Fin 4096) (k : Fin 40) :
    GLg m c (ix2 R k) = logit (aX m c) (aAdj m c) (aLa m c) (aW0 m c) (aB0 m c) (aWd m c) (aBd m c) R k :=
  lgAt_row m c _ (by simp only [pt_val]; omega) (⟨R.val % 256, Nat.mod_lt _ (by decide)⟩ : Fin 256) R
    (by simp only [pt_val]; exact row_eq R 32) k
/-- The encoder's. -/
theorem GH_spec (c : Dev nD) (R : Fin 4096) (k : Fin 128) :
    GH m c (ix2 R k) = emb (aX m c) (aAdj m c) (aLa m c) (aW0 m c) (aB0 m c) R k :=
  embAt_row m c _ (by have := R.isLt; show 16 ≤ 16 + R.val / 256 ∧ 16 + R.val / 256 < 32; omega) (⟨R.val % 256, Nat.mod_lt _ (by decide)⟩ : Fin 256) R
    (by simp only [pt_val]; exact row_eq R 16) k
/-- The node head's, under its leading unit axis. -/
theorem tailLn_spec (c : Dev nD) (R : Fin 4096) (k : Fin 40) :
    (tailLn m c : S1x4096x40.Idx → EReal) (ix3 (0 : Fin 1) R k) = lnode (aX m c) (aAdj m c) (aLa m c) (aW0 m c) (aB0 m c) (aMw m c) (aMb m c) R k := by
  unfold tailLn
  rw [Cert.KernelIdeal.HostReads.tail_v7_apply m c (dats m) R k, final10 m c]
  exact lnAt_row m c _ (by have := R.isLt; show 16 ≤ 16 + R.val / 256 ∧ 16 + R.val / 256 < 32; omega) (⟨R.val % 256, Nat.mod_lt _ (by decide)⟩ : Fin 256) R
    (by simp only [pt_val]; exact row_eq R 16) k

end Kernel

/-! ## The two programs side by side -/

section Pair
open Cert.KernelIdeal.Body Cert.ReferenceIdeal.RefValue

/-- At the ideal instance, from memories agreeing on the arguments and under the precondition, both programs run and end
    with the same three results: the kernel's are the tracked arrays, entry by entry the specification's; the reference's are
    the specification's for real inputs, which the precondition gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => GLg m c, fun c => tailLn m c, fun c => GH m c, kernel_run m ρ, ?_⟩
  refine (θ_run Cert.ReferenceIdeal.defs _ _).mono (fun r h c => ?_) (Cert.ReferenceIdeal.Value.run (F := Ideal) m' ρ')
  obtain ⟨e35, e40, e30, k0, k1, k2, k3, k4, k5, k6, k7, k8⟩ := h c
  obtain ⟨a0, a1, a2, a3, a4, a5, a6, a7, a8⟩ := hagree c
  obtain ⟨r0, r1, r2, r3, r4, r5, r6, r7, r8⟩ :=
    Cert.Pre_finite_inputs.Decode.allReal_of_pre _ _ _ _ _ _ _ _ _ (hpre c)
  refine ⟨?_, ?_, ?_, k0, k1, k2, k3, k4, k5, k6, k7, k8⟩
  · rw [e35, Cert.ReferenceIdeal.Read.val_main_v35_eq, a0, a1, a2, a3, a4, a5, a6]
    funext j
    obtain ⟨R, k, rfl⟩ : ∃ (R : Fin 4096) (k : Fin 40), j = ix2 R k := ⟨j 0, j 1, eq_ix2 j⟩
    exact (ref_logits _ _ _ _ _ _ _ r0 r1 r2 r3 r4 r5 r6 R k).trans (GLg_spec m c R k).symm
  · rw [e40, Cert.ReferenceIdeal.Read.val_main_v40_eq, a0, a1, a2, a3, a4, a7, a8]
    funext j
    obtain ⟨z, R, k, rfl⟩ : ∃ (z : Fin 1) (R : Fin 4096) (k : Fin 40), j = ix3 z R k := ⟨j 0, j 1, j 2, eq_ix3 j⟩
    obtain rfl : z = 0 := Subsingleton.elim _ _
    exact (ref_lnode _ _ _ _ _ _ _ r0 r1 r2 r3 r4 r7 r8 R k).trans (tailLn_spec m c R k).symm
  · rw [e30, Cert.ReferenceIdeal.Read.val_main_v30_eq, a0, a1, a2, a3, a4]
    funext j
    obtain ⟨R, k, rfl⟩ : ∃ (R : Fin 4096) (k : Fin 128), j = ix2 R k := ⟨j 0, j 1, eq_ix2 j⟩
    exact (ref_h _ _ _ _ _ r0 r1 r2 r3 r4 R k).trans (GH_spec m c R k).symm

end Pair

end Cert.Proof.Value

end
-- ==== Proof.lean ====
/-
  The certificate of a dense graph-convolution encoder / decoder kernel against its jnp reference.

  The kernel makes ONE pass over the 4096 × 4096 adjacency in three phases of sixteen row blocks each, keeping the
  row-scaled adjacency, the row-scaled features and the inverse square-root degrees in scratch between phases: phase 0
  computes `deg = rowsum(adj) + la`, `dis = deg^(-1/2)` (0 where the degree is not positive) and stores `adj·dis`,
  `dis·(x·W0)`, `dis`; phase 1 computes the encoder `emb = max(Ab·z + (la·dis)·z + b0, 0)`, the node head
  `emb·mW + mb` and stores `dis·(emb·Wd)` and the decoder's diagonal term; phase 2 computes the decoder
  `Ab·zw + (la·dis)·zw + bd`. The reference adds `la·I` to the adjacency, normalises it on both sides and multiplies.
  Over the extended reals, for real inputs, the two are one function: `∑ⱼ ((adj r j + la·δ r j)·dis r·dis j)·v j
  = ∑ⱼ (adj r j·dis r)·(dis j·v j) + (la·dis r)·(dis r·v r)`, and `1 / sqrt d = d^(-1/2)` for a positive real `d`.

  The three frames: the reference's is its run with the results dropped; the two kernel programs' (the word-level one
  and its reading at the ideal instance) are proved by one argument written generically in the float instance — the
  region invariant holds the five scratch buffers at contents that agree, on the rows stored so far, with fixed functions
  of the entry arrays, and each point's run extends the agreement by its row block. The ideal pass rewrote nothing, so
  the idealisation conjunct is `True`. The value claim is `Cert.Proof.Value.algebraic`.
-/
import proofs.«138326_g49246095016332_cont_8to1_c_632_4_alg».proof.Defs
import proofs.«138326_g49246095016332_cont_8to1_c_632_4_alg».proof.Proof.Gen.Kernel
import proofs.«138326_g49246095016332_cont_8to1_c_632_4_alg».proof.Proof.Gen.KernelIdeal
import proofs.«138326_g49246095016332_cont_8to1_c_632_4_alg».proof.Proof.Gen.ReferenceIdeal
import proofs.«138326_g49246095016332_cont_8to1_c_632_4_alg».proof.Proof.Gen.ReferenceIdeal.Run
import proofs.«138326_g49246095016332_cont_8to1_c_632_4_alg».proof.Proof.Gen.ReferenceIdeal.Read
import proofs.«138326_g49246095016332_cont_8to1_c_632_4_alg».proof.Proof.Gen.Pre_finite_inputs
import proofs.«138326_g49246095016332_cont_8to1_c_632_4_alg».proof.Proof.K.Frame
import proofs.«138326_g49246095016332_cont_8to1_c_632_4_alg».proof.Proof.KI.Frame
import proofs.«138326_g49246095016332_cont_8to1_c_632_4_alg».proof.Proof.Algebraic

noncomputable section

namespace Cert.Proof

open Idealize.ShloMosaic Idealize.SL.Sem

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  frame_ri,
  trivial,
  Cert.Proof.Value.algebraic⟩

end Cert.Proof

end
